-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x64 : Shape := ⟨3, ![3, 64, 64]⟩
abbrev S3x64x5 : Shape := ⟨3, ![3, 64, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64x5 : S_.BroadcastsInDim S3x64x5 (![] : Fin 0 → Fin S3x64x5.rank)
  reducesTo_S3x64x5_S_d0_1_2 : S3x64x5.ReducesTo [0, 1, 2] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S5 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  main_v38

def fn_part1 {F : FTy → Type} [FloatOps F] (main_arg5 : FVec F S3x64x64 .f32) (main_arg6 : FVec F S64 .f32) (main_arg7 : FVec F S3x64x5 .f32) (main_arg8 : FVec F S5 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x5 .f32 := Host.absf main_arg7
  let main_cst_10 : FVec F S_ .f32 := constant S_ .f32 0x7F800000#32
  let main_v30 : FVec F S3x64x5 .f32 := broadcastInDim S3x64x5 ![] bcast_S_S3x64x5 main_cst_10
  let main_v31 : IVec S3x64x5 1 := cmpf .olt main_v29 main_v30
  let main_c_11 : IVec S_ 1 := constantI S_ 1 1#1
  let main_v32 : IVec S_ 1 := (fun x v => Host.reduce IntOp.andi x v reducesTo_S3x64x5_S_d0_1_2 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S3x128x64 .f32) (main_arg4 : FVec F S64 .f32) (main_arg5 : FVec F S3x64x64 .f32) (main_arg6 : FVec F S64 .f32) (main_arg7 : FVec F S3x64x5 .f32) (main_arg8 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x64 .f32 := Host.absf main_arg3
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_c_3 : IVec S_ 1 := constantI S_ 1 1#1
  let main_v12 : IVec S_ 1 := (fun x v => Host.reduce IntOp.andi x v reducesTo_S3x128x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x64 : Shape := ⟨3, ![3, 64, 64]⟩
abbrev S3x64x5 : Shape := ⟨3, ![3, 64, 5]⟩
abbrev S5 : Shape := ⟨1, ![5]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1x128x64 : Shape := ⟨3, ![1, 128, 64]⟩
abbrev S128x64 : Shape := ⟨2, ![128, 64]⟩
abbrev S1600000x64 : Shape := ⟨2, ![1600000, 64]⟩
abbrev S1x64 : Shape := ⟨2, ![1, 64]⟩
abbrev S1x64x64 : Shape := ⟨3, ![1, 64, 64]⟩
abbrev S64x64 : Shape := ⟨2, ![64, 64]⟩
abbrev S100000x5 : Shape := ⟨2, ![100000, 5]⟩
abbrev S5000x5 : Shape := ⟨2, ![5000, 5]⟩
abbrev S1x64x5 : Shape := ⟨3, ![1, 64, 5]⟩
abbrev S64x5 : Shape := ⟨2, ![64, 5]⟩
abbrev S1600000x5 : Shape := ⟨2, ![1600000, 5]⟩
abbrev S1x5 : Shape := ⟨2, ![1, 5]⟩
abbrev S5000 : Shape := ⟨1, ![5000]⟩
abbrev S5000x1 : Shape := ⟨2, ![5000, 1]⟩

abbrev nBuf : Space → Nat
  | .hbm => 211
  | .vmem => 50
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x64, .f32⟩
  | 4 => ⟨S64, .f32⟩
  | 5 => ⟨S3x64x64, .f32⟩
  | 6 => ⟨S64, .f32⟩
  | 7 => ⟨S3x64x5, .f32⟩
  | 8 => ⟨S5, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S100000x128, .bf16⟩
  | 54 => ⟨S100000x64, .bf16⟩
  | 55 => ⟨S100000x64, .bf16⟩
  | 56 => ⟨S100000x64, .bf16⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .bf16⟩
  | 67 => ⟨S1600000x64, .f32⟩
  | 68 => ⟨S1600000x64, .f32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .bf16⟩
  | 84 => ⟨S1600000x64, .f32⟩
  | 85 => ⟨S1600000x64, .f32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S100000x64, .bf16⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .bf16⟩
  | 102 => ⟨S1600000x64, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S1x64, .f32⟩
  | 110 => ⟨S100000x64, .bf16⟩
  | 111 => ⟨S1600000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .bf16⟩
  | 121 => ⟨S1600000x64, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x128, .f32⟩

abbrev hbmTy0_1 (i : Nat) : BufTy := match i % 128 with
  | 0 => ⟨S100000x64, .bf16⟩
  | 1 => ⟨S1600000x1, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x64, .bf16⟩
  | 11 => ⟨S1600000x64, .f32⟩
  | 12 => ⟨S1600000x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S100000x64, .f32⟩
  | 23 => ⟨S100000x64, .bf16⟩
  | 24 => ⟨S1x64, .f32⟩
  | 25 => ⟨S100000x64, .bf16⟩
  | 26 => ⟨S100000x5, .bf16⟩
  | 27 => ⟨S100000x5, .bf16⟩
  | 28 => ⟨S100000x5, .bf16⟩
  | 29 => ⟨S1600000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x5, .bf16⟩
  | 39 => ⟨S1600000x5, .f32⟩
  | 40 => ⟨S1600000x5, .f32⟩
  | 41 => ⟨S1600000x5, .f32⟩
  | 42 => ⟨S_, .f32⟩
  | 43 => ⟨S100000x5, .f32⟩
  | 44 => ⟨S1600000x1, .i32⟩
  | 45 => ⟨S100000x5, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x5, .bf16⟩
  | 56 => ⟨S1600000x5, .f32⟩
  | 57 => ⟨S1600000x5, .f32⟩
  | 58 => ⟨S1600000x5, .f32⟩
  | 59 => ⟨S_, .f32⟩
  | 60 => ⟨S100000x5, .f32⟩
  | 61 => ⟨S1600000x1, .i32⟩
  | 62 => ⟨S100000x5, .f32⟩
  | 63 => ⟨S100000x5, .bf16⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x5, .bf16⟩
  | 74 => ⟨S1600000x5, .f32⟩
  | 75 => ⟨S1600000x5, .f32⟩
  | 76 => ⟨S1600000x5, .f32⟩
  | 77 => ⟨S_, .f32⟩
  | 78 => ⟨S100000x5, .f32⟩
  | 79 => ⟨S1600000x1, .i32⟩
  | 80 => ⟨S100000x5, .f32⟩
  | 81 => ⟨S1x5, .f32⟩
  | 82 => ⟨S100000x5, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S3x128x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .bf16⟩
  | .local _ .vmem, ⟨6, _⟩ => ⟨S5000x64, .bf16⟩
  | .local _ .vmem, ⟨7, _⟩ => ⟨S5000x64, .bf16⟩
  | .local _ .vmem, ⟨8, _⟩ => ⟨S5000x64, .bf16⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S5000x64, .bf16⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .bf16⟩
  | .local _ .vmem, ⟨19, _⟩ => ⟨S5000x64, .bf16⟩
  | .local _ .vmem, ⟨20, _⟩ => ⟨S5000x64, .bf16⟩
  | .local _ .vmem, ⟨21, _⟩ => ⟨S5000x64, .bf16⟩
  | .local _ .vmem, ⟨22, _⟩ => ⟨S5000x64, .bf16⟩
  | .local _ .vmem, ⟨23, _⟩ => ⟨S5000x64, .bf16⟩
  | .local _ .vmem, ⟨24, _⟩ => ⟨S5000x64, .bf16⟩
  | .local _ .vmem, ⟨25, _⟩ => ⟨S5000x64, .bf16⟩
  | .local _ .vmem, ⟨26, _⟩ => ⟨S3x64x64, .f32⟩
  | .local _ .vmem, ⟨27, _⟩ => ⟨S1x64, .f32⟩
  | .local _ .vmem, ⟨28, _⟩ => ⟨S5000x64, .bf16⟩
  | .local _ .vmem, ⟨29, _⟩ => ⟨S5000x64, .bf16⟩
  | .local _ .vmem, ⟨30, _⟩ => ⟨S5000x64, .bf16⟩
  | .local _ .vmem, ⟨31, _⟩ => ⟨S5000x64, .bf16⟩
  | .local _ .vmem, ⟨32, _⟩ => ⟨S3x64x5, .f32⟩
  | .local _ .vmem, ⟨33, _⟩ => ⟨S5000x5, .bf16⟩
  | .local _ .vmem, ⟨34, _⟩ => ⟨S5000x5, .bf16⟩
  | .local _ .vmem, ⟨35, _⟩ => ⟨S5000x5, .bf16⟩
  | .local _ .vmem, ⟨36, _⟩ => ⟨S5000x5, .bf16⟩
  | .local _ .vmem, ⟨37, _⟩ => ⟨S5000x5, .bf16⟩
  | .local _ .vmem, ⟨38, _⟩ => ⟨S5000x5, .bf16⟩
  | .local _ .vmem, ⟨39, _⟩ => ⟨S5000x5, .bf16⟩
  | .local _ .vmem, ⟨40, _⟩ => ⟨S5000x5, .bf16⟩
  | .local _ .vmem, ⟨41, _⟩ => ⟨S5000x5, .bf16⟩
  | .local _ .vmem, ⟨42, _⟩ => ⟨S5000x5, .bf16⟩
  | .local _ .vmem, ⟨43, _⟩ => ⟨S5000x5, .f32⟩
  | .local _ .vmem, ⟨44, _⟩ => ⟨S5000x5, .f32⟩
  | .local _ .vmem, ⟨45, _⟩ => ⟨S5000x5, .f32⟩
  | .local _ .vmem, ⟨46, _⟩ => ⟨S5000x5, .f32⟩
  | .local _ .vmem, ⟨47, _⟩ => ⟨S1x5, .f32⟩
  | .local _ .vmem, ⟨48, _⟩ => ⟨S5000x5, .f32⟩
  | .local _ .vmem, ⟨49, _⟩ => ⟨S5000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32_0 : Ref sig .tc := ⟨.hbm, 54, rfl⟩
abbrev main_v32_1 : Ref sig .tc := ⟨.hbm, 55, rfl⟩
abbrev main_v32_2 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_19 : Ref sig .tc := ⟨.hbm, 130, rfl⟩
abbrev main_v94 : Ref sig .tc := ⟨.hbm, 131, rfl⟩
abbrev main_v95 : Ref sig .tc := ⟨.hbm, 132, rfl⟩
abbrev main_c_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_21 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114_0 : Ref sig .tc := ⟨.hbm, 154, rfl⟩
abbrev main_v114_1 : Ref sig .tc := ⟨.hbm, 155, rfl⟩
abbrev main_v114_2 : Ref sig .tc := ⟨.hbm, 156, rfl⟩
abbrev main_v115 : Ref sig .tc := ⟨.hbm, 157, rfl⟩
abbrev main_c_23 : Ref sig .tc := ⟨.hbm, 158, rfl⟩
abbrev main_v116 : Ref sig .tc := ⟨.hbm, 159, rfl⟩
abbrev main_v117 : Ref sig .tc := ⟨.hbm, 160, rfl⟩
abbrev main_c_24 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_25 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_26 : Ref sig .tc := ⟨.hbm, 175, rfl⟩
abbrev main_v130 : Ref sig .tc := ⟨.hbm, 176, rfl⟩
abbrev main_v131 : Ref sig .tc := ⟨.hbm, 177, rfl⟩
abbrev main_c_27 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_28 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_c_29 : Ref sig .tc := ⟨.hbm, 193, rfl⟩
abbrev main_v145 : Ref sig .tc := ⟨.hbm, 194, rfl⟩
abbrev main_v146 : Ref sig .tc := ⟨.hbm, 195, rfl⟩
abbrev main_c_30 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_31 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem3_1 : DmaSem sig := 46
abbrev cc4_sem4_0 : DmaSem sig := 47
abbrev cc4_sem5_0 : DmaSem sig := 48
abbrev cc4_sem5_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x64x5 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x5 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x5 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x5 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x5 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x5 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x5 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x5 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x5 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x5 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S3x64x5_S1x64x5_0_0_0 : ∀ a, (![0, 0, 0] : Fin 3 → Nat) a + S1x64x5.size a ≤ S3x64x5.size a
  h_S1x64x5 : 0 < S1x64x5.numel
  shapeCasts_S1x64x5_S64x5 : S1x64x5.ShapeCasts S64x5
  inb_S3x64x5_S1x64x5_1_0_0 : ∀ a, (![1, 0, 0] : Fin 3 → Nat) a + S1x64x5.size a ≤ S3x64x5.size a
  inb_S3x64x5_S1x64x5_2_0_0 : ∀ a, (![2, 0, 0] : Fin 3 → Nat) a + S1x64x5.size a ≤ S3x64x5.size a
  inb_S5000x5_S5000x5_0_0 : ∀ a, (![0, 0] : Fin 2 → Nat) a + S5000x5.size a ≤ S5000x5.size a
  h_S5000x5 : 0 < S5000x5.numel
  packedbf16_S5000x5_S5000x5_0_0 : (Rect.unit (s := S5000x5) ![0, 0] S5000x5.size inb_S5000x5_S5000x5_0_0).PackedRows (EltTy.packing .bf16)
  bcast_S1600000x1_S1600000x5_0_1 : S1600000x1.BroadcastsInDim S1600000x5 (![0, 1] : Fin 2 → Fin S1600000x5.rank)
  bcast_S_S100000x5 : S_.BroadcastsInDim S100000x5 (![] : Fin 0 → Fin S100000x5.rank)
  shapeCasts_S5_S1x5 : S5.ShapeCasts S1x5
  shapeCasts_S5000x5_S5000x5 : S5000x5.ShapeCasts S5000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  reduces_S5000x5_S5000 : S5000x5.Reduces [1] S5000
  shapeCasts_S5000_S5000x1 : S5000.ShapeCasts S5000x1
  broadcasts_S5000x1_S5000x5 : S5000x1.Broadcasts S5000x5
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x5_S5000x5_1_0_0_1_n_n_wf : DotDims.WF S5000x64 S64x5 S5000x5 [1] [0] [0] [1] [] []
  gather_S100000x5_S1600000x1_S1600000x5_1_0_n_n_0_1_15_wf : GatherDims.WF S100000x5 S1600000x1 S1600000x5 [1] [0] [] [0] [] 1 ![1, 5]
  scatter_S100000x5_S1600000x1_S1600000x5_1_0_0_1_wf : ScatterDims.WF S100000x5 S1600000x1 S1600000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x64.size a ≤ S3x128x64.size a
  hwx0_1 : ∀ i : grid0.Coords, EltTy.bits .f32 = 32 ∨ (Rect.block (s := S3x128x64) S3x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .bf16 = 32 ∨ (Rect.block (s := S100000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64x64.size a ≤ S3x64x64.size a
  hwx2_3 : ∀ i : grid2.Coords, EltTy.bits .f32 = 32 ∨ (Rect.block (s := S3x64x64) S3x64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .bf16 = 32 ∨ (Rect.block (s := S100000x64) S5000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .bf16 = 32 ∨ (Rect.block (s := S100000x64) S5000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S3x64x5.size a ≤ S3x64x5.size a
  hwx3_1 : ∀ i : grid3.Coords, EltTy.bits .f32 = 32 ∨ (Rect.block (s := S3x64x5) S3x64x5.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x5.size a ≤ S100000x5.size a
  hwx3_2 : ∀ i : grid3.Coords, EltTy.bits .bf16 = 32 ∨ (Rect.block (s := S100000x5) S5000x5.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x5.size a ≤ S100000x5.size a
  hwx3_3 : ∀ i : grid3.Coords, EltTy.bits .bf16 = 32 ∨ (Rect.block (s := S100000x5) S5000x5.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x5.size a ≤ S100000x5.size a
  hwx3_4 : ∀ i : grid3.Coords, EltTy.bits .bf16 = 32 ∨ (Rect.block (s := S100000x5) S5000x5.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x5.size a ≤ S100000x5.size a
  hwx4_0 : ∀ i : grid4.Coords, EltTy.bits .bf16 = 32 ∨ (Rect.block (s := S100000x5) S5000x5.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x5.size a ≤ S100000x5.size a
  hwx4_1 : ∀ i : grid4.Coords, EltTy.bits .bf16 = 32 ∨ (Rect.block (s := S100000x5) S5000x5.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x5.size a ≤ S100000x5.size a
  hwx4_2 : ∀ i : grid4.Coords, EltTy.bits .f32 = 32 ∨ (Rect.block (s := S100000x5) S5000x5.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x5.size a ≤ S100000x5.size a
  hwx4_3 : ∀ i : grid4.Coords, EltTy.bits .f32 = 32 ∨ (Rect.block (s := S100000x5) S5000x5.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x5.size a ≤ S1x5.size a
  hwx4_4 : ∀ i : grid4.Coords, EltTy.bits .f32 = 32 ∨ (Rect.block (s := S1x5) S1x5.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x5.size a ≤ S100000x5.size a
  hwx4_5 : ∀ i : grid4.Coords, EltTy.bits .f32 = 32 ∨ (Rect.block (s := S100000x5) S5000x5.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x5_S5000x5_1_0_0_1_n_n : DotDims S5000x64 S64x5 S5000x5 where
  lhsContracting := [1]
  rhsContracting := [0]
  lhsNonContracting := [0]
  rhsNonContracting := [1]
  lhsBatch := []
  rhsBatch := []
  wf := dot_S5000x64_S64x5_S5000x5_1_0_0_1_n_n_wf
def gather_S100000x5_S1600000x1_S1600000x5_1_0_n_n_0_1_15 : GatherDims S100000x5 S1600000x1 S1600000x5 where
  offsetDims := [1]
  collapsedSliceDims := [0]
  operandBatchingDims := []
  startIndicesBatchingDims := []
  startIndexMap := [0]
  indexVectorDim := 1
  sliceSizes := ![1, 5]
  wf := gather_S100000x5_S1600000x1_S1600000x5_1_0_n_n_0_1_15_wf
def scatter_S100000x5_S1600000x1_S1600000x5_1_0_0_1 : ScatterDims S100000x5 S1600000x1 S1600000x5 where
  updateWindowDims := [1]
  insertedWindowDims := [0]
  scatterDimsToOperandDims := [0]
  indexVectorDim := 1
  wf := scatter_S100000x5_S1600000x1_S1600000x5_1_0_0_1_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32_0) S5000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_1) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_2) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_2) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v76) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v77) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v77) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v111) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S3x64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v112) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v113) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v113) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S3x64x5.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v114_0) S5000x5.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v114_1) S5000x5.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v114_2) S5000x5.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v114_0) S5000x5.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114_2) S5000x5.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v128) S5000x5.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v157) S5000x5.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v158) S1x5.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v159) S5000x5.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x64 : Shape := ⟨3, ![3, 64, 64]⟩
abbrev S3x64x5 : Shape := ⟨3, ![3, 64, 5]⟩
abbrev S5 : Shape := ⟨1, ![5]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x128x64 : Shape := ⟨3, ![1, 128, 64]⟩
abbrev S128x64 : Shape := ⟨2, ![128, 64]⟩
abbrev S100000x64 : Shape := ⟨2, ![100000, 64]⟩
abbrev S1600000x128 : Shape := ⟨2, ![1600000, 128]⟩
abbrev S1x64 : Shape := ⟨2, ![1, 64]⟩
abbrev S1x64x64 : Shape := ⟨3, ![1, 64, 64]⟩
abbrev S64x64 : Shape := ⟨2, ![64, 64]⟩
abbrev S1600000x64 : Shape := ⟨2, ![1600000, 64]⟩
abbrev S1x64x5 : Shape := ⟨3, ![1, 64, 5]⟩
abbrev S64x5 : Shape := ⟨2, ![64, 5]⟩
abbrev S100000x5 : Shape := ⟨2, ![100000, 5]⟩
abbrev S1x5 : Shape := ⟨2, ![1, 5]⟩
abbrev S100000x1 : Shape := ⟨2, ![100000, 1]⟩

abbrev nBuf : Space → Nat
  | .hbm => 224
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x64, .f32⟩
  | 4 => ⟨S64, .f32⟩
  | 5 => ⟨S3x64x64, .f32⟩
  | 6 => ⟨S64, .f32⟩
  | 7 => ⟨S3x64x5, .f32⟩
  | 8 => ⟨S5, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x128x64, .f32⟩
  | 54 => ⟨S128x64, .f32⟩
  | 55 => ⟨S100000x64, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S1x128x64, .f32⟩
  | 73 => ⟨S128x64, .f32⟩
  | 74 => ⟨S100000x64, .f32⟩
  | 75 => ⟨S100000x64, .f32⟩
  | 76 => ⟨S1600000x1, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S1x128x64, .f32⟩
  | 97 => ⟨S128x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S1x64x64, .f32⟩
  | 107 => ⟨S64x64, .f32⟩
  | 108 => ⟨S100000x64, .f32⟩
  | 109 => ⟨S1600000x1, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x64, .f32⟩
  | 120 => ⟨S1600000x64, .f32⟩
  | 121 => ⟨S_, .f32⟩
  | 122 => ⟨S100000x64, .f32⟩
  | 123 => ⟨S1600000x1, .i32⟩
  | 124 => ⟨S100000x64, .f32⟩
  | 125 => ⟨S1x64x64, .f32⟩
  | 126 => ⟨S64x64, .f32⟩
  | 127 => ⟨S100000x64, .f32⟩
  | _ => ⟨S100000x128, .f32⟩

abbrev hbmTy0_1 (i : Nat) : BufTy := match i % 128 with
  | 0 => ⟨S100000x64, .f32⟩
  | 1 => ⟨S1600000x1, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x64, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S_, .f32⟩
  | 18 => ⟨S100000x64, .f32⟩
  | 19 => ⟨S100000x64, .f32⟩
  | 20 => ⟨S100000x64, .f32⟩
  | 21 => ⟨S1x64x64, .f32⟩
  | 22 => ⟨S64x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S1x64x5, .f32⟩
  | 32 => ⟨S64x5, .f32⟩
  | 33 => ⟨S100000x5, .f32⟩
  | 34 => ⟨S1600000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1x64x5, .f32⟩
  | 51 => ⟨S64x5, .f32⟩
  | 52 => ⟨S100000x5, .f32⟩
  | 53 => ⟨S100000x5, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S1x64x5, .f32⟩
  | 75 => ⟨S64x5, .f32⟩
  | 76 => ⟨S100000x5, .f32⟩
  | 77 => ⟨S100000x5, .f32⟩
  | 78 => ⟨S1x5, .f32⟩
  | 79 => ⟨S100000x5, .f32⟩
  | 80 => ⟨S100000x5, .f32⟩
  | 81 => ⟨S_, .f32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x5, .f32⟩
  | 88 => ⟨S100000x5, .f32⟩
  | 89 => ⟨S100000x5, .f32⟩
  | 90 => ⟨S_, .f32⟩
  | 91 => ⟨S100000, .f32⟩
  | 92 => ⟨S100000x1, .f32⟩
  | 93 => ⟨S100000x1, .f32⟩
  | 94 => ⟨S100000x5, .f32⟩
  | 95 => ⟨S100000x5, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call2_cst : Ref sig .tc := ⟨.hbm, 103, rfl⟩
abbrev main_call2_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_14 : Ref sig .tc := ⟨.hbm, 110, rfl⟩
abbrev main_v79 : Ref sig .tc := ⟨.hbm, 111, rfl⟩
abbrev main_v80 : Ref sig .tc := ⟨.hbm, 112, rfl⟩
abbrev main_c_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_17 : Ref sig .tc := ⟨.hbm, 130, rfl⟩
abbrev main_v96 : Ref sig .tc := ⟨.hbm, 131, rfl⟩
abbrev main_v97 : Ref sig .tc := ⟨.hbm, 132, rfl⟩
abbrev main_c_18 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_19 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_20 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_call3_cst : Ref sig .tc := ⟨.hbm, 156, rfl⟩
abbrev main_call3_v0 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_c_21 : Ref sig .tc := ⟨.hbm, 163, rfl⟩
abbrev main_v123 : Ref sig .tc := ⟨.hbm, 164, rfl⟩
abbrev main_v124 : Ref sig .tc := ⟨.hbm, 165, rfl⟩
abbrev main_c_22 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_23 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_24 : Ref sig .tc := ⟨.hbm, 183, rfl⟩
abbrev main_v140 : Ref sig .tc := ⟨.hbm, 184, rfl⟩
abbrev main_v141 : Ref sig .tc := ⟨.hbm, 185, rfl⟩
abbrev main_c_25 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_26 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_27 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_call4_cst : Ref sig .tc := ⟨.hbm, 209, rfl⟩
abbrev main_call4_v0 : Ref sig .tc := ⟨.hbm, 210, rfl⟩
abbrev main_call4_cst_0 : Ref sig .tc := ⟨.hbm, 211, rfl⟩
abbrev main_call4_v1 : Ref sig .tc := ⟨.hbm, 212, rfl⟩
abbrev main_call4_v2 : Ref sig .tc := ⟨.hbm, 213, rfl⟩
abbrev main_call4_v3 : Ref sig .tc := ⟨.hbm, 214, rfl⟩
abbrev main_call4_v4 : Ref sig .tc := ⟨.hbm, 215, rfl⟩
abbrev main_call4_v5 : Ref sig .tc := ⟨.hbm, 216, rfl⟩
abbrev main_call4_v6 : Ref sig .tc := ⟨.hbm, 217, rfl⟩
abbrev main_call4_cst_1 : Ref sig .tc := ⟨.hbm, 218, rfl⟩
abbrev main_call4_v7 : Ref sig .tc := ⟨.hbm, 219, rfl⟩
abbrev main_call4_v8 : Ref sig .tc := ⟨.hbm, 220, rfl⟩
abbrev main_call4_v9 : Ref sig .tc := ⟨.hbm, 221, rfl⟩
abbrev main_call4_v10 : Ref sig .tc := ⟨.hbm, 222, rfl⟩
abbrev main_v162 : Ref sig .tc := ⟨.hbm, 223, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x128x64_S1x128x64_0_0_0 : S3x128x64.Slices ![0, 0, 0] S1x128x64
  shapeCasts_S1x128x64_S128x64 : S1x128x64.ShapeCasts S128x64
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  slices_S3x64x64_S1x64x64_1_0_0 : S3x64x64.Slices ![1, 0, 0] S1x64x64
  slices_S3x64x64_S1x64x64_2_0_0 : S3x64x64.Slices ![2, 0, 0] S1x64x64
  slices_S3x64x5_S1x64x5_0_0_0 : S3x64x5.Slices ![0, 0, 0] S1x64x5
  shapeCasts_S1x64x5_S64x5 : S1x64x5.ShapeCasts S64x5
  slices_S3x64x5_S1x64x5_1_0_0 : S3x64x5.Slices ![1, 0, 0] S1x64x5
  slices_S3x64x5_S1x64x5_2_0_0 : S3x64x5.Slices ![2, 0, 0] S1x64x5
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  reducesTo_S100000x5_S100000_d1 : S100000x5.ReducesTo [1] S100000
  h_S_ : 0 < S_.numel
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x5_S100000x5_1_0_0_1_n_n_wf : DotDims.WF S100000x64 S64x5 S100000x5 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x5_S100000x5_1_0_0_1_n_n : DotDims S100000x64 S64x5 S100000x5 where
  lhsContracting := [1]
  rhsContracting := [0]
  lhsNonContracting := [0]
  rhsNonContracting := [1]
  lhsBatch := []
  rhsBatch := []
  wf := dot_S100000x64_S64x5_S100000x5_1_0_0_1_n_n_wf

class Facts : Prop extends Facts₀ where

variable [Facts]
-- ==== Proof.KernelHostDefs.lean ====
/-
  The host side of the kernel program as named array-level functions.

  Between its five kernel launches the program prepares, with host operations, the same edge list and edge coefficients
  as the reference (the symmetric normalisation of the weighted graph) and propagates narrow feature matrices along the
  edges: every edge takes its source row (held in the narrower float format, widened after the gather), scales it by the
  edge's coefficient, and adds it into its target row of a zero matrix. Each function below is the composition of the
  host operations the program runs for that piece, with the program's own dimension records, at the ideal instance.
-/
import proofs.«135650_j10402410791478_2_alg».proof.Proof.Gen.KernelIdeal
import Idealize.ShloMosaic.PureOps.Ideal

noncomputable section

namespace Cert.KernelIdeal.HostValue

open Cert.KernelIdeal Cert.KernelIdeal.Gen Idealize.ShloMosaic

/-! ## The edge list -/

/-- Row `k` of the edge index array [2, E] as a vector [E]. -/
def edgeRow (ei : IVec S2x1600000 32) (off : Fin S2x1600000.rank → Nat) (h : S2x1600000.Slices off S1x1600000) :
    IVec S1600000 32 :=
  shapeCast S1600000 (extractStridedSlice S1x1600000 off ei h) shapeCasts_S1x1600000_S1600000

/-- The target node of every edge. -/
def rowOf (ei : IVec S2x1600000 32) : IVec S1600000 32 := edgeRow ei ![0, 0] slices_S2x1600000_S1x1600000_0_0
/-- The source node of every edge. -/
def colOf (ei : IVec S2x1600000 32) : IVec S1600000 32 := edgeRow ei ![1, 0] slices_S2x1600000_S1x1600000_1_0

/-- Node indices as a gather reads them: a negative index is shifted up by the number of nodes; laid out as a column [E, 1]. -/
def gatherIdx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- Node indices as an accumulating scatter reads them: laid out as a column [E, 1], not shifted. -/
def scatterIdx (a : IVec S1600000 32) : IVec S1600000x1 32 :=
  broadcastInDim S1600000x1 ![0] bcast_S1600000_S1600000x1_0 a

/-! ## The symmetric normalisation -/

/-- The weighted degree of every node: the edge weights summed into their target nodes. -/
def degRef (row : IVec S1600000 32) (w : FVec Ideal S1600000 .f32) : FVec Ideal S100000 .f32 :=
  Host.scatterAdd (F := Ideal) scatter_S100000_S1600000x1_S1600000_n_0_0_1
    (broadcastInDim S100000 ![] bcast_S_S100000 (constant (F := Ideal) S_ .f32 0x00000000#32)) (scatterIdx row) w

/-- `deg > 0`, node by node. -/
def degPos (deg : FVec Ideal S100000 .f32) : IVec S100000 1 :=
  cmpf .ogt deg (broadcastInDim S100000 ![] bcast_S_S100000 (constant (F := Ideal) S_ .f32 0x00000000#32))

/-- `deg^(-1/2)` where the degree is positive and 0 elsewhere. -/
def dinvRef (deg : FVec Ideal S100000 .f32) : FVec Ideal S100000 .f32 :=
  select (degPos deg)
    (Host.rsqrt (F := Ideal) (select (degPos deg) deg
      (broadcastInDim S100000 ![] bcast_S_S100000 (id (constant (F := Ideal) S_ .f32 0x3F800000#32)))))
    (broadcastInDim S100000 ![] bcast_S_S100000 (id (constant (F := Ideal) S_ .f32 0x00000000#32)))

/-- The coefficient of every edge: `−dinv[target] · weight · dinv[source]`. -/
def nrmOf (dinv : FVec Ideal S100000 .f32) (row col : IVec S1600000 32) (w : FVec Ideal S1600000 .f32) :
    FVec Ideal S1600000 .f32 :=
  mulf (mulf (Host.negf (F := Ideal) (Host.gather gather_S100000_S1600000x1_S1600000_n_0_n_n_0_1_1 dinv (gatherIdx row))) w)
    (Host.gather gather_S100000_S1600000x1_S1600000_n_0_n_n_0_1_1 dinv (gatherIdx col))

/-- The edge coefficients from the edge list and the weights. -/
def nrmRef (row col : IVec S1600000 32) (w : FVec Ideal S1600000 .f32) : FVec Ideal S1600000 .f32 :=
  nrmOf (dinvRef (degRef row w)) row col w

/-! ## Propagation along the edges -/

/-- One propagation step at width 64 of a matrix held in the narrower format. -/
def prop64 (row col : IVec S1600000 32) (nrm : FVec Ideal S1600000 .f32) (v : FVec Ideal S100000x64 .bf16) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (scatterIdx row)
    (mulf (broadcastInDim S1600000x64 ![0, 1] bcast_S1600000x1_S1600000x64_0_1
        (broadcastInDim S1600000x1 ![0] bcast_S1600000_S1600000x1_0 nrm))
      (extf .f32 (Host.gather gather_S100000x64_S1600000x1_S1600000x64_1_0_n_n_0_1_164 v (gatherIdx col)) bitsLt_bf16_f32))

/-- One propagation step at width 5 of a matrix held in the narrower format. -/
def prop5 (row col : IVec S1600000 32) (nrm : FVec Ideal S1600000 .f32) (v : FVec Ideal S100000x5 .bf16) :
    FVec Ideal S100000x5 .f32 :=
  Host.scatterAdd (F := Ideal) scatter_S100000x5_S1600000x1_S1600000x5_1_0_0_1
    (broadcastInDim S100000x5 ![] bcast_S_S100000x5 (constant (F := Ideal) S_ .f32 0x00000000#32))
    (scatterIdx row)
    (mulf (broadcastInDim S1600000x5 ![0, 1] bcast_S1600000x1_S1600000x5_0_1
        (broadcastInDim S1600000x1 ![0] bcast_S1600000_S1600000x1_0 nrm))
      (extf .f32 (Host.gather gather_S100000x5_S1600000x1_S1600000x5_1_0_n_n_0_1_15 v (gatherIdx col)) bitsLt_bf16_f32))

/-- The third Chebyshev term of the second layer: twice the propagated second term minus the first, narrowed. -/
def third64 (t0 : FVec Ideal S100000x64 .bf16) (pt1 : FVec Ideal S100000x64 .f32) : FVec Ideal S100000x64 .bf16 :=
  truncf .bf16 (subf (mulf (broadcastInDim S100000x64 ![] bcast_S_S100000x64 (constant (F := Ideal) S_ .f32 0x40000000#32)) pt1)
    (extf .f32 t0 bitsLt_bf16_f32)) bitsLt_bf16_f32

end Cert.KernelIdeal.HostValue

end
-- ==== Proof.KernelHostTac.lean ====
/-
  A buffer that no operation of a line of host operations writes holds after the line what it held before: the tactic
  that checks it operation by operation, for the kernel program's host stretches.
-/
import proofs.«135650_j10402410791478_2_alg».proof.Proof.Gen.KernelIdeal.Launch
import Idealize.ShloMosaic.Lib.StableHlo.Run

namespace Cert.KernelIdeal.HostValue

open Cert.KernelIdeal Cert.KernelIdeal.Gen Idealize.ShloMosaic Idealize.ShloMosaic.StableHlo

/-- Closes `after ops V b = V b` for a literal line `ops` (or several appended) none of whose operations writes `b`. -/
macro "not_written" : tactic => `(tactic| (
  refine StableHlo.after_of_forall_not_mem _ _ (List.forall_iff_forall_mem.mp ?_)
  simp only [hostOps0, hostOps0_1, hostOps0_2, hostOps0_3, hostOps0_4, hostOps1, hostOps2, hostOps4,
    List.cons_append, List.nil_append, List.append_nil, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

end Cert.KernelIdeal.HostValue
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KernelHost0.lean ====
/-
  Before the first launch: the edge list, the edge coefficients and the narrowed input features, over an arbitrary
  valuation of the buffers. The program's text has five stretches here (two of them the inlined selections); the
  coefficients are read stretch by stretch, everything else from the five read as one line.
-/
import proofs.«135650_j10402410791478_2_alg».proof.Proof.Gen.KernelIdeal.Launch
import proofs.«135650_j10402410791478_2_alg».proof.Proof.KernelHostDefs
import proofs.«135650_j10402410791478_2_alg».proof.Proof.KernelHostTac
import Idealize.ShloMosaic.Lib.StableHlo.Run
import proofs.«135650_j10402410791478_2_alg».proof.Proof.LibFoldRead

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (V : Valuation τ sig (Elt Ideal))

-- the gather and the accumulating scatter stay closed: opened at the graph's sizes they are sums over all edges
attribute [local irreducible] Host.gather Host.scatterAdd

/-! ## Read from the whole line -/

theorem s0_v1 : after (hostOps0 (F := Ideal) ++ hostOps0_1 ++ hostOps0_2 ++ hostOps0_3 ++ hostOps0_4) V (Proc.devRef .tc main_v1) = rowOf (V (Proc.devRef .tc main_arg1)) := by
  simp only [hostOps0, hostOps0_1, hostOps0_2, hostOps0_3, hostOps0_4, List.cons_append, List.nil_append]
  after_results_simp <;> rfl

theorem s0_v3 : after (hostOps0 (F := Ideal) ++ hostOps0_1 ++ hostOps0_2 ++ hostOps0_3 ++ hostOps0_4) V (Proc.devRef .tc main_v3) = colOf (V (Proc.devRef .tc main_arg1)) := by
  simp only [hostOps0, hostOps0_1, hostOps0_2, hostOps0_3, hostOps0_4, List.cons_append, List.nil_append]
  after_results_simp <;> rfl

theorem s0_v31 : after (hostOps0 (F := Ideal) ++ hostOps0_1 ++ hostOps0_2 ++ hostOps0_3 ++ hostOps0_4) V (Proc.devRef .tc main_v31)
    = (truncf .bf16 (V (Proc.devRef .tc main_arg0) : FVec Ideal S100000x128 .f32) bitsLt_bf16_f32 : FVec Ideal S100000x128 .bf16) := by
  simp only [hostOps0, hostOps0_1, hostOps0_2, hostOps0_3, hostOps0_4, List.cons_append, List.nil_append]
  after_results_simp <;> rfl

theorem s0_keep_arg3 : after (hostOps0 (F := Ideal) ++ hostOps0_1 ++ hostOps0_2 ++ hostOps0_3 ++ hostOps0_4) V (Proc.devRef .tc main_arg3) = V (Proc.devRef .tc main_arg3) := by not_written
theorem s0_keep_arg4 : after (hostOps0 (F := Ideal) ++ hostOps0_1 ++ hostOps0_2 ++ hostOps0_3 ++ hostOps0_4) V (Proc.devRef .tc main_arg4) = V (Proc.devRef .tc main_arg4) := by not_written
theorem s0_keep_arg5 : after (hostOps0 (F := Ideal) ++ hostOps0_1 ++ hostOps0_2 ++ hostOps0_3 ++ hostOps0_4) V (Proc.devRef .tc main_arg5) = V (Proc.devRef .tc main_arg5) := by not_written
theorem s0_keep_arg6 : after (hostOps0 (F := Ideal) ++ hostOps0_1 ++ hostOps0_2 ++ hostOps0_3 ++ hostOps0_4) V (Proc.devRef .tc main_arg6) = V (Proc.devRef .tc main_arg6) := by not_written
theorem s0_keep_arg7 : after (hostOps0 (F := Ideal) ++ hostOps0_1 ++ hostOps0_2 ++ hostOps0_3 ++ hostOps0_4) V (Proc.devRef .tc main_arg7) = V (Proc.devRef .tc main_arg7) := by not_written
theorem s0_keep_arg8 : after (hostOps0 (F := Ideal) ++ hostOps0_1 ++ hostOps0_2 ++ hostOps0_3 ++ hostOps0_4) V (Proc.devRef .tc main_arg8) = V (Proc.devRef .tc main_arg8) := by not_written

/-! ## The coefficients, stretch by stretch -/

theorem p1_v6 : after (hostOps0 (F := Ideal)) V (Proc.devRef .tc main_v6) = degRef (rowOf (V (Proc.devRef .tc main_arg1))) (V (Proc.devRef .tc main_arg2)) := by
  after_results_simp <;> rfl

theorem p1_v10 : after (hostOps0 (F := Ideal)) V (Proc.devRef .tc main_v10) = degPos (degRef (rowOf (V (Proc.devRef .tc main_arg1))) (V (Proc.devRef .tc main_arg2))) := by
  after_results_simp <;> rfl

theorem p1_cst2 : after (hostOps0 (F := Ideal)) V (Proc.devRef .tc main_cst_2) = constant (F := Ideal) S_ .f32 0x3F800000#32 := by
  after_results_simp

theorem b_v11 : after (hostOps0_1 (F := Ideal)) V (Proc.devRef .tc main_v11)
    = select (V (Proc.devRef .tc main_v10) : IVec S100000 1) (V (Proc.devRef .tc main_v6) : FVec Ideal S100000 .f32)
        (broadcastInDim S100000 ![] bcast_S_S100000 (id (V (Proc.devRef .tc main_cst_2) : FVec Ideal S_ .f32))) := by
  after_results_simp <;> rfl

theorem p3_v8 : after (hostOps0 (F := Ideal) ++ hostOps0_1 ++ hostOps0_2) V (Proc.devRef .tc main_v8) = degPos (degRef (rowOf (V (Proc.devRef .tc main_arg1))) (V (Proc.devRef .tc main_arg2))) := by
  simp only [hostOps0, hostOps0_1, hostOps0_2, hostOps0_3, hostOps0_4, List.cons_append, List.nil_append]
  after_results_simp <;> rfl

theorem c_v12 : after (hostOps0_2 (F := Ideal)) V (Proc.devRef .tc main_v12)
    = Host.rsqrt (F := Ideal) (s := S100000) (φ := .f32) (V (Proc.devRef .tc main_v11)) := by
  after_results_simp <;> rfl

theorem c_cst3 : after (hostOps0_2 (F := Ideal)) V (Proc.devRef .tc main_cst_3) = constant (F := Ideal) S_ .f32 0x00000000#32 := by
  after_results_simp

theorem d_v13 : after (hostOps0_3 (F := Ideal)) V (Proc.devRef .tc main_v13)
    = select (V (Proc.devRef .tc main_v8) : IVec S100000 1) (V (Proc.devRef .tc main_v12) : FVec Ideal S100000 .f32)
        (broadcastInDim S100000 ![] bcast_S_S100000 (id (V (Proc.devRef .tc main_cst_3) : FVec Ideal S_ .f32))) := by
  after_results_simp <;> rfl

theorem e_v30 : after (hostOps0_4 (F := Ideal)) V (Proc.devRef .tc main_v30)
    = nrmOf (V (Proc.devRef .tc main_v13)) (V (Proc.devRef .tc main_v1)) (V (Proc.devRef .tc main_v3)) (V (Proc.devRef .tc main_arg2)) := by
  after_results_simp <;> rfl

theorem p4_v1 : after (hostOps0 (F := Ideal) ++ hostOps0_1 ++ hostOps0_2 ++ hostOps0_3) V (Proc.devRef .tc main_v1) = rowOf (V (Proc.devRef .tc main_arg1)) := by
  simp only [hostOps0, hostOps0_1, hostOps0_2, hostOps0_3, hostOps0_4, List.cons_append, List.nil_append]
  after_results_simp <;> rfl

theorem p4_v3 : after (hostOps0 (F := Ideal) ++ hostOps0_1 ++ hostOps0_2 ++ hostOps0_3) V (Proc.devRef .tc main_v3) = colOf (V (Proc.devRef .tc main_arg1)) := by
  simp only [hostOps0, hostOps0_1, hostOps0_2, hostOps0_3, hostOps0_4, List.cons_append, List.nil_append]
  after_results_simp <;> rfl

theorem p4_arg2 : after (hostOps0 (F := Ideal) ++ hostOps0_1 ++ hostOps0_2 ++ hostOps0_3) V (Proc.devRef .tc main_arg2) = V (Proc.devRef .tc main_arg2) := by not_written

/-- The edge coefficients before the first launch. -/
theorem s0_v30 : after (hostOps0 (F := Ideal) ++ hostOps0_1 ++ hostOps0_2 ++ hostOps0_3 ++ hostOps0_4) V (Proc.devRef .tc main_v30) = nrmRef (rowOf (V (Proc.devRef .tc main_arg1))) (colOf (V (Proc.devRef .tc main_arg1))) (V (Proc.devRef .tc main_arg2)) := by
  rw [after_append, e_v30, p4_v1, p4_v3, p4_arg2]
  rw [after_append, d_v13, p3_v8]
  rw [after_append, c_v12, c_cst3]
  rw [after_append, b_v11, p1_v10, p1_v6, p1_cst2]
  rfl

end Cert.KernelIdeal.HostValue

end
-- ==== Proof.KernelHost1.lean ====
/-
  After the first launch: the three propagations of the first layer's projections and the first bias as a row,
  over an arbitrary valuation of the buffers.
-/
import proofs.«135650_j10402410791478_2_alg».proof.Proof.Gen.KernelIdeal.Launch
import proofs.«135650_j10402410791478_2_alg».proof.Proof.KernelHostDefs
import proofs.«135650_j10402410791478_2_alg».proof.Proof.KernelHostTac
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (V : Valuation τ sig (Elt Ideal))

theorem s1_v46 : after (hostOps1 (F := Ideal)) V (Proc.devRef .tc main_v46) = prop64 (V (Proc.devRef .tc main_v1)) (V (Proc.devRef .tc main_v3)) (V (Proc.devRef .tc main_v30)) (V (Proc.devRef .tc main_v32_1)) := by
  after_results_simp
  rfl

theorem s1_v75 : after (hostOps1 (F := Ideal)) V (Proc.devRef .tc main_v75)
    = prop64 (V (Proc.devRef .tc main_v1)) (V (Proc.devRef .tc main_v3)) (V (Proc.devRef .tc main_v30)) (truncf .bf16 (prop64 (V (Proc.devRef .tc main_v1)) (V (Proc.devRef .tc main_v3)) (V (Proc.devRef .tc main_v30)) (V (Proc.devRef .tc main_v32_2))) bitsLt_bf16_f32) := by
  after_results_simp
  rfl

theorem s1_v76 : after (hostOps1 (F := Ideal)) V (Proc.devRef .tc main_v76) = shapeCast S1x64 (V (Proc.devRef .tc main_arg4)) shapeCasts_S64_S1x64 := by
  after_results_simp
  rfl

theorem s1_keep_v32_0 : after (hostOps1 (F := Ideal)) V (Proc.devRef .tc main_v32_0) = V (Proc.devRef .tc main_v32_0) := by not_written
theorem s1_keep_v32_2 : after (hostOps1 (F := Ideal)) V (Proc.devRef .tc main_v32_2) = V (Proc.devRef .tc main_v32_2) := by not_written
theorem s1_keep_v1 : after (hostOps1 (F := Ideal)) V (Proc.devRef .tc main_v1) = V (Proc.devRef .tc main_v1) := by not_written
theorem s1_keep_v3 : after (hostOps1 (F := Ideal)) V (Proc.devRef .tc main_v3) = V (Proc.devRef .tc main_v3) := by not_written
theorem s1_keep_v30 : after (hostOps1 (F := Ideal)) V (Proc.devRef .tc main_v30) = V (Proc.devRef .tc main_v30) := by not_written
theorem s1_keep_arg5 : after (hostOps1 (F := Ideal)) V (Proc.devRef .tc main_arg5) = V (Proc.devRef .tc main_arg5) := by not_written
theorem s1_keep_arg6 : after (hostOps1 (F := Ideal)) V (Proc.devRef .tc main_arg6) = V (Proc.devRef .tc main_arg6) := by not_written
theorem s1_keep_arg7 : after (hostOps1 (F := Ideal)) V (Proc.devRef .tc main_arg7) = V (Proc.devRef .tc main_arg7) := by not_written
theorem s1_keep_arg8 : after (hostOps1 (F := Ideal)) V (Proc.devRef .tc main_arg8) = V (Proc.devRef .tc main_arg8) := by not_written

end Cert.KernelIdeal.HostValue

end
-- ==== Proof.KernelHost2.lean ====
/-
  After the second launch: the second and third Chebyshev terms of the second layer and the second bias as a row,
  over an arbitrary valuation of the buffers.
-/
import proofs.«135650_j10402410791478_2_alg».proof.Proof.Gen.KernelIdeal.Launch
import proofs.«135650_j10402410791478_2_alg».proof.Proof.KernelHostDefs
import proofs.«135650_j10402410791478_2_alg».proof.Proof.KernelHostTac
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (V : Valuation τ sig (Elt Ideal))

theorem s2_v92 : after (hostOps2 (F := Ideal)) V (Proc.devRef .tc main_v92) = truncf .bf16 (prop64 (V (Proc.devRef .tc main_v1)) (V (Proc.devRef .tc main_v3)) (V (Proc.devRef .tc main_v30)) (V (Proc.devRef .tc main_v77))) bitsLt_bf16_f32 := by
  after_results_simp
  rfl

theorem s2_v111 : after (hostOps2 (F := Ideal)) V (Proc.devRef .tc main_v111)
    = third64 (V (Proc.devRef .tc main_v77)) (prop64 (V (Proc.devRef .tc main_v1)) (V (Proc.devRef .tc main_v3)) (V (Proc.devRef .tc main_v30)) (truncf .bf16 (prop64 (V (Proc.devRef .tc main_v1)) (V (Proc.devRef .tc main_v3)) (V (Proc.devRef .tc main_v30)) (V (Proc.devRef .tc main_v77))) bitsLt_bf16_f32)) := by
  after_results_simp
  rfl

theorem s2_v112 : after (hostOps2 (F := Ideal)) V (Proc.devRef .tc main_v112) = shapeCast S1x64 (V (Proc.devRef .tc main_arg6)) shapeCasts_S64_S1x64 := by
  after_results_simp
  rfl

theorem s2_keep_v77 : after (hostOps2 (F := Ideal)) V (Proc.devRef .tc main_v77) = V (Proc.devRef .tc main_v77) := by not_written
theorem s2_keep_v1 : after (hostOps2 (F := Ideal)) V (Proc.devRef .tc main_v1) = V (Proc.devRef .tc main_v1) := by not_written
theorem s2_keep_v3 : after (hostOps2 (F := Ideal)) V (Proc.devRef .tc main_v3) = V (Proc.devRef .tc main_v3) := by not_written
theorem s2_keep_v30 : after (hostOps2 (F := Ideal)) V (Proc.devRef .tc main_v30) = V (Proc.devRef .tc main_v30) := by not_written
theorem s2_keep_arg5 : after (hostOps2 (F := Ideal)) V (Proc.devRef .tc main_arg5) = V (Proc.devRef .tc main_arg5) := by not_written
theorem s2_keep_arg7 : after (hostOps2 (F := Ideal)) V (Proc.devRef .tc main_arg7) = V (Proc.devRef .tc main_arg7) := by not_written
theorem s2_keep_arg8 : after (hostOps2 (F := Ideal)) V (Proc.devRef .tc main_arg8) = V (Proc.devRef .tc main_arg8) := by not_written

end Cert.KernelIdeal.HostValue

end
-- ==== Proof.KernelHost4.lean ====
/-
  After the fourth launch: the three propagations of the third layer's projections and the third bias as a row,
  over an arbitrary valuation of the buffers.
-/
import proofs.«135650_j10402410791478_2_alg».proof.Proof.Gen.KernelIdeal.Launch
import proofs.«135650_j10402410791478_2_alg».proof.Proof.KernelHostDefs
import proofs.«135650_j10402410791478_2_alg».proof.Proof.KernelHostTac
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (V : Valuation τ sig (Elt Ideal))

theorem s4_v128 : after (hostOps4 (F := Ideal)) V (Proc.devRef .tc main_v128) = prop5 (V (Proc.devRef .tc main_v1)) (V (Proc.devRef .tc main_v3)) (V (Proc.devRef .tc main_v30)) (V (Proc.devRef .tc main_v114_1)) := by
  after_results_simp
  rfl

theorem s4_v157 : after (hostOps4 (F := Ideal)) V (Proc.devRef .tc main_v157)
    = prop5 (V (Proc.devRef .tc main_v1)) (V (Proc.devRef .tc main_v3)) (V (Proc.devRef .tc main_v30)) (truncf .bf16 (prop5 (V (Proc.devRef .tc main_v1)) (V (Proc.devRef .tc main_v3)) (V (Proc.devRef .tc main_v30)) (V (Proc.devRef .tc main_v114_2))) bitsLt_bf16_f32) := by
  after_results_simp
  rfl

theorem s4_v158 : after (hostOps4 (F := Ideal)) V (Proc.devRef .tc main_v158) = shapeCast S1x5 (V (Proc.devRef .tc main_arg8)) shapeCasts_S5_S1x5 := by
  after_results_simp
  rfl

theorem s4_keep_v114_0 : after (hostOps4 (F := Ideal)) V (Proc.devRef .tc main_v114_0) = V (Proc.devRef .tc main_v114_0) := by not_written
theorem s4_keep_v114_2 : after (hostOps4 (F := Ideal)) V (Proc.devRef .tc main_v114_2) = V (Proc.devRef .tc main_v114_2) := by not_written

end Cert.KernelIdeal.HostValue

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.Region0.lean ====
import proofs.«135650_j10402410791478_2_alg».proof.Proof.Gen.KernelIdeal.Frame
import proofs.«135650_j10402410791478_2_alg».proof.Proof.LibPlainProduct
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! # Region 0: three projections of the node features

Each of the three outputs of the first kernel is a plain product of the whole feature array `X : [100000, 128]`
with one `[128, 64]` slab of the weight stack `W : [3, 128, 64]`: entry `(i, j)` of output `k` is
`∑ c, X (i, c) * W (k, c, j)`. The grid has 20 points; point `t` computes rows `5000 t … 5000 t + 4999`. -/

variable (V : (c : Dev nD) → (b : Ref sig .tc) → Buf (Elt Ideal) ((c : Thread nD τ).loc b))

/-- Output `k` of the projection: the product of the features with slab `k` of the weights. -/
def proj128 (X : FVec Ideal S100000x128 .bf16) (W : FVec Ideal S3x128x64 .f32) (k : Fin 3) : FVec Ideal S100000x64 .bf16 :=
  fun i => ∑ c : Fin 128, X (ix2 (n0 := 100000) (i 0) c) * W (ix3 (n2 := 64) k c (i 1))

theorem proj128_apply (X : FVec Ideal S100000x128 .bf16) (W : FVec Ideal S3x128x64 .f32) (k : Fin 3) (a : Fin 100000) (b : Fin 64) :
    proj128 X W k (ix2 a b) = ∑ c : Fin 128, X (ix2 a c) * W (ix3 k c b) := rfl

theorem hz2 : (![0, 0] : Fin 2 → Nat) = fun _ => 0 := funext fun a => by fin_cases a <;> rfl

theorem dot0_plain : dot_S5000x128_S128x64_S5000x64_1_0_0_1_n_n = DotDims.plain 5000 128 64 := rfl

/-- One block's product with one slab, entry by entry: the sum over the 128 contracted coordinates. -/
theorem slabProduct_apply (x0 : FVec Ideal S5000x128 .bf16) (x1 : FVec Ideal S1x128x64 .f32) (p : Fin 5000) (q : Fin 64) :
    (matmul dot_S5000x128_S128x64_S5000x64_1_0_0_1_n_n none (shapeCast S5000x128 x0 shapeCasts_S5000x128_S5000x128)
        (truncf .bf16 (shapeCast S128x64 x1 shapeCasts_S1x128x64_S128x64) bitsLt_bf16_f32)
        (constant (F := Ideal) S5000x64 .f32 0x00000000#32)) (ix2 p q)
      = ∑ k : Fin 128, x0 (ix2 p k) * x1 (ix3 (0 : Fin 1) k q) := by
  refine (Cert.PlainProduct.matmul_plain_apply _ dot0_plain none _ _ p q).trans ?_
  refine Finset.sum_congr rfl fun k _ => ?_
  show shapeCast S5000x128 x0 shapeCasts_S5000x128_S5000x128 (ix2 p k)
      * shapeCast S128x64 x1 shapeCasts_S1x128x64_S128x64 (ix2 k q) = _
  rw [shapeCast_self, shapeCast_1ab_ab_apply]

theorem pay2_apply (x0 : FVec Ideal S5000x128 .bf16) (x1 : FVec Ideal S1x128x64 .f32) (p : Fin 5000) (q : Fin 64) :
    k0_pay2 (F := Ideal) x0 x1 (ix2 p q) = ∑ k : Fin 128, x0 (ix2 p k) * x1 (ix3 (0 : Fin 1) k q) := by
  unfold k0_pay2 k0_pay1
  exact slabProduct_apply x0 x1 p q
theorem pay3_apply (x0 : FVec Ideal S5000x128 .bf16) (x1 : FVec Ideal S1x128x64 .f32) (p : Fin 5000) (q : Fin 64) :
    k0_pay3 (F := Ideal) x0 x1 (ix2 p q) = ∑ k : Fin 128, x0 (ix2 p k) * x1 (ix3 (0 : Fin 1) k q) := by
  unfold k0_pay3 k0_pay1
  exact slabProduct_apply x0 x1 p q
theorem pay4_apply (x0 : FVec Ideal S5000x128 .bf16) (x1 : FVec Ideal S1x128x64 .f32) (p : Fin 5000) (q : Fin 64) :
    k0_pay4 (F := Ideal) x0 x1 (ix2 p q) = ∑ k : Fin 128, x0 (ix2 p k) * x1 (ix3 (0 : Fin 1) k q) := by
  unfold k0_pay4 k0_pay1
  exact slabProduct_apply x0 x1 p q

/-- The printed index maps over the grid: the row windows sit at block `t`, column block 0; the weight window is the
    whole stack at every point. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block at point `t` is rows `5000 t + p` of the feature array. -/
theorem xblk_apply (c : Dev nD) (t : Fin cfg0.N) (p : Fin 5000) (k : Fin 128) (r : Fin 100000) (hr : r.val = t.val * 5000 + p.val) :
    (iblk0 V c 0 t : FVec Ideal S5000x128 .bf16) (ix2 p k) = (V c (Pipeline.arrRef spec0 0) : FVec Ideal S100000x128 .bf16) (ix2 r k) := by
  obtain ⟨e0, e1, -⟩ := idx_facts0 t
  show (V c (Pipeline.arrRef spec0 0) : FVec Ideal S100000x128 .bf16) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight window's block at every point is the whole weight stack. -/
theorem wblk_apply (c : Dev nD) (t : Fin cfg0.N) (s : Fin 3) (k : Fin 128) (q : Fin 64) :
    (iblk0 V c 1 t : FVec Ideal S3x128x64 .f32) (ix3 s k q) = (V c (Pipeline.arrRef spec0 1) : FVec Ideal S3x128x64 .f32) (ix3 s k q) := by
  obtain ⟨-, -, e0, e1, e2, -⟩ := idx_facts0 t
  show (V c (Pipeline.arrRef spec0 1) : FVec Ideal S3x128x64 .f32) (((cfg0.win 1).blk t).view.emb (ix3 s k q)) = _
  refine congrArg _ (funext fun a => Fin.ext ?_)
  match a with
  | ⟨0, _⟩ => show win0_1.index t (0 : Fin 3) * 3 + 1 * s.val = s.val; omega
  | ⟨1, _⟩ => show win0_1.index t (1 : Fin 3) * 128 + 1 * k.val = k.val; omega
  | ⟨2, _⟩ => show win0_1.index t (2 : Fin 3) * 64 + 1 * q.val = q.val; omega

/-- Slab `s` of the weight stack, loaded through its rectangle, is the stack at first coordinate `s`. -/
theorem slab_ld (x1 : Vec Ideal S3x128x64 .f32) (s : Fin 3) (off : Fin 3 → Nat) (hoff : off = ![s.val, 0, 0])
    (inb : ∀ a, off a + S1x128x64.size a ≤ S3x128x64.size a) (k : Fin 128) (q : Fin 64) :
    View.ld (Val := Elt Ideal) x1 (Rect.unit (s := S3x128x64) off S1x128x64.size inb) (ix3 (0 : Fin 1) k q) = x1 (ix3 s k q) := by
  subst hoff
  show x1 _ = x1 _
  refine congrArg x1 (funext fun a => Fin.ext ?_)
  match a with
  | ⟨0, _⟩ => show s.val + 1 * 0 = s.val; omega
  | ⟨1, _⟩ => show 0 + 1 * k.val = k.val; omega
  | ⟨2, _⟩ => show 0 + 1 * q.val = q.val; omega

/-- One point's product, read in the arrays: if the block `x0` is rows `5000 n + p` of `X` and `x1` is `W`, then
    block row `p` against slab `s` is entry `(5000 n + p, q)` of the projection by slab `s`. -/
theorem point_apply (X : FVec Ideal S100000x128 .bf16) (W : FVec Ideal S3x128x64 .f32)
    (x0 : FVec Ideal S5000x128 .bf16) (x1 : Vec Ideal S3x128x64 .f32) (n : Nat)
    (h0 : ∀ (p : Fin 5000) (k : Fin 128) (r : Fin 100000), r.val = n * 5000 + p.val → x0 (ix2 p k) = X (ix2 r k))
    (h1 : ∀ (s : Fin 3) (k : Fin 128) (q : Fin 64), x1 (ix3 s k q) = W (ix3 s k q))
    (s : Fin 3) (off : Fin 3 → Nat) (hoff : off = ![s.val, 0, 0])
    (inb : ∀ a, off a + S1x128x64.size a ≤ S3x128x64.size a) (p : Fin 5000) (q : Fin 64) (r : Fin 100000)
    (hr : r.val = n * 5000 + p.val) :
    ∑ k : Fin 128, x0 (ix2 p k)
        * View.ld (Val := Elt Ideal) x1 (Rect.unit (s := S3x128x64) off S1x128x64.size inb) (ix3 (0 : Fin 1) k q)
      = proj128 X W s (ix2 r q) := by
  rw [proj128_apply]
  refine Finset.sum_congr rfl fun k _ => ?_
  rw [slab_ld x1 s off hoff inb k q, h0 p k r hr, h1 s k q]

/-- What point `t` writes back to the first output is block `t` of the projection by slab 0. -/
theorem flushed2_eq (c : Dev nD) (t : Fin cfg0.N) :
    (dat0 (F := Ideal) V c).flushed 2 t
      = ((cfg0.win 2).blk t).view.read (Elt Ideal) (proj128 (V c (Pipeline.arrRef spec0 0)) (V c (Pipeline.arrRef spec0 1)) 0) := by
  show (cfg0.win 2).cut (grid0.coords t) ((dat0 V c).after 2 t) = _
  rw [after0_2]
  unfold out0_2
  rw [View.canon_unit_zero hz2]
  simp only [View.ld_unit_zero (S := S5000x128) hz2]
  funext j
  have hN : cfg0.N = 20 := N_0
  have ht : t.val < 20 := hN ▸ t.isLt
  have hj0 : (j 0).val < 5000 := (j 0).isLt
  have hj1 : (j 1).val < 64 := (j 1).isLt
  obtain ⟨-, -, -, -, -, e0, e1, -⟩ := idx_facts0 t
  have eL : (cfg0.win 2).xinj (grid0.coords t) j = ix2 (⟨(j 0).val, hj0⟩ : Fin 5000) (⟨(j 1).val, hj1⟩ : Fin 64) :=
    funext fun a => by match a with | ⟨0, _⟩ => rfl | ⟨1, _⟩ => rfl
  have eR : ((cfg0.win 2).blk t).view.emb j
      = ix2 (⟨t.val * 5000 + (j 0).val, by omega⟩ : Fin 100000) (⟨(j 1).val, hj1⟩ : Fin 64) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 64 + 1 * (j 1).val = (j 1).val; omega)
  show k0_pay2 (iblk0 V c 0 t) (View.ld (iblk0 V c 1 t) r0_1) ((cfg0.win 2).xinj (grid0.coords t) j)
    = proj128 (V c (Pipeline.arrRef spec0 0)) (V c (Pipeline.arrRef spec0 1)) 0 (((cfg0.win 2).blk t).view.emb j)
  rw [eL, eR]
  exact (pay2_apply _ _ _ _).trans (point_apply (V c (Pipeline.arrRef spec0 0)) (V c (Pipeline.arrRef spec0 1))
    (iblk0 V c 0 t) (iblk0 V c 1 t) t.val (xblk_apply V c t) (wblk_apply V c t) 0 _ rfl _
    ⟨(j 0).val, hj0⟩ ⟨(j 1).val, hj1⟩ ⟨t.val * 5000 + (j 0).val, by omega⟩ rfl)

/-- An index of the first output array is in point `t`'s block iff each coordinate is in the block's range on its axis. -/
theorem mem_blk2 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32_0).slice (win0_2.rect t)).set ↔ _
  rw [View.set_slice_whole, Rect.mem_set_unit]
  exact Iff.rfl

/-- Row `r` of the first output lies in the block of point `r / 5000`. -/
theorem cover2 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, e0, e1, -⟩ := idx_facts0 t
  refine ⟨t, flush0_2 t, ?_⟩
  rw [mem_blk2]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The first output array after the region: the features times slab 0 of the weights. -/
theorem region0_out2 (c : Dev nD) : (dat0 (F := Ideal) V c).arrAt 2 cfg0.N
    = proj128 (V c (Pipeline.arrRef spec0 0)) (V c (Pipeline.arrRef spec0 1)) 0 :=
  (dat0 (F := Ideal) V c).arrAt_eq_of_cover 2 _ (fun t _ => flushed2_eq V c t) cover2

/-- What point `t` writes back to the second output is block `t` of the projection by slab 1. -/
theorem flushed3_eq (c : Dev nD) (t : Fin cfg0.N) :
    (dat0 (F := Ideal) V c).flushed 3 t
      = ((cfg0.win 3).blk t).view.read (Elt Ideal) (proj128 (V c (Pipeline.arrRef spec0 0)) (V c (Pipeline.arrRef spec0 1)) 1) := by
  show (cfg0.win 3).cut (grid0.coords t) ((dat0 V c).after 3 t) = _
  rw [after0_3]
  unfold out0_3
  rw [View.canon_unit_zero hz2]
  simp only [View.ld_unit_zero (S := S5000x128) hz2]
  funext j
  have hN : cfg0.N = 20 := N_0
  have ht : t.val < 20 := hN ▸ t.isLt
  have hj0 : (j 0).val < 5000 := (j 0).isLt
  have hj1 : (j 1).val < 64 := (j 1).isLt
  obtain ⟨-, -, -, -, -, -, -, e0, e1, -⟩ := idx_facts0 t
  have eL : (cfg0.win 3).xinj (grid0.coords t) j = ix2 (⟨(j 0).val, hj0⟩ : Fin 5000) (⟨(j 1).val, hj1⟩ : Fin 64) :=
    funext fun a => by match a with | ⟨0, _⟩ => rfl | ⟨1, _⟩ => rfl
  have eR : ((cfg0.win 3).blk t).view.emb j
      = ix2 (⟨t.val * 5000 + (j 0).val, by omega⟩ : Fin 100000) (⟨(j 1).val, hj1⟩ : Fin 64) :=
    funext fun a => Fin.ext (by
      match a with
      | ⟨0, _⟩ => show win0_3.index t (0 : Fin 2) * 5000 + 1 * (j 0).val = t.val * 5000 + (j 0).val; omega
      | ⟨1, _⟩ => show win0_3.index t (1 : Fin 2) * 64 + 1 * (j 1).val = (j 1).val; omega)
  show k0_pay3 (iblk0 V c 0 t) (View.ld (iblk0 V c 1 t) r0_2) ((cfg0.win 3).xinj (grid0.coords t) j)
    = proj128 (V c (Pipeline.arrRef spec0 0)) (V c (Pipeline.arrRef spec0 1)) 1 (((cfg0.win 3).blk t).view.emb j)
  rw [eL, eR]
  exact (pay3_apply _ _ _ _).trans (point_apply (V c (Pipeline.arrRef spec0 0)) (V c (Pipeline.arrRef spec0 1))
    (iblk0 V c 0 t) (iblk0 V c 1 t) t.val (xblk_apply V c t) (wblk_apply V c t) 1 _ rfl _
    ⟨(j 0).val, hj0⟩ ⟨(j 1).val, hj1⟩ ⟨t.val * 5000 + (j 0).val, by omega⟩ rfl)

/-- An index of the second output array is in point `t`'s block iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v32_1).slice (win0_3.rect t)).set ↔ _
  rw [View.set_slice_whole, Rect.mem_set_unit]
  exact Iff.rfl

/-- Row `r` of the second output lies in the block of point `r / 5000`. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, e0, e1, -⟩ := idx_facts0 t
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The second output array after the region: the features times slab 1 of the weights. -/
theorem region0_out3 (c : Dev nD) : (dat0 (F := Ideal) V c).arrAt 3 cfg0.N
    = proj128 (V c (Pipeline.arrRef spec0 0)) (V c (Pipeline.arrRef spec0 1)) 1 :=
  (dat0 (F := Ideal) V c).arrAt_eq_of_cover 3 _ (fun t _ => flushed3_eq V c t) cover3

/-- What point `t` writes back to the third output is block `t` of the projection by slab 2. -/
theorem flushed4_eq (c : Dev nD) (t : Fin cfg0.N) :
    (dat0 (F := Ideal) V c).flushed 4 t
      = ((cfg0.win 4).blk t).view.read (Elt Ideal) (proj128 (V c (Pipeline.arrRef spec0 0)) (V c (Pipeline.arrRef spec0 1)) 2) := by
  show (cfg0.win 4).cut (grid0.coords t) ((dat0 V c).after 4 t) = _
  rw [after0_4]
  unfold out0_4
  rw [View.canon_unit_zero hz2]
  simp only [View.ld_unit_zero (S := S5000x128) hz2]
  funext j
  have hN : cfg0.N = 20 := N_0
  have ht : t.val < 20 := hN ▸ t.isLt
  have hj0 : (j 0).val < 5000 := (j 0).isLt
  have hj1 : (j 1).val < 64 := (j 1).isLt
  obtain ⟨-, -, -, -, -, -, -, -, -, e0, e1⟩ := idx_facts0 t
  have eL : (cfg0.win 4).xinj (grid0.coords t) j = ix2 (⟨(j 0).val, hj0⟩ : Fin 5000) (⟨(j 1).val, hj1⟩ : Fin 64) :=
    funext fun a => by match a with | ⟨0, _⟩ => rfl | ⟨1, _⟩ => rfl
  have eR : ((cfg0.win 4).blk t).view.emb j
      = ix2 (⟨t.val * 5000 + (j 0).val, by omega⟩ : Fin 100000) (⟨(j 1).val, hj1⟩ : Fin 64) :=
    funext fun a => Fin.ext (by
      match a with
      | ⟨0, _⟩ => show win0_4.index t (0 : Fin 2) * 5000 + 1 * (j 0).val = t.val * 5000 + (j 0).val; omega
      | ⟨1, _⟩ => show win0_4.index t (1 : Fin 2) * 64 + 1 * (j 1).val = (j 1).val; omega)
  show k0_pay4 (iblk0 V c 0 t) (View.ld (iblk0 V c 1 t) r0_3) ((cfg0.win 4).xinj (grid0.coords t) j)
    = proj128 (V c (Pipeline.arrRef spec0 0)) (V c (Pipeline.arrRef spec0 1)) 2 (((cfg0.win 4).blk t).view.emb j)
  rw [eL, eR]
  exact (pay4_apply _ _ _ _).trans (point_apply (V c (Pipeline.arrRef spec0 0)) (V c (Pipeline.arrRef spec0 1))
    (iblk0 V c 0 t) (iblk0 V c 1 t) t.val (xblk_apply V c t) (wblk_apply V c t) 2 _ rfl _
    ⟨(j 0).val, hj0⟩ ⟨(j 1).val, hj1⟩ ⟨t.val * 5000 + (j 0).val, by omega⟩ rfl)

/-- An index of the third output array is in point `t`'s block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v32_2).slice (win0_4.rect t)).set ↔ _
  rw [View.set_slice_whole, Rect.mem_set_unit]
  exact Iff.rfl

/-- Row `r` of the third output lies in the block of point `r / 5000`. -/
theorem cover4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, e0, e1⟩ := idx_facts0 t
  refine ⟨t, flush0_4 t, ?_⟩
  rw [mem_blk4]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 64 ≤ (i 1).val ∧ (i 1).val < win0_4.index t (1 : Fin 2) * 64 + 64
    omega

/-- The third output array after the region: the features times slab 2 of the weights. -/
theorem region0_out4 (c : Dev nD) : (dat0 (F := Ideal) V c).arrAt 4 cfg0.N
    = proj128 (V c (Pipeline.arrRef spec0 0)) (V c (Pipeline.arrRef spec0 1)) 2 :=
  (dat0 (F := Ideal) V c).arrAt_eq_of_cover 4 _ (fun t _ => flushed4_eq V c t) cover4

end Cert.KernelIdeal.RegionValue

end
-- ==== Proof.Region1.lean ====
import proofs.«135650_j10402410791478_2_alg».proof.Proof.Gen.KernelIdeal.Frame
import proofs.«135650_j10402410791478_2_alg».proof.Proof.LibPlainProduct
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! # Region 1: the first layer's combination

The second kernel combines, entry by entry, two of the projections with the two aggregated arrays and the bias:
`out (i, j) = max ((((A0 - A2) + L1) + 2 · L2) + b (0, j)) 0`, the association the kernel computes it in. The grid
has 20 points; point `t` computes rows `5000 t … 5000 t + 4999`. -/

variable (V : (c : Dev nD) → (b : Ref sig .tc) → Buf (Elt Ideal) ((c : Thread nD τ).loc b))

/-- The combination as one function of the five arrays. The two float literals stay the words the kernel names. -/
def combine64 (A0 A2 : FVec Ideal S100000x64 .bf16) (L1 L2 : FVec Ideal S100000x64 .f32) (b : FVec Ideal S1x64 .f32) :
    FVec Ideal S100000x64 .bf16 :=
  fun i => max ((((A0 i - A2 i) + L1 i) + Ideal.ofBits .f32 0x40000000#32 * L2 i) + b (ix2 (0 : Fin 1) (i 1)))
    (Ideal.ofBits .f32 0x00000000#32)

theorem combine64_apply (A0 A2 : FVec Ideal S100000x64 .bf16) (L1 L2 : FVec Ideal S100000x64 .f32) (b : FVec Ideal S1x64 .f32)
    (r : Fin 100000) (q : Fin 64) :
    combine64 A0 A2 L1 L2 b (ix2 r q)
      = max ((((A0 (ix2 r q) - A2 (ix2 r q)) + L1 (ix2 r q)) + Ideal.ofBits .f32 0x40000000#32 * L2 (ix2 r q)) + b (ix2 (0 : Fin 1) q))
          (Ideal.ofBits .f32 0x00000000#32) := rfl

/-- The body's arithmetic at one entry of the block. -/
theorem r1_pay_apply (v0 v3 : FVec Ideal S5000x64 .bf16) (v7 v10 : FVec Ideal S5000x64 .f32) (v15 : FVec Ideal S1x64 .f32)
    (p : Fin 5000) (q : Fin 64) :
    k1_pay1 (F := Ideal) v0 v3 v7 v10 v15 (ix2 p q)
      = max ((((v0 (ix2 p q) - v3 (ix2 p q)) + v7 (ix2 p q)) + Ideal.ofBits .f32 0x40000000#32 * v10 (ix2 p q))
          + v15 (ix2 (0 : Fin 1) q)) (Ideal.ofBits .f32 0x00000000#32) := by
  unfold k1_pay1
  simp only [shapeCast_self]
  show max ((((v0 (ix2 p q) - v3 (ix2 p q)) + v7 (ix2 p q)) + Ideal.ofBits .f32 0x40000000#32 * v10 (ix2 p q))
      + broadcastTo S5000x64 v15 broadcasts_S1x64_S5000x64 (ix2 p q)) (Ideal.ofBits .f32 0x00000000#32) = _
  rw [broadcastTo_1b_ab_apply]

theorem r1_hz : (![0, 0] : Fin 2 → Nat) = fun _ => 0 := funext fun a => by fin_cases a <;> rfl

/-- A block cut to what a transfer moves, read at a block index. -/
theorem r1_cut_apply {G : Pipeline.Grid} (w : Pipeline.Window sig G) {α : Type} (i : G.Coords) (X : w.block.Idx → α)
    (j : (w.xblock i).Idx) (y : w.block.Idx) (h : w.xinj i j = y) : w.cut i X j = X y := by
  subst h; rfl

/-- Contents read through a view, at the place an index of the view sits in the buffer (the element type of the buffer
    is the view's: the cast is along that equation, the identity at any literal view). -/
theorem r1_read_at {κ : Kind} {sp : Space} {S : Shape} {e : EltTy} (v : View sig κ sp S e)
    (f : v.ty.Contents (Elt Ideal)) (x : S.Idx) (y : v.ty.Idx) (h : v.emb x = y) :
    v.read (Elt Ideal) f x = _root_.cast (congrArg (Elt Ideal) v.elt_eq) (f y) := by
  subst h; rfl

/-- Window 0's printed index map over the grid: row block `t`, column block 0. -/
theorem r1_idx0 : ∀ t : Fin cfg1.N, win1_0.index t (0 : Fin 2) = t.val ∧ win1_0.index t (1 : Fin 2) = 0 :=
  (by decide +kernel : ∀ t : Fin grid1.N, _)

/-- Window 1's printed index map over the grid: row block `t`, column block 0. -/
theorem r1_idx1 : ∀ t : Fin cfg1.N, win1_1.index t (0 : Fin 2) = t.val ∧ win1_1.index t (1 : Fin 2) = 0 :=
  (by decide +kernel : ∀ t : Fin grid1.N, _)

/-- Window 2's printed index map over the grid: row block `t`, column block 0. -/
theorem r1_idx2 : ∀ t : Fin cfg1.N, win1_2.index t (0 : Fin 2) = t.val ∧ win1_2.index t (1 : Fin 2) = 0 :=
  (by decide +kernel : ∀ t : Fin grid1.N, _)

/-- Window 3's printed index map over the grid: row block `t`, column block 0. -/
theorem r1_idx3 : ∀ t : Fin cfg1.N, win1_3.index t (0 : Fin 2) = t.val ∧ win1_3.index t (1 : Fin 2) = 0 :=
  (by decide +kernel : ∀ t : Fin grid1.N, _)

/-- Window 5's printed index map over the grid: row block `t`, column block 0. -/
theorem r1_idx5 : ∀ t : Fin cfg1.N, win1_5.index t (0 : Fin 2) = t.val ∧ win1_5.index t (1 : Fin 2) = 0 :=
  (by decide +kernel : ∀ t : Fin grid1.N, _)

/-- The bias window is the whole `[1, 64]` array at every point. -/
theorem r1_idx4 : ∀ t : Fin cfg1.N, win1_4.index t (0 : Fin 2) = 0 ∧ win1_4.index t (1 : Fin 2) = 0 :=
  (by decide +kernel : ∀ t : Fin grid1.N, _)

/-- Row window 0's block at point `t` is rows `5000 t + p` of its array. -/
theorem r1_blk0_apply (c : Dev nD) (t : Fin cfg1.N) (p : Fin 5000) (q : Fin 64) (r : Fin 100000)
    (hr : r.val = t.val * 5000 + p.val) :
    (iblk1 V c 0 t : FVec Ideal S5000x64 .bf16) (ix2 p q)
      = (V c (Pipeline.arrRef spec1 0) : FVec Ideal S100000x64 .bf16) (ix2 r q) := by
  obtain ⟨e0, e1⟩ := r1_idx0 t
  unfold iblk1
  refine (r1_read_at _ _ _ _ (funext fun a => Fin.ext ?_)).trans rfl
  match a with
  | ⟨0, _⟩ => show win1_0.index t (0 : Fin 2) * 5000 + 1 * p.val = r.val; omega
  | ⟨1, _⟩ => show win1_0.index t (1 : Fin 2) * 64 + 1 * q.val = q.val; omega

/-- Row window 1's block at point `t` is rows `5000 t + p` of its array. -/
theorem r1_blk1_apply (c : Dev nD) (t : Fin cfg1.N) (p : Fin 5000) (q : Fin 64) (r : Fin 100000)
    (hr : r.val = t.val * 5000 + p.val) :
    (iblk1 V c 1 t : FVec Ideal S5000x64 .bf16) (ix2 p q)
      = (V c (Pipeline.arrRef spec1 1) : FVec Ideal S100000x64 .bf16) (ix2 r q) := by
  obtain ⟨e0, e1⟩ := r1_idx1 t
  unfold iblk1
  refine (r1_read_at _ _ _ _ (funext fun a => Fin.ext ?_)).trans rfl
  match a with
  | ⟨0, _⟩ => show win1_1.index t (0 : Fin 2) * 5000 + 1 * p.val = r.val; omega
  | ⟨1, _⟩ => show win1_1.index t (1 : Fin 2) * 64 + 1 * q.val = q.val; omega

/-- Row window 2's block at point `t` is rows `5000 t + p` of its array. -/
theorem r1_blk2_apply (c : Dev nD) (t : Fin cfg1.N) (p : Fin 5000) (q : Fin 64) (r : Fin 100000)
    (hr : r.val = t.val * 5000 + p.val) :
    (iblk1 V c 2 t : FVec Ideal S5000x64 .f32) (ix2 p q)
      = (V c (Pipeline.arrRef spec1 2) : FVec Ideal S100000x64 .f32) (ix2 r q) := by
  obtain ⟨e0, e1⟩ := r1_idx2 t
  unfold iblk1
  refine (r1_read_at _ _ _ _ (funext fun a => Fin.ext ?_)).trans rfl
  match a with
  | ⟨0, _⟩ => show win1_2.index t (0 : Fin 2) * 5000 + 1 * p.val = r.val; omega
  | ⟨1, _⟩ => show win1_2.index t (1 : Fin 2) * 64 + 1 * q.val = q.val; omega

/-- Row window 3's block at point `t` is rows `5000 t + p` of its array. -/
theorem r1_blk3_apply (c : Dev nD) (t : Fin cfg1.N) (p : Fin 5000) (q : Fin 64) (r : Fin 100000)
    (hr : r.val = t.val * 5000 + p.val) :
    (iblk1 V c 3 t : FVec Ideal S5000x64 .f32) (ix2 p q)
      = (V c (Pipeline.arrRef spec1 3) : FVec Ideal S100000x64 .f32) (ix2 r q) := by
  obtain ⟨e0, e1⟩ := r1_idx3 t
  unfold iblk1
  refine (r1_read_at _ _ _ _ (funext fun a => Fin.ext ?_)).trans rfl
  match a with
  | ⟨0, _⟩ => show win1_3.index t (0 : Fin 2) * 5000 + 1 * p.val = r.val; omega
  | ⟨1, _⟩ => show win1_3.index t (1 : Fin 2) * 64 + 1 * q.val = q.val; omega

/-- The bias window's block at every point is the whole bias row. -/
theorem r1_blk4_apply (c : Dev nD) (t : Fin cfg1.N) (u : Fin 1) (q : Fin 64) :
    (iblk1 V c 4 t : FVec Ideal S1x64 .f32) (ix2 u q) = (V c (Pipeline.arrRef spec1 4) : FVec Ideal S1x64 .f32) (ix2 u q) := by
  obtain ⟨e0, e1⟩ := r1_idx4 t
  unfold iblk1
  refine (r1_read_at _ _ _ _ (funext fun a => Fin.ext ?_)).trans rfl
  match a with
  | ⟨0, _⟩ => show win1_4.index t (0 : Fin 2) * 1 + 1 * u.val = u.val; omega
  | ⟨1, _⟩ => show win1_4.index t (1 : Fin 2) * 64 + 1 * q.val = q.val; omega

/-- One point's entry, read in the arrays: if the four row blocks are rows `5000 n + p` of their arrays and the bias
    block is the bias, the body's value at `(p, q)` is the combination at `(5000 n + p, q)`. -/
theorem r1_point_apply (A0 A2 : FVec Ideal S100000x64 .bf16) (L1 L2 : FVec Ideal S100000x64 .f32) (B : FVec Ideal S1x64 .f32)
    (x0 x1 : FVec Ideal S5000x64 .bf16) (x2 x3 : FVec Ideal S5000x64 .f32) (x4 : FVec Ideal S1x64 .f32) (n : Nat)
    (h0 : ∀ (p : Fin 5000) (q : Fin 64) (r : Fin 100000), r.val = n * 5000 + p.val → x0 (ix2 p q) = A0 (ix2 r q))
    (h1 : ∀ (p : Fin 5000) (q : Fin 64) (r : Fin 100000), r.val = n * 5000 + p.val → x1 (ix2 p q) = A2 (ix2 r q))
    (h2 : ∀ (p : Fin 5000) (q : Fin 64) (r : Fin 100000), r.val = n * 5000 + p.val → x2 (ix2 p q) = L1 (ix2 r q))
    (h3 : ∀ (p : Fin 5000) (q : Fin 64) (r : Fin 100000), r.val = n * 5000 + p.val → x3 (ix2 p q) = L2 (ix2 r q))
    (h4 : ∀ (u : Fin 1) (q : Fin 64), x4 (ix2 u q) = B (ix2 u q))
    (p : Fin 5000) (q : Fin 64) (r : Fin 100000) (hr : r.val = n * 5000 + p.val) :
    k1_pay1 (F := Ideal) x0 x1 x2 x3 x4 (ix2 p q) = combine64 A0 A2 L1 L2 B (ix2 r q) := by
  rw [r1_pay_apply, combine64_apply, h0 p q r hr, h1 p q r hr, h2 p q r hr, h3 p q r hr, h4 0 q]

/-- The buffer the body leaves is its arithmetic on the loaded blocks: one store through the whole staging buffer, every
    load through a whole one. -/
theorem r1_out_eq (x0 x1 : Vec Ideal S5000x64 .bf16) (x2 x3 : Vec Ideal S5000x64 .f32) (x4 : Vec Ideal S1x64 .f32) :
    out1_5 (F := Ideal) x0 x1 x2 x3 x4 = k1_pay1 x0 x1 x2 x3 x4 := by
  unfold out1_5
  rw [View.canon_unit_zero r1_hz]
  simp only [View.ld_unit_zero (S := S5000x64) r1_hz, View.ld_unit_zero (S := S1x64) r1_hz]

set_option maxHeartbeats 1000000 in
/-- What point `t` writes back is block `t` of the combination of the arrays as the region finds them. -/
theorem r1_flushed_eq (c : Dev nD) (t : Fin cfg1.N) :
    (dat1 (F := Ideal) V c).flushed 5 t
      = ((cfg1.win 5).blk t).view.read (Elt Ideal) (combine64 (V c (Pipeline.arrRef spec1 0)) (V c (Pipeline.arrRef spec1 1))
          (V c (Pipeline.arrRef spec1 2)) (V c (Pipeline.arrRef spec1 3)) (V c (Pipeline.arrRef spec1 4))) := by
  show (cfg1.win 5).cut (grid1.coords t) ((dat1 V c).after 5 t) = _
  rw [after1_5, r1_out_eq]
  funext j
  have hN : cfg1.N = 20 := N_1
  have ht : t.val < 20 := hN ▸ t.isLt
  have hj0 : (j 0).val < 5000 := (j 0).isLt
  have hj1 : (j 1).val < 64 := (j 1).isLt
  obtain ⟨e0, e1⟩ := r1_idx5 t
  have eL : (cfg1.win 5).xinj (grid1.coords t) j = ix2 (⟨(j 0).val, hj0⟩ : Fin 5000) (⟨(j 1).val, hj1⟩ : Fin 64) :=
    funext fun a => by match a with | ⟨0, _⟩ => rfl | ⟨1, _⟩ => rfl
  have eR : ((cfg1.win 5).blk t).view.emb j
      = ix2 (⟨t.val * 5000 + (j 0).val, by omega⟩ : Fin 100000) (⟨(j 1).val, hj1⟩ : Fin 64) :=
    funext fun a => Fin.ext (by
      match a with
      | ⟨0, _⟩ => show win1_5.index t (0 : Fin 2) * 5000 + 1 * (j 0).val = t.val * 5000 + (j 0).val; omega
      | ⟨1, _⟩ => show win1_5.index t (1 : Fin 2) * 64 + 1 * (j 1).val = (j 1).val; omega)
  refine (r1_cut_apply _ _ _ j _ eL).trans (Eq.trans ?_ (r1_read_at _ _ j _ eR).symm)
  exact r1_point_apply _ _ _ _ _ _ _ _ _ _ t.val
    (r1_blk0_apply V c t) (r1_blk1_apply V c t) (r1_blk2_apply V c t) (r1_blk3_apply V c t) (r1_blk4_apply V c t)
    ⟨(j 0).val, hj0⟩ ⟨(j 1).val, hj1⟩ ⟨t.val * 5000 + (j 0).val, by omega⟩ rfl

/-- An index of the output array is in point `t`'s block iff each coordinate is in the block's range on its axis. -/
theorem r1_mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v77).slice (win1_5.rect t)).set ↔ _
  rw [View.set_slice_whole, Rect.mem_set_unit]
  exact Iff.rfl

/-- Row `r` of the output lies in the block of point `r / 5000`. -/
theorem r1_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1⟩ := r1_idx5 t
  refine ⟨t, flush1_5 t, ?_⟩
  rw [r1_mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The output array after the region: the combination of the five arrays as the region finds them. -/
theorem region1_out5 (c : Dev nD) : (dat1 (F := Ideal) V c).arrAt 5 cfg1.N
    = combine64 (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5 _ (fun t _ => r1_flushed_eq V c t) r1_cover

end Cert.KernelIdeal.RegionValue

end
-- ==== Proof.Region2.lean ====
import proofs.«135650_j10402410791478_2_alg».proof.Proof.Gen.KernelIdeal.Frame
import proofs.«135650_j10402410791478_2_alg».proof.Proof.LibPlainProduct
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! # Region 2: the second layer's Chebyshev combination

The third kernel multiplies each of the three Chebyshev terms `T0, T1, T2 : [100000, 64]` by its `[64, 64]` slab of the
weight stack, adds the three products in order, adds the bias row and clamps below at zero:
`out (i, j) = max ((((∑c T0 (i,c) W (0,c,j)) + (∑c T1 (i,c) W (1,c,j))) + (∑c T2 (i,c) W (2,c,j))) + b (0,j)) 0`.
The grid has 20 points; point `t` computes rows `5000 t … 5000 t + 4999`. -/

variable (V : (c : Dev nD) → (b : Ref sig .tc) → Buf (Elt Ideal) ((c : Thread nD τ).loc b))

/-- The three-term Chebyshev combination as one function of the five arrays. -/
def cheb64 (T0 T1 T2 : FVec Ideal S100000x64 .bf16) (W : FVec Ideal S3x64x64 .f32) (b : FVec Ideal S1x64 .f32) :
    FVec Ideal S100000x64 .bf16 :=
  fun i => max (((((∑ c : Fin 64, T0 (ix2 (n0 := 100000) (i 0) c) * W (ix3 (n2 := 64) (0 : Fin 3) c (i 1)))
      + (∑ c : Fin 64, T1 (ix2 (n0 := 100000) (i 0) c) * W (ix3 (n2 := 64) (1 : Fin 3) c (i 1))))
      + (∑ c : Fin 64, T2 (ix2 (n0 := 100000) (i 0) c) * W (ix3 (n2 := 64) (2 : Fin 3) c (i 1))))
      + b (ix2 (0 : Fin 1) (i 1)))) (Ideal.ofBits .f32 0x00000000#32)

theorem cheb64_apply (T0 T1 T2 : FVec Ideal S100000x64 .bf16) (W : FVec Ideal S3x64x64 .f32) (b : FVec Ideal S1x64 .f32)
    (r : Fin 100000) (q : Fin 64) :
    cheb64 T0 T1 T2 W b (ix2 r q)
      = max (((((∑ c : Fin 64, T0 (ix2 r c) * W (ix3 (0 : Fin 3) c q)) + (∑ c : Fin 64, T1 (ix2 r c) * W (ix3 (1 : Fin 3) c q)))
          + (∑ c : Fin 64, T2 (ix2 r c) * W (ix3 (2 : Fin 3) c q))) + b (ix2 (0 : Fin 1) q))) (Ideal.ofBits .f32 0x00000000#32) := rfl

theorem r2_dot_plain : dot_S5000x64_S64x64_S5000x64_1_0_0_1_n_n = DotDims.plain 5000 64 64 := rfl

/-- One block's product with one slab, entry by entry: the sum over the 64 contracted coordinates. -/
theorem r2_slabProduct_apply (x0 : FVec Ideal S5000x64 .bf16) (x1 : FVec Ideal S1x64x64 .f32) (p : Fin 5000) (q : Fin 64) :
    (matmul dot_S5000x64_S64x64_S5000x64_1_0_0_1_n_n none (shapeCast S5000x64 x0 shapeCasts_S5000x64_S5000x64)
        (truncf .bf16 (shapeCast S64x64 x1 shapeCasts_S1x64x64_S64x64) bitsLt_bf16_f32)
        (constant (F := Ideal) S5000x64 .f32 0x00000000#32)) (ix2 p q)
      = ∑ k : Fin 64, x0 (ix2 p k) * x1 (ix3 (0 : Fin 1) k q) := by
  refine (Cert.PlainProduct.matmul_plain_apply _ r2_dot_plain none _ _ p q).trans ?_
  refine Finset.sum_congr rfl fun k _ => ?_
  show shapeCast S5000x64 x0 shapeCasts_S5000x64_S5000x64 (ix2 p k)
      * shapeCast S64x64 x1 shapeCasts_S1x64x64_S64x64 (ix2 k q) = _
  rw [shapeCast_self, shapeCast_1ab_ab_apply]

/-- The body's arithmetic at one entry of the block. -/
theorem r2_pay_apply (v0 v2 v4 : FVec Ideal S5000x64 .bf16) (v6 v9 v12 : FVec Ideal S1x64x64 .f32) (v20 : FVec Ideal S1x64 .f32)
    (p : Fin 5000) (q : Fin 64) :
    k2_pay1 (F := Ideal) v0 v2 v4 v6 v9 v12 v20 (ix2 p q)
      = max (((((∑ k : Fin 64, v0 (ix2 p k) * v6 (ix3 (0 : Fin 1) k q)) + (∑ k : Fin 64, v2 (ix2 p k) * v9 (ix3 (0 : Fin 1) k q)))
          + (∑ k : Fin 64, v4 (ix2 p k) * v12 (ix3 (0 : Fin 1) k q))) + v20 (ix2 (0 : Fin 1) q))) (Ideal.ofBits .f32 0x00000000#32) := by
  unfold k2_pay1
  refine congrArg₂ max (congrArg₂ (· + ·) (congrArg₂ (· + ·) (congrArg₂ (· + ·)
    (r2_slabProduct_apply v0 v6 p q) (r2_slabProduct_apply v2 v9 p q)) (r2_slabProduct_apply v4 v12 p q)) ?_) rfl
  show broadcastTo S5000x64 (shapeCast S1x64 v20 shapeCasts_S1x64_S1x64) broadcasts_S1x64_S5000x64 (ix2 p q) = _
  rw [shapeCast_self, broadcastTo_1b_ab_apply]

theorem r2_hz : (![0, 0] : Fin 2 → Nat) = fun _ => 0 := funext fun a => by fin_cases a <;> rfl

/-- A block cut to what a transfer moves, read at a block index. -/
theorem r2_cut_apply {G : Pipeline.Grid} (w : Pipeline.Window sig G) {α : Type} (i : G.Coords) (X : w.block.Idx → α)
    (j : (w.xblock i).Idx) (y : w.block.Idx) (h : w.xinj i j = y) : w.cut i X j = X y := by
  subst h; rfl

/-- Contents read through a view, at the place an index of the view sits in the buffer (the element type of the buffer
    is the view's: the cast is along that equation, the identity at any literal view). -/
theorem r2_read_at {κ : Kind} {sp : Space} {S : Shape} {e : EltTy} (v : View sig κ sp S e)
    (f : v.ty.Contents (Elt Ideal)) (x : S.Idx) (y : v.ty.Idx) (h : v.emb x = y) :
    v.read (Elt Ideal) f x = _root_.cast (congrArg (Elt Ideal) v.elt_eq) (f y) := by
  subst h; rfl

/-- Window 0's printed index map over the grid: row block `t`, column block 0. -/
theorem r2_idx0 : ∀ t : Fin cfg2.N, win2_0.index t (0 : Fin 2) = t.val ∧ win2_0.index t (1 : Fin 2) = 0 :=
  (by decide +kernel : ∀ t : Fin grid2.N, _)

/-- Window 1's printed index map over the grid: row block `t`, column block 0. -/
theorem r2_idx1 : ∀ t : Fin cfg2.N, win2_1.index t (0 : Fin 2) = t.val ∧ win2_1.index t (1 : Fin 2) = 0 :=
  (by decide +kernel : ∀ t : Fin grid2.N, _)

/-- Window 2's printed index map over the grid: row block `t`, column block 0. -/
theorem r2_idx2 : ∀ t : Fin cfg2.N, win2_2.index t (0 : Fin 2) = t.val ∧ win2_2.index t (1 : Fin 2) = 0 :=
  (by decide +kernel : ∀ t : Fin grid2.N, _)

/-- The weight window is its whole array at every point. -/
theorem r2_idx3 : ∀ t : Fin cfg2.N,
    win2_3.index t (0 : Fin 3) = 0 ∧ win2_3.index t (1 : Fin 3) = 0 ∧ win2_3.index t (2 : Fin 3) = 0 :=
  (by decide +kernel : ∀ t : Fin grid2.N, _)

/-- The bias window is its whole array at every point. -/
theorem r2_idx4 : ∀ t : Fin cfg2.N, win2_4.index t (0 : Fin 2) = 0 ∧ win2_4.index t (1 : Fin 2) = 0 :=
  (by decide +kernel : ∀ t : Fin grid2.N, _)

/-- Window 5's printed index map over the grid: row block `t`, column block 0. -/
theorem r2_idx5 : ∀ t : Fin cfg2.N, win2_5.index t (0 : Fin 2) = t.val ∧ win2_5.index t (1 : Fin 2) = 0 :=
  (by decide +kernel : ∀ t : Fin grid2.N, _)

/-- Row window 0's block at point `t` is rows `5000 t + p` of its array. -/
theorem r2_blk0_apply (c : Dev nD) (t : Fin cfg2.N) (p : Fin 5000) (k : Fin 64) (r : Fin 100000)
    (hr : r.val = t.val * 5000 + p.val) :
    (iblk2 V c 0 t : FVec Ideal S5000x64 .bf16) (ix2 p k)
      = (V c (Pipeline.arrRef spec2 0) : FVec Ideal S100000x64 .bf16) (ix2 r k) := by
  obtain ⟨e0, e1⟩ := r2_idx0 t
  unfold iblk2
  refine (r2_read_at _ _ _ _ (funext fun a => Fin.ext ?_)).trans rfl
  match a with
  | ⟨0, _⟩ => show win2_0.index t (0 : Fin 2) * 5000 + 1 * p.val = r.val; omega
  | ⟨1, _⟩ => show win2_0.index t (1 : Fin 2) * 64 + 1 * k.val = k.val; omega

/-- Row window 1's block at point `t` is rows `5000 t + p` of its array. -/
theorem r2_blk1_apply (c : Dev nD) (t : Fin cfg2.N) (p : Fin 5000) (k : Fin 64) (r : Fin 100000)
    (hr : r.val = t.val * 5000 + p.val) :
    (iblk2 V c 1 t : FVec Ideal S5000x64 .bf16) (ix2 p k)
      = (V c (Pipeline.arrRef spec2 1) : FVec Ideal S100000x64 .bf16) (ix2 r k) := by
  obtain ⟨e0, e1⟩ := r2_idx1 t
  unfold iblk2
  refine (r2_read_at _ _ _ _ (funext fun a => Fin.ext ?_)).trans rfl
  match a with
  | ⟨0, _⟩ => show win2_1.index t (0 : Fin 2) * 5000 + 1 * p.val = r.val; omega
  | ⟨1, _⟩ => show win2_1.index t (1 : Fin 2) * 64 + 1 * k.val = k.val; omega

/-- Row window 2's block at point `t` is rows `5000 t + p` of its array. -/
theorem r2_blk2_apply (c : Dev nD) (t : Fin cfg2.N) (p : Fin 5000) (k : Fin 64) (r : Fin 100000)
    (hr : r.val = t.val * 5000 + p.val) :
    (iblk2 V c 2 t : FVec Ideal S5000x64 .bf16) (ix2 p k)
      = (V c (Pipeline.arrRef spec2 2) : FVec Ideal S100000x64 .bf16) (ix2 r k) := by
  obtain ⟨e0, e1⟩ := r2_idx2 t
  unfold iblk2
  refine (r2_read_at _ _ _ _ (funext fun a => Fin.ext ?_)).trans rfl
  match a with
  | ⟨0, _⟩ => show win2_2.index t (0 : Fin 2) * 5000 + 1 * p.val = r.val; omega
  | ⟨1, _⟩ => show win2_2.index t (1 : Fin 2) * 64 + 1 * k.val = k.val; omega

/-- The weight window's block at every point is the whole weight stack. -/
theorem r2_blk3_apply (c : Dev nD) (t : Fin cfg2.N) (s : Fin 3) (k : Fin 64) (q : Fin 64) :
    (iblk2 V c 3 t : FVec Ideal S3x64x64 .f32) (ix3 s k q)
      = (V c (Pipeline.arrRef spec2 3) : FVec Ideal S3x64x64 .f32) (ix3 s k q) := by
  obtain ⟨e0, e1, e2⟩ := r2_idx3 t
  unfold iblk2
  refine (r2_read_at _ _ _ _ (funext fun a => Fin.ext ?_)).trans rfl
  match a with
  | ⟨0, _⟩ => show win2_3.index t (0 : Fin 3) * 3 + 1 * s.val = s.val; omega
  | ⟨1, _⟩ => show win2_3.index t (1 : Fin 3) * 64 + 1 * k.val = k.val; omega
  | ⟨2, _⟩ => show win2_3.index t (2 : Fin 3) * 64 + 1 * q.val = q.val; omega

/-- The bias window's block at every point is the whole bias row. -/
theorem r2_blk4_apply (c : Dev nD) (t : Fin cfg2.N) (u : Fin 1) (q : Fin 64) :
    (iblk2 V c 4 t : FVec Ideal S1x64 .f32) (ix2 u q) = (V c (Pipeline.arrRef spec2 4) : FVec Ideal S1x64 .f32) (ix2 u q) := by
  obtain ⟨e0, e1⟩ := r2_idx4 t
  unfold iblk2
  refine (r2_read_at _ _ _ _ (funext fun a => Fin.ext ?_)).trans rfl
  match a with
  | ⟨0, _⟩ => show win2_4.index t (0 : Fin 2) * 1 + 1 * u.val = u.val; omega
  | ⟨1, _⟩ => show win2_4.index t (1 : Fin 2) * 64 + 1 * q.val = q.val; omega

/-- Slab `s` of the weight stack, loaded through its rectangle, is the stack at first coordinate `s`. -/
theorem r2_slab_ld (x1 : Vec Ideal S3x64x64 .f32) (s : Fin 3) (off : Fin 3 → Nat) (hoff : off = ![s.val, 0, 0])
    (inb : ∀ a, off a + S1x64x64.size a ≤ S3x64x64.size a) (k : Fin 64) (q : Fin 64) :
    View.ld (Val := Elt Ideal) x1 (Rect.unit (s := S3x64x64) off S1x64x64.size inb) (ix3 (0 : Fin 1) k q) = x1 (ix3 s k q) := by
  subst hoff
  show x1 _ = x1 _
  refine congrArg x1 (funext fun a => Fin.ext ?_)
  match a with
  | ⟨0, _⟩ => show s.val + 1 * 0 = s.val; omega
  | ⟨1, _⟩ => show 0 + 1 * k.val = k.val; omega
  | ⟨2, _⟩ => show 0 + 1 * q.val = q.val; omega

/-- One block's rows against one slab, read in the arrays. -/
theorem r2_sum_apply (T : FVec Ideal S100000x64 .bf16) (W : FVec Ideal S3x64x64 .f32)
    (x : FVec Ideal S5000x64 .bf16) (x3 : Vec Ideal S3x64x64 .f32) (n : Nat)
    (h : ∀ (p : Fin 5000) (k : Fin 64) (r : Fin 100000), r.val = n * 5000 + p.val → x (ix2 p k) = T (ix2 r k))
    (h3 : ∀ (s : Fin 3) (k : Fin 64) (q : Fin 64), x3 (ix3 s k q) = W (ix3 s k q))
    (s : Fin 3) (off : Fin 3 → Nat) (hoff : off = ![s.val, 0, 0])
    (inb : ∀ a, off a + S1x64x64.size a ≤ S3x64x64.size a) (p : Fin 5000) (q : Fin 64) (r : Fin 100000)
    (hr : r.val = n * 5000 + p.val) :
    ∑ k : Fin 64, x (ix2 p k)
        * View.ld (Val := Elt Ideal) x3 (Rect.unit (s := S3x64x64) off S1x64x64.size inb) (ix3 (0 : Fin 1) k q)
      = ∑ k : Fin 64, T (ix2 r k) * W (ix3 s k q) :=
  Finset.sum_congr rfl fun k _ => by rw [r2_slab_ld x3 s off hoff inb k q, h p k r hr, h3 s k q]

/-- One point's entry, read in the arrays: if the three row blocks are rows `5000 n + p` of their arrays, the weight
    block is the weight stack and the bias block the bias, the body's value at `(p, q)` is the combination at
    `(5000 n + p, q)`. -/
theorem r2_point_apply (T0 T1 T2 : FVec Ideal S100000x64 .bf16) (W : FVec Ideal S3x64x64 .f32) (B : FVec Ideal S1x64 .f32)
    (x0 x1 x2 : FVec Ideal S5000x64 .bf16) (x3 : Vec Ideal S3x64x64 .f32) (x4 : FVec Ideal S1x64 .f32) (n : Nat)
    (h0 : ∀ (p : Fin 5000) (k : Fin 64) (r : Fin 100000), r.val = n * 5000 + p.val → x0 (ix2 p k) = T0 (ix2 r k))
    (h1 : ∀ (p : Fin 5000) (k : Fin 64) (r : Fin 100000), r.val = n * 5000 + p.val → x1 (ix2 p k) = T1 (ix2 r k))
    (h2 : ∀ (p : Fin 5000) (k : Fin 64) (r : Fin 100000), r.val = n * 5000 + p.val → x2 (ix2 p k) = T2 (ix2 r k))
    (h3 : ∀ (s : Fin 3) (k : Fin 64) (q : Fin 64), x3 (ix3 s k q) = W (ix3 s k q))
    (h4 : ∀ (u : Fin 1) (q : Fin 64), x4 (ix2 u q) = B (ix2 u q))
    (o1 o2 o3 : Fin 3 → Nat) (ho1 : o1 = ![(0 : Fin 3).val, 0, 0]) (ho2 : o2 = ![(1 : Fin 3).val, 0, 0])
    (ho3 : o3 = ![(2 : Fin 3).val, 0, 0])
    (i1 : ∀ a, o1 a + S1x64x64.size a ≤ S3x64x64.size a) (i2 : ∀ a, o2 a + S1x64x64.size a ≤ S3x64x64.size a)
    (i3 : ∀ a, o3 a + S1x64x64.size a ≤ S3x64x64.size a)
    (p : Fin 5000) (q : Fin 64) (r : Fin 100000) (hr : r.val = n * 5000 + p.val) :
    k2_pay1 (F := Ideal) x0 x1 x2
        (View.ld (Val := Elt Ideal) x3 (Rect.unit (s := S3x64x64) o1 S1x64x64.size i1))
        (View.ld (Val := Elt Ideal) x3 (Rect.unit (s := S3x64x64) o2 S1x64x64.size i2))
        (View.ld (Val := Elt Ideal) x3 (Rect.unit (s := S3x64x64) o3 S1x64x64.size i3)) x4 (ix2 p q)
      = cheb64 T0 T1 T2 W B (ix2 r q) := by
  rw [r2_pay_apply, cheb64_apply,
    r2_sum_apply T0 W x0 x3 n h0 h3 0 o1 ho1 i1 p q r hr, r2_sum_apply T1 W x1 x3 n h1 h3 1 o2 ho2 i2 p q r hr,
    r2_sum_apply T2 W x2 x3 n h2 h3 2 o3 ho3 i3 p q r hr, h4 0 q]

/-- The buffer the body leaves is its arithmetic on the loaded blocks: one store through the whole staging buffer, the
    row blocks and the bias loaded whole, the weight stack slab by slab. -/
theorem r2_out_eq (x0 x1 x2 : Vec Ideal S5000x64 .bf16) (x3 : Vec Ideal S3x64x64 .f32) (x4 : Vec Ideal S1x64 .f32) :
    out2_5 (F := Ideal) x0 x1 x2 x3 x4
      = k2_pay1 x0 x1 x2 (View.ld x3 r2_1) (View.ld x3 r2_2) (View.ld x3 r2_3) x4 := by
  unfold out2_5
  rw [View.canon_unit_zero r2_hz]
  simp only [View.ld_unit_zero (S := S5000x64) r2_hz, View.ld_unit_zero (S := S1x64) r2_hz]

set_option maxHeartbeats 1000000 in
/-- What point `t` writes back is block `t` of the combination of the arrays as the region finds them. -/
theorem r2_flushed_eq (c : Dev nD) (t : Fin cfg2.N) :
    (dat2 (F := Ideal) V c).flushed 5 t
      = ((cfg2.win 5).blk t).view.read (Elt Ideal) (cheb64 (V c (Pipeline.arrRef spec2 0)) (V c (Pipeline.arrRef spec2 1))
          (V c (Pipeline.arrRef spec2 2)) (V c (Pipeline.arrRef spec2 3)) (V c (Pipeline.arrRef spec2 4))) := by
  show (cfg2.win 5).cut (grid2.coords t) ((dat2 V c).after 5 t) = _
  rw [after2_5, r2_out_eq]
  funext j
  have hN : cfg2.N = 20 := N_2
  have ht : t.val < 20 := hN ▸ t.isLt
  have hj0 : (j 0).val < 5000 := (j 0).isLt
  have hj1 : (j 1).val < 64 := (j 1).isLt
  obtain ⟨e0, e1⟩ := r2_idx5 t
  have eL : (cfg2.win 5).xinj (grid2.coords t) j = ix2 (⟨(j 0).val, hj0⟩ : Fin 5000) (⟨(j 1).val, hj1⟩ : Fin 64) :=
    funext fun a => by match a with | ⟨0, _⟩ => rfl | ⟨1, _⟩ => rfl
  have eR : ((cfg2.win 5).blk t).view.emb j
      = ix2 (⟨t.val * 5000 + (j 0).val, by omega⟩ : Fin 100000) (⟨(j 1).val, hj1⟩ : Fin 64) :=
    funext fun a => Fin.ext (by
      match a with
      | ⟨0, _⟩ => show win2_5.index t (0 : Fin 2) * 5000 + 1 * (j 0).val = t.val * 5000 + (j 0).val; omega
      | ⟨1, _⟩ => show win2_5.index t (1 : Fin 2) * 64 + 1 * (j 1).val = (j 1).val; omega)
  refine (r2_cut_apply _ _ _ j _ eL).trans (Eq.trans ?_ (r2_read_at _ _ j _ eR).symm)
  exact r2_point_apply _ _ _ _ _ _ _ _ _ _ t.val
    (r2_blk0_apply V c t) (r2_blk1_apply V c t) (r2_blk2_apply V c t) (r2_blk3_apply V c t) (r2_blk4_apply V c t)
    _ _ _ rfl rfl rfl _ _ _ ⟨(j 0).val, hj0⟩ ⟨(j 1).val, hj1⟩ ⟨t.val * 5000 + (j 0).val, by omega⟩ rfl

/-- An index of the output array is in point `t`'s block iff each coordinate is in the block's range on its axis. -/
theorem r2_mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v113).slice (win2_5.rect t)).set ↔ _
  rw [View.set_slice_whole, Rect.mem_set_unit]
  exact Iff.rfl

/-- Row `r` of the output lies in the block of point `r / 5000`. -/
theorem r2_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1⟩ := r2_idx5 t
  refine ⟨t, flush2_5 t, ?_⟩
  rw [r2_mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- The output array after the region: the combination of the five arrays as the region finds them. -/
theorem region2_out5 (c : Dev nD) : (dat2 (F := Ideal) V c).arrAt 5 cfg2.N
    = cheb64 (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5 _ (fun t _ => r2_flushed_eq V c t) r2_cover

end Cert.KernelIdeal.RegionValue

end
-- ==== Proof.Region3.lean ====
import proofs.«135650_j10402410791478_2_alg».proof.Proof.Gen.KernelIdeal.Frame
import proofs.«135650_j10402410791478_2_alg».proof.Proof.LibPlainProduct
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! # Region 3: three projections of the second hidden layer

Each of the three outputs of the fourth kernel is a plain product of the whole feature array `X : [100000, 64]`
with one `[64, 5]` slab of the weight stack `W : [3, 64, 5]`: entry `(i, j)` of output `k` is
`∑ c, X (i, c) * W (k, c, j)`. The grid has 20 points; point `t` computes rows `5000 t … 5000 t + 4999`. -/

variable (V : (c : Dev nD) → (b : Ref sig .tc) → Buf (Elt Ideal) ((c : Thread nD τ).loc b))

/-- Output `k` of the projection: the product of the features with slab `k` of the weights. -/
def proj64 (X : FVec Ideal S100000x64 .bf16) (W : FVec Ideal S3x64x5 .f32) (k : Fin 3) : FVec Ideal S100000x5 .bf16 :=
  fun i => ∑ c : Fin 64, X (ix2 (n0 := 100000) (i 0) c) * W (ix3 (n2 := 5) k c (i 1))

theorem proj64_apply (X : FVec Ideal S100000x64 .bf16) (W : FVec Ideal S3x64x5 .f32) (k : Fin 3) (a : Fin 100000) (b : Fin 5) :
    proj64 X W k (ix2 a b) = ∑ c : Fin 64, X (ix2 a c) * W (ix3 k c b) := rfl

theorem hz2_r3 : (![0, 0] : Fin 2 → Nat) = fun _ => 0 := funext fun a => by fin_cases a <;> rfl

theorem dot3_plain : dot_S5000x64_S64x5_S5000x5_1_0_0_1_n_n = DotDims.plain 5000 64 5 := rfl

/-- One block's product with one slab, entry by entry: the sum over the 64 contracted coordinates. -/
theorem slabProduct_apply_r3 (x0 : FVec Ideal S5000x64 .bf16) (x1 : FVec Ideal S1x64x5 .f32) (p : Fin 5000) (q : Fin 5) :
    (matmul dot_S5000x64_S64x5_S5000x5_1_0_0_1_n_n none (shapeCast S5000x64 x0 shapeCasts_S5000x64_S5000x64)
        (truncf .bf16 (shapeCast S64x5 x1 shapeCasts_S1x64x5_S64x5) bitsLt_bf16_f32)
        (constant (F := Ideal) S5000x5 .f32 0x00000000#32)) (ix2 p q)
      = ∑ k : Fin 64, x0 (ix2 p k) * x1 (ix3 (0 : Fin 1) k q) := by
  refine (Cert.PlainProduct.matmul_plain_apply _ dot3_plain none _ _ p q).trans ?_
  refine Finset.sum_congr rfl fun k _ => ?_
  show shapeCast S5000x64 x0 shapeCasts_S5000x64_S5000x64 (ix2 p k)
      * shapeCast S64x5 x1 shapeCasts_S1x64x5_S64x5 (ix2 k q) = _
  rw [shapeCast_self, shapeCast_1ab_ab_apply]

theorem pay2_apply_r3 (x0 : FVec Ideal S5000x64 .bf16) (x1 : FVec Ideal S1x64x5 .f32) (p : Fin 5000) (q : Fin 5) :
    k3_pay2 (F := Ideal) x0 x1 (ix2 p q) = ∑ k : Fin 64, x0 (ix2 p k) * x1 (ix3 (0 : Fin 1) k q) := by
  unfold k3_pay2 k3_pay1
  exact slabProduct_apply_r3 x0 x1 p q
theorem pay3_apply_r3 (x0 : FVec Ideal S5000x64 .bf16) (x1 : FVec Ideal S1x64x5 .f32) (p : Fin 5000) (q : Fin 5) :
    k3_pay3 (F := Ideal) x0 x1 (ix2 p q) = ∑ k : Fin 64, x0 (ix2 p k) * x1 (ix3 (0 : Fin 1) k q) := by
  unfold k3_pay3 k3_pay1
  exact slabProduct_apply_r3 x0 x1 p q
theorem pay4_apply_r3 (x0 : FVec Ideal S5000x64 .bf16) (x1 : FVec Ideal S1x64x5 .f32) (p : Fin 5000) (q : Fin 5) :
    k3_pay4 (F := Ideal) x0 x1 (ix2 p q) = ∑ k : Fin 64, x0 (ix2 p k) * x1 (ix3 (0 : Fin 1) k q) := by
  unfold k3_pay4 k3_pay1
  exact slabProduct_apply_r3 x0 x1 p q

/-- The printed index maps over the grid: the row windows sit at block `t`, column block 0; the weight window is the
    whole stack at every point. -/
theorem idx_facts3 : ∀ t : Fin cfg3.N,
    win3_0.index t (0 : Fin 2) = t.val ∧ win3_0.index t (1 : Fin 2) = 0
    ∧ win3_1.index t (0 : Fin 3) = 0 ∧ win3_1.index t (1 : Fin 3) = 0 ∧ win3_1.index t (2 : Fin 3) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The feature window's block at point `t` is rows `5000 t + p` of the feature array. -/
theorem xblk_apply_r3 (c : Dev nD) (t : Fin cfg3.N) (p : Fin 5000) (k : Fin 64) (r : Fin 100000) (hr : r.val = t.val * 5000 + p.val) :
    (iblk3 V c 0 t : FVec Ideal S5000x64 .bf16) (ix2 p k) = (V c (Pipeline.arrRef spec3 0) : FVec Ideal S100000x64 .bf16) (ix2 r k) := by
  obtain ⟨e0, e1, -⟩ := idx_facts3 t
  show (V c (Pipeline.arrRef spec3 0) : FVec Ideal S100000x64 .bf16) (((cfg3.win 0).blk t).view.emb (ix2 p k)) = _
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- The weight window's block at every point is the whole weight stack. -/
theorem wblk_apply_r3 (c : Dev nD) (t : Fin cfg3.N) (s : Fin 3) (k : Fin 64) (q : Fin 5) :
    (iblk3 V c 1 t : FVec Ideal S3x64x5 .f32) (ix3 s k q) = (V c (Pipeline.arrRef spec3 1) : FVec Ideal S3x64x5 .f32) (ix3 s k q) := by
  obtain ⟨-, -, e0, e1, e2, -⟩ := idx_facts3 t
  show (V c (Pipeline.arrRef spec3 1) : FVec Ideal S3x64x5 .f32) (((cfg3.win 1).blk t).view.emb (ix3 s k q)) = _
  refine congrArg _ (funext fun a => Fin.ext ?_)
  match a with
  | ⟨0, _⟩ => show win3_1.index t (0 : Fin 3) * 3 + 1 * s.val = s.val; omega
  | ⟨1, _⟩ => show win3_1.index t (1 : Fin 3) * 64 + 1 * k.val = k.val; omega
  | ⟨2, _⟩ => show win3_1.index t (2 : Fin 3) * 5 + 1 * q.val = q.val; omega

/-- Slab `s` of the weight stack, loaded through its rectangle, is the stack at first coordinate `s`. -/
theorem slab_ld_r3 (x1 : Vec Ideal S3x64x5 .f32) (s : Fin 3) (off : Fin 3 → Nat) (hoff : off = ![s.val, 0, 0])
    (inb : ∀ a, off a + S1x64x5.size a ≤ S3x64x5.size a) (k : Fin 64) (q : Fin 5) :
    View.ld (Val := Elt Ideal) x1 (Rect.unit (s := S3x64x5) off S1x64x5.size inb) (ix3 (0 : Fin 1) k q) = x1 (ix3 s k q) := by
  subst hoff
  show x1 _ = x1 _
  refine congrArg x1 (funext fun a => Fin.ext ?_)
  match a with
  | ⟨0, _⟩ => show s.val + 1 * 0 = s.val; omega
  | ⟨1, _⟩ => show 0 + 1 * k.val = k.val; omega
  | ⟨2, _⟩ => show 0 + 1 * q.val = q.val; omega

/-- One point's product, read in the arrays: if the block `x0` is rows `5000 n + p` of `X` and `x1` is `W`, then
    block row `p` against slab `s` is entry `(5000 n + p, q)` of the projection by slab `s`. -/
theorem point_apply_r3 (X : FVec Ideal S100000x64 .bf16) (W : FVec Ideal S3x64x5 .f32)
    (x0 : FVec Ideal S5000x64 .bf16) (x1 : Vec Ideal S3x64x5 .f32) (n : Nat)
    (h0 : ∀ (p : Fin 5000) (k : Fin 64) (r : Fin 100000), r.val = n * 5000 + p.val → x0 (ix2 p k) = X (ix2 r k))
    (h1 : ∀ (s : Fin 3) (k : Fin 64) (q : Fin 5), x1 (ix3 s k q) = W (ix3 s k q))
    (s : Fin 3) (off : Fin 3 → Nat) (hoff : off = ![s.val, 0, 0])
    (inb : ∀ a, off a + S1x64x5.size a ≤ S3x64x5.size a) (p : Fin 5000) (q : Fin 5) (r : Fin 100000)
    (hr : r.val = n * 5000 + p.val) :
    ∑ k : Fin 64, x0 (ix2 p k)
        * View.ld (Val := Elt Ideal) x1 (Rect.unit (s := S3x64x5) off S1x64x5.size inb) (ix3 (0 : Fin 1) k q)
      = proj64 X W s (ix2 r q) := by
  rw [proj64_apply]
  refine Finset.sum_congr rfl fun k _ => ?_
  rw [slab_ld_r3 x1 s off hoff inb k q, h0 p k r hr, h1 s k q]

/-- What point `t` writes back to the first output is block `t` of the projection by slab 0. -/
theorem flushed2_eq_r3 (c : Dev nD) (t : Fin cfg3.N) :
    (dat3 (F := Ideal) V c).flushed 2 t
      = ((cfg3.win 2).blk t).view.read (Elt Ideal) (proj64 (V c (Pipeline.arrRef spec3 0)) (V c (Pipeline.arrRef spec3 1)) 0) := by
  show (cfg3.win 2).cut (grid3.coords t) ((dat3 V c).after 2 t) = _
  rw [after3_2]
  unfold out3_2
  rw [View.canon_unit_zero hz2_r3]
  simp only [View.ld_unit_zero (S := S5000x64) hz2_r3]
  funext j
  have hN : cfg3.N = 20 := N_3
  have ht : t.val < 20 := hN ▸ t.isLt
  have hj0 : (j 0).val < 5000 := (j 0).isLt
  have hj1 : (j 1).val < 5 := (j 1).isLt
  obtain ⟨-, -, -, -, -, e0, e1, -⟩ := idx_facts3 t
  have eL : (cfg3.win 2).xinj (grid3.coords t) j = ix2 (⟨(j 0).val, hj0⟩ : Fin 5000) (⟨(j 1).val, hj1⟩ : Fin 5) :=
    funext fun a => by match a with | ⟨0, _⟩ => rfl | ⟨1, _⟩ => rfl
  have eR : ((cfg3.win 2).blk t).view.emb j
      = ix2 (⟨t.val * 5000 + (j 0).val, by omega⟩ : Fin 100000) (⟨(j 1).val, hj1⟩ : Fin 5) :=
    funext fun a => Fin.ext (by
      match a with
      | ⟨0, _⟩ => show win3_2.index t (0 : Fin 2) * 5000 + 1 * (j 0).val = t.val * 5000 + (j 0).val; omega
      | ⟨1, _⟩ => show win3_2.index t (1 : Fin 2) * 5 + 1 * (j 1).val = (j 1).val; omega)
  show k3_pay2 (iblk3 V c 0 t) (View.ld (iblk3 V c 1 t) r3_1) ((cfg3.win 2).xinj (grid3.coords t) j)
    = proj64 (V c (Pipeline.arrRef spec3 0)) (V c (Pipeline.arrRef spec3 1)) 0 (((cfg3.win 2).blk t).view.emb j)
  rw [eL, eR]
  exact (pay2_apply_r3 _ _ _ _).trans (point_apply_r3 (V c (Pipeline.arrRef spec3 0)) (V c (Pipeline.arrRef spec3 1))
    (iblk3 V c 0 t) (iblk3 V c 1 t) t.val (xblk_apply_r3 V c t) (wblk_apply_r3 V c t) 0 _ rfl _
    ⟨(j 0).val, hj0⟩ ⟨(j 1).val, hj1⟩ ⟨t.val * 5000 + (j 0).val, by omega⟩ rfl)

/-- An index of the first output array is in point `t`'s block iff each coordinate is in the block's range on its axis. -/
theorem mem_blk2_r3 (t : Fin cfg3.N) (i : S100000x5.Idx) :
    i ∈ ((cfg3.win 2).blk t).view.set ↔ ∀ a : Fin 2, win3_2.index t a * S5000x5.size a ≤ (i a).val
      ∧ (i a).val < win3_2.index t a * S5000x5.size a + S5000x5.size a := by
  show i ∈ ((View.whole main_v114_0).slice (win3_2.rect t)).set ↔ _
  rw [View.set_slice_whole, Rect.mem_set_unit]
  exact Iff.rfl

/-- Row `r` of the first output lies in the block of point `r / 5000`. -/
theorem cover2_r3 (i : S100000x5.Idx) :
    ∃ t : Fin cfg3.N, (cfg3.win 2).flush t = true ∧ i ∈ ((cfg3.win 2).blk t).view.set := by
  have hi0 : (i 0).val < 100000 := (i 0).isLt
  have hi1 : (i 1).val < 5 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, e0, e1, -⟩ := idx_facts3 t
  refine ⟨t, flush3_2 t, ?_⟩
  rw [mem_blk2_r3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 5 ≤ (i 1).val ∧ (i 1).val < win3_2.index t (1 : Fin 2) * 5 + 5
    omega

/-- The first output array after the region: the features times slab 0 of the weights. -/
theorem region3_out2 (c : Dev nD) : (dat3 (F := Ideal) V c).arrAt 2 cfg3.N
    = proj64 (V c (Pipeline.arrRef spec3 0)) (V c (Pipeline.arrRef spec3 1)) 0 :=
  (dat3 (F := Ideal) V c).arrAt_eq_of_cover 2 _ (fun t _ => flushed2_eq_r3 V c t) cover2_r3

/-- What point `t` writes back to the second output is block `t` of the projection by slab 1. -/
theorem flushed3_eq_r3 (c : Dev nD) (t : Fin cfg3.N) :
    (dat3 (F := Ideal) V c).flushed 3 t
      = ((cfg3.win 3).blk t).view.read (Elt Ideal) (proj64 (V c (Pipeline.arrRef spec3 0)) (V c (Pipeline.arrRef spec3 1)) 1) := by
  show (cfg3.win 3).cut (grid3.coords t) ((dat3 V c).after 3 t) = _
  rw [after3_3]
  unfold out3_3
  rw [View.canon_unit_zero hz2_r3]
  simp only [View.ld_unit_zero (S := S5000x64) hz2_r3]
  funext j
  have hN : cfg3.N = 20 := N_3
  have ht : t.val < 20 := hN ▸ t.isLt
  have hj0 : (j 0).val < 5000 := (j 0).isLt
  have hj1 : (j 1).val < 5 := (j 1).isLt
  obtain ⟨-, -, -, -, -, -, -, e0, e1, -⟩ := idx_facts3 t
  have eL : (cfg3.win 3).xinj (grid3.coords t) j = ix2 (⟨(j 0).val, hj0⟩ : Fin 5000) (⟨(j 1).val, hj1⟩ : Fin 5) :=
    funext fun a => by match a with | ⟨0, _⟩ => rfl | ⟨1, _⟩ => rfl
  have eR : ((cfg3.win 3).blk t).view.emb j
      = ix2 (⟨t.val * 5000 + (j 0).val, by omega⟩ : Fin 100000) (⟨(j 1).val, hj1⟩ : Fin 5) :=
    funext fun a => Fin.ext (by
      match a with
      | ⟨0, _⟩ => show win3_3.index t (0 : Fin 2) * 5000 + 1 * (j 0).val = t.val * 5000 + (j 0).val; omega
      | ⟨1, _⟩ => show win3_3.index t (1 : Fin 2) * 5 + 1 * (j 1).val = (j 1).val; omega)
  show k3_pay3 (iblk3 V c 0 t) (View.ld (iblk3 V c 1 t) r3_2) ((cfg3.win 3).xinj (grid3.coords t) j)
    = proj64 (V c (Pipeline.arrRef spec3 0)) (V c (Pipeline.arrRef spec3 1)) 1 (((cfg3.win 3).blk t).view.emb j)
  rw [eL, eR]
  exact (pay3_apply_r3 _ _ _ _).trans (point_apply_r3 (V c (Pipeline.arrRef spec3 0)) (V c (Pipeline.arrRef spec3 1))
    (iblk3 V c 0 t) (iblk3 V c 1 t) t.val (xblk_apply_r3 V c t) (wblk_apply_r3 V c t) 1 _ rfl _
    ⟨(j 0).val, hj0⟩ ⟨(j 1).val, hj1⟩ ⟨t.val * 5000 + (j 0).val, by omega⟩ rfl)

/-- An index of the second output array is in point `t`'s block iff each coordinate is in the block's range on its axis. -/
theorem mem_blk3_r3 (t : Fin cfg3.N) (i : S100000x5.Idx) :
    i ∈ ((cfg3.win 3).blk t).view.set ↔ ∀ a : Fin 2, win3_3.index t a * S5000x5.size a ≤ (i a).val
      ∧ (i a).val < win3_3.index t a * S5000x5.size a + S5000x5.size a := by
  show i ∈ ((View.whole main_v114_1).slice (win3_3.rect t)).set ↔ _
  rw [View.set_slice_whole, Rect.mem_set_unit]
  exact Iff.rfl

/-- Row `r` of the second output lies in the block of point `r / 5000`. -/
theorem cover3_r3 (i : S100000x5.Idx) :
    ∃ t : Fin cfg3.N, (cfg3.win 3).flush t = true ∧ i ∈ ((cfg3.win 3).blk t).view.set := by
  have hi0 : (i 0).val < 100000 := (i 0).isLt
  have hi1 : (i 1).val < 5 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, e0, e1, -⟩ := idx_facts3 t
  refine ⟨t, flush3_3 t, ?_⟩
  rw [mem_blk3_r3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 5 ≤ (i 1).val ∧ (i 1).val < win3_3.index t (1 : Fin 2) * 5 + 5
    omega

/-- The second output array after the region: the features times slab 1 of the weights. -/
theorem region3_out3 (c : Dev nD) : (dat3 (F := Ideal) V c).arrAt 3 cfg3.N
    = proj64 (V c (Pipeline.arrRef spec3 0)) (V c (Pipeline.arrRef spec3 1)) 1 :=
  (dat3 (F := Ideal) V c).arrAt_eq_of_cover 3 _ (fun t _ => flushed3_eq_r3 V c t) cover3_r3

/-- What point `t` writes back to the third output is block `t` of the projection by slab 2. -/
theorem flushed4_eq_r3 (c : Dev nD) (t : Fin cfg3.N) :
    (dat3 (F := Ideal) V c).flushed 4 t
      = ((cfg3.win 4).blk t).view.read (Elt Ideal) (proj64 (V c (Pipeline.arrRef spec3 0)) (V c (Pipeline.arrRef spec3 1)) 2) := by
  show (cfg3.win 4).cut (grid3.coords t) ((dat3 V c).after 4 t) = _
  rw [after3_4]
  unfold out3_4
  rw [View.canon_unit_zero hz2_r3]
  simp only [View.ld_unit_zero (S := S5000x64) hz2_r3]
  funext j
  have hN : cfg3.N = 20 := N_3
  have ht : t.val < 20 := hN ▸ t.isLt
  have hj0 : (j 0).val < 5000 := (j 0).isLt
  have hj1 : (j 1).val < 5 := (j 1).isLt
  obtain ⟨-, -, -, -, -, -, -, -, -, e0, e1⟩ := idx_facts3 t
  have eL : (cfg3.win 4).xinj (grid3.coords t) j = ix2 (⟨(j 0).val, hj0⟩ : Fin 5000) (⟨(j 1).val, hj1⟩ : Fin 5) :=
    funext fun a => by match a with | ⟨0, _⟩ => rfl | ⟨1, _⟩ => rfl
  have eR : ((cfg3.win 4).blk t).view.emb j
      = ix2 (⟨t.val * 5000 + (j 0).val, by omega⟩ : Fin 100000) (⟨(j 1).val, hj1⟩ : Fin 5) :=
    funext fun a => Fin.ext (by
      match a with
      | ⟨0, _⟩ => show win3_4.index t (0 : Fin 2) * 5000 + 1 * (j 0).val = t.val * 5000 + (j 0).val; omega
      | ⟨1, _⟩ => show win3_4.index t (1 : Fin 2) * 5 + 1 * (j 1).val = (j 1).val; omega)
  show k3_pay4 (iblk3 V c 0 t) (View.ld (iblk3 V c 1 t) r3_3) ((cfg3.win 4).xinj (grid3.coords t) j)
    = proj64 (V c (Pipeline.arrRef spec3 0)) (V c (Pipeline.arrRef spec3 1)) 2 (((cfg3.win 4).blk t).view.emb j)
  rw [eL, eR]
  exact (pay4_apply_r3 _ _ _ _).trans (point_apply_r3 (V c (Pipeline.arrRef spec3 0)) (V c (Pipeline.arrRef spec3 1))
    (iblk3 V c 0 t) (iblk3 V c 1 t) t.val (xblk_apply_r3 V c t) (wblk_apply_r3 V c t) 2 _ rfl _
    ⟨(j 0).val, hj0⟩ ⟨(j 1).val, hj1⟩ ⟨t.val * 5000 + (j 0).val, by omega⟩ rfl)

/-- An index of the third output array is in point `t`'s block iff each coordinate is in the block's range on its axis. -/
theorem mem_blk4_r3 (t : Fin cfg3.N) (i : S100000x5.Idx) :
    i ∈ ((cfg3.win 4).blk t).view.set ↔ ∀ a : Fin 2, win3_4.index t a * S5000x5.size a ≤ (i a).val
      ∧ (i a).val < win3_4.index t a * S5000x5.size a + S5000x5.size a := by
  show i ∈ ((View.whole main_v114_2).slice (win3_4.rect t)).set ↔ _
  rw [View.set_slice_whole, Rect.mem_set_unit]
  exact Iff.rfl

/-- Row `r` of the third output lies in the block of point `r / 5000`. -/
theorem cover4_r3 (i : S100000x5.Idx) :
    ∃ t : Fin cfg3.N, (cfg3.win 4).flush t = true ∧ i ∈ ((cfg3.win 4).blk t).view.set := by
  have hi0 : (i 0).val < 100000 := (i 0).isLt
  have hi1 : (i 1).val < 5 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, e0, e1⟩ := idx_facts3 t
  refine ⟨t, flush3_4 t, ?_⟩
  rw [mem_blk4_r3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 5 ≤ (i 1).val ∧ (i 1).val < win3_4.index t (1 : Fin 2) * 5 + 5
    omega

/-- The third output array after the region: the features times slab 2 of the weights. -/
theorem region3_out4 (c : Dev nD) : (dat3 (F := Ideal) V c).arrAt 4 cfg3.N
    = proj64 (V c (Pipeline.arrRef spec3 0)) (V c (Pipeline.arrRef spec3 1)) 2 :=
  (dat3 (F := Ideal) V c).arrAt_eq_of_cover 4 _ (fun t _ => flushed4_eq_r3 V c t) cover4_r3

end Cert.KernelIdeal.RegionValue

end
-- ==== Proof.LibLogSoftmax.lean ====
/-
  The row-wise logarithm of the softmax of a matrix with five columns, index by index.

  For a row `a` with maximum `M` (the maximum taken starting from −∞) the value at column `j` is
  `(a j − M) − log ∑ j', exp (a j' − M)`.
-/
import Idealize.ShloMosaic.Lib.ValueIdx
import Idealize.ShloMosaic.PureOps.Ideal

noncomputable section

open scoped BigOperators

namespace Cert.LogSoftmax

open Idealize.ShloMosaic Idealize.ShloMosaic.ValueIdx

/-- The maximum of row `r`, taken starting from the single-precision pattern of −∞. -/
def rowMax5 (a : (⟨2, ![100000, 5]⟩ : Shape).Idx → EReal) (r : Fin 100000) : EReal :=
  (Finset.univ : Finset (Fin 5)).fold max (Ideal.ofBits .f32 0xFF800000#32) (fun j => a (ix2 r j))

/-- The logarithm of the softmax along the rows. -/
def logSoftmax5 (a : (⟨2, ![100000, 5]⟩ : Shape).Idx → EReal) : (⟨2, ![100000, 5]⟩ : Shape).Idx → EReal :=
  fun i => (a i - rowMax5 a (i 0)) - Ideal.log (∑ j : Fin 5, Ideal.exp (a (ix2 (n0 := 100000) (i 0) j) - rowMax5 a (i 0)))

end Cert.LogSoftmax

end
-- ==== Proof.Region4Pay.lean ====
import proofs.«135650_j10402410791478_2_alg».proof.Proof.Gen.KernelIdeal.Skeleton
import proofs.«135650_j10402410791478_2_alg».proof.Proof.LibLogSoftmax
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx

/-! # Region 4, the arithmetic: the last layer's combination and the logarithm of its row-wise softmax

The last kernel forms `a (i, j) = (((A0 - A2) + L1) + 2 · L2) + b (0, j)` on `[100000, 5]`, takes each row's maximum
`M i` (from −∞), and writes `(a (i, j) - M i) - log ∑ j', exp (a (i, j') - M i)`. This module reads the body's arithmetic
on one block of 5000 rows, entry by entry; nothing here depends on the grid. -/

/-- The last layer's combination before the softmax, as one function of the five arrays. -/
def pre5 (A0 A2 : FVec Ideal S100000x5 .bf16) (L1 L2 : FVec Ideal S100000x5 .f32) (b : FVec Ideal S1x5 .f32) :
    FVec Ideal S100000x5 .f32 :=
  fun i => (((A0 i - A2 i) + L1 i) + Ideal.ofBits .f32 0x40000000#32 * L2 i) + b (ix2 (0 : Fin 1) (i 1))

theorem pre5_apply (A0 A2 : FVec Ideal S100000x5 .bf16) (L1 L2 : FVec Ideal S100000x5 .f32) (b : FVec Ideal S1x5 .f32)
    (r : Fin 100000) (q : Fin 5) :
    pre5 A0 A2 L1 L2 b (ix2 r q)
      = (((A0 (ix2 r q) - A2 (ix2 r q)) + L1 (ix2 r q)) + Ideal.ofBits .f32 0x40000000#32 * L2 (ix2 r q)) + b (ix2 (0 : Fin 1) q) := rfl

theorem logSoftmax5_apply (a : (⟨2, ![100000, 5]⟩ : Shape).Idx → EReal) (r : Fin 100000) (q : Fin 5) :
    Cert.LogSoftmax.logSoftmax5 a (ix2 r q)
      = (a (ix2 r q) - Cert.LogSoftmax.rowMax5 a r)
          - Ideal.log (∑ j : Fin 5, Ideal.exp (a (ix2 r j) - Cert.LogSoftmax.rowMax5 a r)) := rfl

/-- The same combination on one block of 5000 rows. -/
def r4_preBlk (v0 v3 : FVec Ideal S5000x5 .bf16) (v7 v10 : FVec Ideal S5000x5 .f32) (v15 : FVec Ideal S1x5 .f32) :
    FVec Ideal S5000x5 .f32 :=
  fun y => (((v0 y - v3 y) + v7 y) + Ideal.ofBits .f32 0x40000000#32 * v10 y) + v15 (ix2 (0 : Fin 1) (y 1))

/-- The maximum of row `a` of a block, from the pattern of −∞. -/
def r4_max (A : FVec Ideal S5000x5 .f32) (a : Fin 5000) : EReal :=
  (Finset.univ : Finset (Fin 5)).fold max (Ideal.ofBits .f32 0xFF800000#32) (fun j => A (ix2 a j))

/-- A block with each row's maximum subtracted. -/
def r4_shift (A : FVec Ideal S5000x5 .f32) : FVec Ideal S5000x5 .f32 := fun y => A y - r4_max A (y 0)

/-- A column `[5000]` re-read as `[5000, 1]`. -/
theorem r4_colcast_apply (v : FVec Ideal S5000 .f32) (h : S5000.ShapeCasts S5000x1) (p : Fin 5000) (u : Fin 1) :
    shapeCast S5000x1 v h (ix2 p u) = v (ix1 p) := by
  refine shapeCast_apply v h (ix2 p u) (ix1 p) ?_
  have hu : u.val = 0 := by omega
  rw [Shape.rowMajor_val_two, Shape.rowMajor_val_one]
  show p.val = p.val * 1 + u.val
  omega

/-- A column `[5000, 1]` broadcast along the five lanes. -/
theorem r4_colbcast_apply (w : FVec Ideal S5000x1 .f32) (h : S5000x1.Broadcasts S5000x5) (p : Fin 5000) (q : Fin 5) :
    broadcastTo S5000x5 w h (ix2 p q) = w (ix2 p (0 : Fin 1)) := by
  refine broadcastTo_apply w h (ix2 p q) (ix2 p (0 : Fin 1)) fun a => ?_
  match a with
  | ⟨0, _⟩ => show p.val = if (5000 : Nat) = 1 then 0 else p.val; rw [if_neg (by decide)]
  | ⟨1, _⟩ => rfl

/-- The lane maximum of a block's row, from the pattern of −∞. -/
theorem r4_rowmax_apply (A : FVec Ideal S5000x5 .f32) (h : S5000x5.Reduces [1] S5000) (hφ : FKind.Formats .f32)
    (hacc : (0xFF800000#32 : BitVec 32) = 0xFF800000#32) (p : Fin 5000) :
    multiReduction .maximumf [1] S5000 A 0xFF800000#32 h hφ hacc (ix1 p) = r4_max A p := by
  refine (Ideal.multiReduction_maximumf_single A 0xFF800000#32 h hφ hacc (ix1 p)).trans ?_
  refine Finset.fold_congr fun j _ => ?_
  exact congrArg A (funext fun a => Fin.ext (by match a with | ⟨0, _⟩ => rfl | ⟨1, _⟩ => rfl))

/-- The lane sum of a block's row. -/
theorem r4_rowsum_apply (E : FVec Ideal S5000x5 .f32) (h : S5000x5.Reduces [1] S5000) (hφ : FKind.Formats .f32)
    (hacc : (0x00000000#32 : BitVec 32) = 0x00000000#32) (p : Fin 5000) :
    multiReduction .add [1] S5000 E 0x00000000#32 h hφ hacc (ix1 p) = ∑ j : Fin 5, E (ix2 p j) := by
  refine (Ideal.multiReduction_add_single E 0x00000000#32 h hφ hacc (ix1 p)).trans ?_
  refine Finset.sum_congr rfl fun j _ => ?_
  exact congrArg E (funext fun a => Fin.ext (by match a with | ⟨0, _⟩ => rfl | ⟨1, _⟩ => rfl))

/-- Subtracting the broadcast column of row maxima is `r4_shift`. -/
theorem r4_shift_eq (A : FVec Ideal S5000x5 .f32) (h : S5000x5.Reduces [1] S5000) (hφ : FKind.Formats .f32)
    (hacc : (0xFF800000#32 : BitVec 32) = 0xFF800000#32) (h1 : S5000.ShapeCasts S5000x1)
    (h2 : S5000x1.Broadcasts S5000x5) :
    subf A (broadcastTo S5000x5 (shapeCast S5000x1 (multiReduction .maximumf [1] S5000 A 0xFF800000#32 h hφ hacc) h1) h2)
      = r4_shift A := funext fun y => by
  obtain ⟨a, b, rfl⟩ : ∃ (a : Fin 5000) (b : Fin 5), y = ix2 a b := ⟨y 0, y 1, eq_ix2 y⟩
  show A (ix2 a b) - broadcastTo S5000x5 (shapeCast S5000x1 (multiReduction .maximumf [1] S5000 A 0xFF800000#32 h hφ hacc) h1) h2 (ix2 a b) = _
  rw [r4_colbcast_apply, r4_colcast_apply, r4_rowmax_apply]
  rfl

/-- The broadcast column of the logarithms of the row sums, at an entry. -/
theorem r4_logsum_apply (E : FVec Ideal S5000x5 .f32) (h : S5000x5.Reduces [1] S5000) (hφ : FKind.Formats .f32)
    (hacc : (0x00000000#32 : BitVec 32) = 0x00000000#32) (h1 : S5000.ShapeCasts S5000x1)
    (h2 : S5000x1.Broadcasts S5000x5) (a : Fin 5000) (b : Fin 5) :
    broadcastTo S5000x5 (log (shapeCast S5000x1 (multiReduction .add [1] S5000 E 0x00000000#32 h hφ hacc) h1)) h2 (ix2 a b)
      = Ideal.log (∑ j : Fin 5, E (ix2 a j)) := by
  rw [r4_colbcast_apply]
  show Ideal.log (shapeCast S5000x1 (multiReduction .add [1] S5000 E 0x00000000#32 h hφ hacc) h1 (ix2 a (0 : Fin 1))) = _
  rw [r4_colcast_apply, r4_rowsum_apply]

/-- The body's arithmetic at one entry of the block. -/
theorem r4_pay_apply (v0 v3 : FVec Ideal S5000x5 .bf16) (v7 v10 : FVec Ideal S5000x5 .f32) (v15 : FVec Ideal S1x5 .f32)
    (p : Fin 5000) (q : Fin 5) :
    k4_pay1 (F := Ideal) v0 v3 v7 v10 v15 (ix2 p q)
      = r4_shift (r4_preBlk v0 v3 v7 v10 v15) (ix2 p q)
          - Ideal.log (∑ j : Fin 5, Ideal.exp (r4_shift (r4_preBlk v0 v3 v7 v10 v15) (ix2 p j))) := by
  have hA : addf (addf (addf (subf (extf .f32 v0 bitsLt_bf16_f32) (extf .f32 v3 bitsLt_bf16_f32)) v7)
      (mulf (broadcast S5000x5 (FloatOps.ofBits (F := Ideal) .f32 0x40000000#32)) v10))
      (broadcastTo S5000x5 v15 broadcasts_S1x5_S5000x5) = r4_preBlk v0 v3 v7 v10 v15 := funext fun y => by
    obtain ⟨a, b, rfl⟩ : ∃ (a : Fin 5000) (b : Fin 5), y = ix2 a b := ⟨y 0, y 1, eq_ix2 y⟩
    show (((v0 (ix2 a b) - v3 (ix2 a b)) + v7 (ix2 a b)) + Ideal.ofBits .f32 0x40000000#32 * v10 (ix2 a b))
      + broadcastTo S5000x5 v15 broadcasts_S1x5_S5000x5 (ix2 a b) = _
    rw [broadcastTo_1b_ab_apply]
    rfl
  unfold k4_pay1
  simp only [shapeCast_self]
  rw [hA, r4_shift_eq, subf_apply, r4_logsum_apply]
  rfl

/-- One point's entry, read in the arrays: if the four row blocks are rows `5000 n + p` of their arrays and the bias
    block is the bias, the body's value at `(p, q)` is the logarithm of the softmax of the combination, at
    `(5000 n + p, q)`. -/
theorem r4_point_apply (A0 A2 : FVec Ideal S100000x5 .bf16) (L1 L2 : FVec Ideal S100000x5 .f32) (B : FVec Ideal S1x5 .f32)
    (x0 x1 : FVec Ideal S5000x5 .bf16) (x2 x3 : FVec Ideal S5000x5 .f32) (x4 : FVec Ideal S1x5 .f32) (n : Nat)
    (h0 : ∀ (p : Fin 5000) (q : Fin 5) (r : Fin 100000), r.val = n * 5000 + p.val → x0 (ix2 p q) = A0 (ix2 r q))
    (h1 : ∀ (p : Fin 5000) (q : Fin 5) (r : Fin 100000), r.val = n * 5000 + p.val → x1 (ix2 p q) = A2 (ix2 r q))
    (h2 : ∀ (p : Fin 5000) (q : Fin 5) (r : Fin 100000), r.val = n * 5000 + p.val → x2 (ix2 p q) = L1 (ix2 r q))
    (h3 : ∀ (p : Fin 5000) (q : Fin 5) (r : Fin 100000), r.val = n * 5000 + p.val → x3 (ix2 p q) = L2 (ix2 r q))
    (h4 : ∀ (u : Fin 1) (q : Fin 5), x4 (ix2 u q) = B (ix2 u q))
    (p : Fin 5000) (q : Fin 5) (r : Fin 100000) (hr : r.val = n * 5000 + p.val) :
    k4_pay1 (F := Ideal) x0 x1 x2 x3 x4 (ix2 p q) = Cert.LogSoftmax.logSoftmax5 (pre5 A0 A2 L1 L2 B) (ix2 r q) := by
  have hpre : ∀ j : Fin 5, r4_preBlk x0 x1 x2 x3 x4 (ix2 p j) = pre5 A0 A2 L1 L2 B (ix2 r j) := fun j => by
    show (((x0 (ix2 p j) - x1 (ix2 p j)) + x2 (ix2 p j)) + Ideal.ofBits .f32 0x40000000#32 * x3 (ix2 p j))
      + x4 (ix2 (0 : Fin 1) j) = _
    rw [h0 p j r hr, h1 p j r hr, h2 p j r hr, h3 p j r hr, h4 0 j]
    rfl
  have hmax : r4_max (r4_preBlk x0 x1 x2 x3 x4) p = Cert.LogSoftmax.rowMax5 (pre5 A0 A2 L1 L2 B) r :=
    Finset.fold_congr fun j _ => hpre j
  have hsh : ∀ j : Fin 5, r4_shift (r4_preBlk x0 x1 x2 x3 x4) (ix2 p j)
      = pre5 A0 A2 L1 L2 B (ix2 r j) - Cert.LogSoftmax.rowMax5 (pre5 A0 A2 L1 L2 B) r := fun j => by
    show r4_preBlk x0 x1 x2 x3 x4 (ix2 p j) - r4_max (r4_preBlk x0 x1 x2 x3 x4) p = _
    rw [hpre j, hmax]
  rw [r4_pay_apply, logSoftmax5_apply]
  exact congrArg₂ (· - ·) (hsh q) (congrArg Ideal.log (Finset.sum_congr rfl fun j _ => congrArg Ideal.exp (hsh j)))

end Cert.KernelIdeal.RegionValue

end
-- ==== Proof.Region4.lean ====
import proofs.«135650_j10402410791478_2_alg».proof.Proof.Gen.KernelIdeal.Frame
import proofs.«135650_j10402410791478_2_alg».proof.Proof.Region4Pay
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! # Region 4: the last layer's combination and the logarithm of its softmax, over the grid

The arithmetic of one block is read in the module this one imports; here are the 20 grid points: point `t` loads rows
`5000 t … 5000 t + 4999` of the four row arrays and the whole bias row, and writes the same rows of the output. A row's
maximum and sum stay inside the row, so the blocks are restrictions of one whole-array function. -/

variable (V : (c : Dev nD) → (b : Ref sig .tc) → Buf (Elt Ideal) ((c : Thread nD τ).loc b))

theorem r4_hz : (![0, 0] : Fin 2 → Nat) = fun _ => 0 := funext fun a => by fin_cases a <;> rfl

/-- A block cut to what a transfer moves, read at a block index. -/
theorem r4_cut_apply {G : Pipeline.Grid} (w : Pipeline.Window sig G) {α : Type} (i : G.Coords) (X : w.block.Idx → α)
    (j : (w.xblock i).Idx) (y : w.block.Idx) (h : w.xinj i j = y) : w.cut i X j = X y := by
  subst h; rfl

/-- Contents read through a view, at the place an index of the view sits in the buffer (the element type of the buffer
    is the view's: the cast is along that equation, the identity at any literal view). -/
theorem r4_read_at {κ : Kind} {sp : Space} {S : Shape} {e : EltTy} (v : View sig κ sp S e)
    (f : v.ty.Contents (Elt Ideal)) (x : S.Idx) (y : v.ty.Idx) (h : v.emb x = y) :
    v.read (Elt Ideal) f x = _root_.cast (congrArg (Elt Ideal) v.elt_eq) (f y) := by
  subst h; rfl

/-- Window 0's printed index map over the grid: row block `t`, column block 0. -/
theorem r4_idx0 : ∀ t : Fin cfg4.N, win4_0.index t (0 : Fin 2) = t.val ∧ win4_0.index t (1 : Fin 2) = 0 :=
  (by decide +kernel : ∀ t : Fin grid4.N, _)

/-- Window 1's printed index map over the grid: row block `t`, column block 0. -/
theorem r4_idx1 : ∀ t : Fin cfg4.N, win4_1.index t (0 : Fin 2) = t.val ∧ win4_1.index t (1 : Fin 2) = 0 :=
  (by decide +kernel : ∀ t : Fin grid4.N, _)

/-- Window 2's printed index map over the grid: row block `t`, column block 0. -/
theorem r4_idx2 : ∀ t : Fin cfg4.N, win4_2.index t (0 : Fin 2) = t.val ∧ win4_2.index t (1 : Fin 2) = 0 :=
  (by decide +kernel : ∀ t : Fin grid4.N, _)

/-- Window 3's printed index map over the grid: row block `t`, column block 0. -/
theorem r4_idx3 : ∀ t : Fin cfg4.N, win4_3.index t (0 : Fin 2) = t.val ∧ win4_3.index t (1 : Fin 2) = 0 :=
  (by decide +kernel : ∀ t : Fin grid4.N, _)

/-- The bias window is its whole array at every point. -/
theorem r4_idx4 : ∀ t : Fin cfg4.N, win4_4.index t (0 : Fin 2) = 0 ∧ win4_4.index t (1 : Fin 2) = 0 :=
  (by decide +kernel : ∀ t : Fin grid4.N, _)

/-- Window 5's printed index map over the grid: row block `t`, column block 0. -/
theorem r4_idx5 : ∀ t : Fin cfg4.N, win4_5.index t (0 : Fin 2) = t.val ∧ win4_5.index t (1 : Fin 2) = 0 :=
  (by decide +kernel : ∀ t : Fin grid4.N, _)

/-- Row window 0's block at point `t` is rows `5000 t + p` of its array. -/
theorem r4_blk0_apply (c : Dev nD) (t : Fin cfg4.N) (p : Fin 5000) (q : Fin 5) (r : Fin 100000)
    (hr : r.val = t.val * 5000 + p.val) :
    (iblk4 V c 0 t : FVec Ideal S5000x5 .bf16) (ix2 p q)
      = (V c (Pipeline.arrRef spec4 0) : FVec Ideal S100000x5 .bf16) (ix2 r q) := by
  obtain ⟨e0, e1⟩ := r4_idx0 t
  unfold iblk4
  refine (r4_read_at _ _ _ _ (funext fun a => Fin.ext ?_)).trans rfl
  match a with
  | ⟨0, _⟩ => show win4_0.index t (0 : Fin 2) * 5000 + 1 * p.val = r.val; omega
  | ⟨1, _⟩ => show win4_0.index t (1 : Fin 2) * 5 + 1 * q.val = q.val; omega

/-- Row window 1's block at point `t` is rows `5000 t + p` of its array. -/
theorem r4_blk1_apply (c : Dev nD) (t : Fin cfg4.N) (p : Fin 5000) (q : Fin 5) (r : Fin 100000)
    (hr : r.val = t.val * 5000 + p.val) :
    (iblk4 V c 1 t : FVec Ideal S5000x5 .bf16) (ix2 p q)
      = (V c (Pipeline.arrRef spec4 1) : FVec Ideal S100000x5 .bf16) (ix2 r q) := by
  obtain ⟨e0, e1⟩ := r4_idx1 t
  unfold iblk4
  refine (r4_read_at _ _ _ _ (funext fun a => Fin.ext ?_)).trans rfl
  match a with
  | ⟨0, _⟩ => show win4_1.index t (0 : Fin 2) * 5000 + 1 * p.val = r.val; omega
  | ⟨1, _⟩ => show win4_1.index t (1 : Fin 2) * 5 + 1 * q.val = q.val; omega

/-- Row window 2's block at point `t` is rows `5000 t + p` of its array. -/
theorem r4_blk2_apply (c : Dev nD) (t : Fin cfg4.N) (p : Fin 5000) (q : Fin 5) (r : Fin 100000)
    (hr : r.val = t.val * 5000 + p.val) :
    (iblk4 V c 2 t : FVec Ideal S5000x5 .f32) (ix2 p q)
      = (V c (Pipeline.arrRef spec4 2) : FVec Ideal S100000x5 .f32) (ix2 r q) := by
  obtain ⟨e0, e1⟩ := r4_idx2 t
  unfold iblk4
  refine (r4_read_at _ _ _ _ (funext fun a => Fin.ext ?_)).trans rfl
  match a with
  | ⟨0, _⟩ => show win4_2.index t (0 : Fin 2) * 5000 + 1 * p.val = r.val; omega
  | ⟨1, _⟩ => show win4_2.index t (1 : Fin 2) * 5 + 1 * q.val = q.val; omega

/-- Row window 3's block at point `t` is rows `5000 t + p` of its array. -/
theorem r4_blk3_apply (c : Dev nD) (t : Fin cfg4.N) (p : Fin 5000) (q : Fin 5) (r : Fin 100000)
    (hr : r.val = t.val * 5000 + p.val) :
    (iblk4 V c 3 t : FVec Ideal S5000x5 .f32) (ix2 p q)
      = (V c (Pipeline.arrRef spec4 3) : FVec Ideal S100000x5 .f32) (ix2 r q) := by
  obtain ⟨e0, e1⟩ := r4_idx3 t
  unfold iblk4
  refine (r4_read_at _ _ _ _ (funext fun a => Fin.ext ?_)).trans rfl
  match a with
  | ⟨0, _⟩ => show win4_3.index t (0 : Fin 2) * 5000 + 1 * p.val = r.val; omega
  | ⟨1, _⟩ => show win4_3.index t (1 : Fin 2) * 5 + 1 * q.val = q.val; omega

/-- The bias window's block at every point is the whole bias row. -/
theorem r4_blk4_apply (c : Dev nD) (t : Fin cfg4.N) (u : Fin 1) (q : Fin 5) :
    (iblk4 V c 4 t : FVec Ideal S1x5 .f32) (ix2 u q) = (V c (Pipeline.arrRef spec4 4) : FVec Ideal S1x5 .f32) (ix2 u q) := by
  obtain ⟨e0, e1⟩ := r4_idx4 t
  unfold iblk4
  refine (r4_read_at _ _ _ _ (funext fun a => Fin.ext ?_)).trans rfl
  match a with
  | ⟨0, _⟩ => show win4_4.index t (0 : Fin 2) * 1 + 1 * u.val = u.val; omega
  | ⟨1, _⟩ => show win4_4.index t (1 : Fin 2) * 5 + 1 * q.val = q.val; omega

/-- The buffer the body leaves is its arithmetic on the loaded blocks: one store through the whole staging buffer, every
    load through a whole one. -/
theorem r4_out_eq (x0 x1 : Vec Ideal S5000x5 .bf16) (x2 x3 : Vec Ideal S5000x5 .f32) (x4 : Vec Ideal S1x5 .f32) :
    out4_5 (F := Ideal) x0 x1 x2 x3 x4 = k4_pay1 x0 x1 x2 x3 x4 := by
  unfold out4_5
  rw [View.canon_unit_zero r4_hz]
  simp only [View.ld_unit_zero (S := S5000x5) r4_hz, View.ld_unit_zero (S := S1x5) r4_hz]

set_option maxHeartbeats 1000000 in
/-- What point `t` writes back is block `t` of the logarithm of the softmax of the combination of the arrays as the
    region finds them. -/
theorem r4_flushed_eq (c : Dev nD) (t : Fin cfg4.N) :
    (dat4 (F := Ideal) V c).flushed 5 t
      = ((cfg4.win 5).blk t).view.read (Elt Ideal) (Cert.LogSoftmax.logSoftmax5 (pre5 (V c (Pipeline.arrRef spec4 0))
          (V c (Pipeline.arrRef spec4 1)) (V c (Pipeline.arrRef spec4 2)) (V c (Pipeline.arrRef spec4 3))
          (V c (Pipeline.arrRef spec4 4)))) := by
  show (cfg4.win 5).cut (grid4.coords t) ((dat4 V c).after 5 t) = _
  rw [after4_5, r4_out_eq]
  funext j
  have hN : cfg4.N = 20 := N_4
  have ht : t.val < 20 := hN ▸ t.isLt
  have hj0 : (j 0).val < 5000 := (j 0).isLt
  have hj1 : (j 1).val < 5 := (j 1).isLt
  obtain ⟨e0, e1⟩ := r4_idx5 t
  have eL : (cfg4.win 5).xinj (grid4.coords t) j = ix2 (⟨(j 0).val, hj0⟩ : Fin 5000) (⟨(j 1).val, hj1⟩ : Fin 5) :=
    funext fun a => by match a with | ⟨0, _⟩ => rfl | ⟨1, _⟩ => rfl
  have eR : ((cfg4.win 5).blk t).view.emb j
      = ix2 (⟨t.val * 5000 + (j 0).val, by omega⟩ : Fin 100000) (⟨(j 1).val, hj1⟩ : Fin 5) :=
    funext fun a => Fin.ext (by
      match a with
      | ⟨0, _⟩ => show win4_5.index t (0 : Fin 2) * 5000 + 1 * (j 0).val = t.val * 5000 + (j 0).val; omega
      | ⟨1, _⟩ => show win4_5.index t (1 : Fin 2) * 5 + 1 * (j 1).val = (j 1).val; omega)
  refine (r4_cut_apply _ _ _ j _ eL).trans (Eq.trans ?_ (r4_read_at _ _ j _ eR).symm)
  exact r4_point_apply _ _ _ _ _ _ _ _ _ _ t.val
    (r4_blk0_apply V c t) (r4_blk1_apply V c t) (r4_blk2_apply V c t) (r4_blk3_apply V c t) (r4_blk4_apply V c t)
    ⟨(j 0).val, hj0⟩ ⟨(j 1).val, hj1⟩ ⟨t.val * 5000 + (j 0).val, by omega⟩ rfl

/-- An index of the output array is in point `t`'s block iff each coordinate is in the block's range on its axis. -/
theorem r4_mem_blk (t : Fin cfg4.N) (i : S100000x5.Idx) :
    i ∈ ((cfg4.win 5).blk t).view.set ↔ ∀ a : Fin 2, win4_5.index t a * S5000x5.size a ≤ (i a).val
      ∧ (i a).val < win4_5.index t a * S5000x5.size a + S5000x5.size a := by
  show i ∈ ((View.whole main_v159).slice (win4_5.rect t)).set ↔ _
  rw [View.set_slice_whole, Rect.mem_set_unit]
  exact Iff.rfl

/-- Row `r` of the output lies in the block of point `r / 5000`. -/
theorem r4_cover (i : S100000x5.Idx) :
    ∃ t : Fin cfg4.N, (cfg4.win 5).flush t = true ∧ i ∈ ((cfg4.win 5).blk t).view.set := by
  have hi0 : (i 0).val < 100000 := (i 0).isLt
  have hi1 : (i 1).val < 5 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨e0, e1⟩ := r4_idx5 t
  refine ⟨t, flush4_5 t, ?_⟩
  rw [r4_mem_blk]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 5 ≤ (i 1).val ∧ (i 1).val < win4_5.index t (1 : Fin 2) * 5 + 5
    omega

/-- The output array after the region: the logarithm of the row-wise softmax of the combination of the five arrays as
    the region finds them. -/
theorem region4_out5 (c : Dev nD) : (dat4 (F := Ideal) V c).arrAt 5 cfg4.N
    = Cert.LogSoftmax.logSoftmax5 (pre5 (V c (Pipeline.arrRef spec4 0)) (V c (Pipeline.arrRef spec4 1))
        (V c (Pipeline.arrRef spec4 2)) (V c (Pipeline.arrRef spec4 3)) (V c (Pipeline.arrRef spec4 4))) :=
  (dat4 (F := Ideal) V c).arrAt_eq_of_cover 5 _ (fun t _ => r4_flushed_eq V c t) r4_cover

end Cert.KernelIdeal.RegionValue

end
-- ==== Proof.KernelValue.lean ====
/-
  The kernel program's result as one function of its nine arguments.

  The contents of the buffers at every boundary of the program — before and after each of the five kernel launches —
  are followed from the launch memory: what the host stretches write (the edge list, the edge coefficients, the
  propagated matrices, the biases as rows), what each launch leaves in its output arrays (a whole-array function of its
  input arrays), and which buffers every step leaves alone.  The last boundary's contents at the result buffer is the
  composition `kOut` below.
-/
import proofs.«135650_j10402410791478_2_alg».proof.Proof.Gen.KernelIdeal.Frame
import proofs.«135650_j10402410791478_2_alg».proof.Proof.KernelHost0
import proofs.«135650_j10402410791478_2_alg».proof.Proof.KernelHost1
import proofs.«135650_j10402410791478_2_alg».proof.Proof.KernelHost2
import proofs.«135650_j10402410791478_2_alg».proof.Proof.KernelHost4
import proofs.«135650_j10402410791478_2_alg».proof.Proof.Region0
import proofs.«135650_j10402410791478_2_alg».proof.Proof.Region1
import proofs.«135650_j10402410791478_2_alg».proof.Proof.Region2
import proofs.«135650_j10402410791478_2_alg».proof.Proof.Region3
import proofs.«135650_j10402410791478_2_alg».proof.Proof.Region4
import proofs.«135650_j10402410791478_2_alg».proof.Proof.LibFoldRead

set_option maxRecDepth 16384

noncomputable section

namespace Cert.KernelIdeal.KernelValue

open Cert.KernelIdeal Cert.KernelIdeal.Gen Cert.KernelIdeal.HostValue Cert.KernelIdeal.RegionValue
open Idealize.ShloMosaic Idealize.ShloMosaic.TcCoe Idealize.SL.Sem Idealize.ShloMosaic.StableHlo

/-! ## The composition -/

section Defs

variable (x : FVec Ideal S100000x128 .f32) (ei : IVec S2x1600000 32) (ew : FVec Ideal S1600000 .f32)
  (W1 : FVec Ideal S3x128x64 .f32) (b1 : FVec Ideal S64 .f32) (W3 : FVec Ideal S3x64x64 .f32) (b3 : FVec Ideal S64 .f32)
  (W4 : FVec Ideal S3x64x5 .f32) (b4 : FVec Ideal S5 .f32)

/-- The first layer's three projections of the narrowed input. -/
def o1 (k : Fin 3) : FVec Ideal S100000x64 .bf16 := proj128 (truncf .bf16 x bitsLt_bf16_f32) W1 k

/-- The first layer: products first, combined and rectified. -/
def h1 : FVec Ideal S100000x64 .bf16 :=
  combine64 (o1 x W1 0) (o1 x W1 2)
    (prop64 (rowOf ei) (colOf ei) (nrmRef (rowOf ei) (colOf ei) ew) (o1 x W1 1))
    (prop64 (rowOf ei) (colOf ei) (nrmRef (rowOf ei) (colOf ei) ew)
      (truncf .bf16 (prop64 (rowOf ei) (colOf ei) (nrmRef (rowOf ei) (colOf ei) ew) (o1 x W1 2)) bitsLt_bf16_f32))
    (shapeCast S1x64 b1 shapeCasts_S64_S1x64)

/-- The second Chebyshev term of the second layer. -/
def t1 : FVec Ideal S100000x64 .bf16 :=
  truncf .bf16 (prop64 (rowOf ei) (colOf ei) (nrmRef (rowOf ei) (colOf ei) ew) (h1 x ei ew W1 b1)) bitsLt_bf16_f32

/-- The third Chebyshev term of the second layer. -/
def t2 : FVec Ideal S100000x64 .bf16 :=
  third64 (h1 x ei ew W1 b1) (prop64 (rowOf ei) (colOf ei) (nrmRef (rowOf ei) (colOf ei) ew) (t1 x ei ew W1 b1))

/-- The second layer: the direct form. -/
def h2 : FVec Ideal S100000x64 .bf16 :=
  cheb64 (h1 x ei ew W1 b1) (t1 x ei ew W1 b1) (t2 x ei ew W1 b1) W3 (shapeCast S1x64 b3 shapeCasts_S64_S1x64)

/-- The third layer's three projections. -/
def o3 (k : Fin 3) : FVec Ideal S100000x5 .bf16 := proj64 (h2 x ei ew W1 b1 W3 b3) W4 k

/-- The kernel program's result. -/
def kOut : FVec Ideal S100000x5 .f32 :=
  Cert.LogSoftmax.logSoftmax5 (pre5 (o3 x ei ew W1 b1 W3 b3 W4 0) (o3 x ei ew W1 b1 W3 b3 W4 2)
    (prop5 (rowOf ei) (colOf ei) (nrmRef (rowOf ei) (colOf ei) ew) (o3 x ei ew W1 b1 W3 b3 W4 1))
    (prop5 (rowOf ei) (colOf ei) (nrmRef (rowOf ei) (colOf ei) ew)
      (truncf .bf16 (prop5 (rowOf ei) (colOf ei) (nrmRef (rowOf ei) (colOf ei) ew) (o3 x ei ew W1 b1 W3 b3 W4 2)) bitsLt_bf16_f32))
    (shapeCast S1x5 b4 shapeCasts_S5_S1x5))

end Defs

/-! ## The boundaries -/

variable (m : (ℓ : Loc nD τ sig) → Buf (Elt Ideal) ℓ) (ρ : Dev nD → PrngReg) (c : Dev nD)

set_option quotPrecheck false

local notation "♯" b => Proc.devRef .tc b
local notation "X0" => m ((c : Thread nD τ).loc main_arg0)
local notation "EI" => m ((c : Thread nD τ).loc main_arg1)
local notation "EW" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "RR" => rowOf (m ((c : Thread nD τ).loc main_arg1))
local notation "CC" => colOf (m ((c : Thread nD τ).loc main_arg1))
local notation "NN" => nrmRef (rowOf (m ((c : Thread nD τ).loc main_arg1))) (colOf (m ((c : Thread nD τ).loc main_arg1))) (m ((c : Thread nD τ).loc main_arg2))

/-- The five stretches before the first launch, read as one line. -/
theorem W5_eq : W5 m ρ c = after (hostOps0 (F := Ideal) ++ hostOps0_1 ++ hostOps0_2 ++ hostOps0_3 ++ hostOps0_4) (W0 m ρ c) := by
  simp only [after_append]

theorem W5_v1 : W5 m ρ c (♯ main_v1) = RR := by rw [W5_eq]; exact s0_v1 (W0 m ρ c)
theorem W5_v3 : W5 m ρ c (♯ main_v3) = CC := by rw [W5_eq]; exact s0_v3 (W0 m ρ c)
theorem W5_v30 : W5 m ρ c (♯ main_v30) = NN := by rw [W5_eq]; exact s0_v30 (W0 m ρ c)
theorem W5_v31 : W5 m ρ c (♯ main_v31)
    = (truncf .bf16 (X0 : FVec Ideal S100000x128 .f32) bitsLt_bf16_f32 : FVec Ideal S100000x128 .bf16) := by rw [W5_eq]; exact s0_v31 (W0 m ρ c)
theorem W5_arg3 : W5 m ρ c (♯ main_arg3) = A3 := by rw [W5_eq]; exact s0_keep_arg3 (W0 m ρ c)
theorem W5_arg4 : W5 m ρ c (♯ main_arg4) = A4 := by rw [W5_eq]; exact s0_keep_arg4 (W0 m ρ c)
theorem W5_arg5 : W5 m ρ c (♯ main_arg5) = A5 := by rw [W5_eq]; exact s0_keep_arg5 (W0 m ρ c)
theorem W5_arg6 : W5 m ρ c (♯ main_arg6) = A6 := by rw [W5_eq]; exact s0_keep_arg6 (W0 m ρ c)
theorem W5_arg7 : W5 m ρ c (♯ main_arg7) = A7 := by rw [W5_eq]; exact s0_keep_arg7 (W0 m ρ c)
theorem W5_arg8 : W5 m ρ c (♯ main_arg8) = A8 := by rw [W5_eq]; exact s0_keep_arg8 (W0 m ρ c)

/-! ### After the first launch -/

theorem W6_v32_0 : W6 m ρ c (♯ main_v32_0) = o1 X0 A3 0 := by
  refine (W6_arr m ρ c 2).trans ((region0_out2 (V5 m ρ) c).trans ?_)
  show proj128 (W5 m ρ c (♯ main_v31)) (W5 m ρ c (♯ main_arg3)) 0 = _
  rw [W5_v31, W5_arg3]; rfl
theorem W6_v32_1 : W6 m ρ c (♯ main_v32_1) = o1 X0 A3 1 := by
  refine (W6_arr m ρ c 3).trans ((region0_out3 (V5 m ρ) c).trans ?_)
  show proj128 (W5 m ρ c (♯ main_v31)) (W5 m ρ c (♯ main_arg3)) 1 = _
  rw [W5_v31, W5_arg3]; rfl
theorem W6_v32_2 : W6 m ρ c (♯ main_v32_2) = o1 X0 A3 2 := by
  refine (W6_arr m ρ c 4).trans ((region0_out4 (V5 m ρ) c).trans ?_)
  show proj128 (W5 m ρ c (♯ main_v31)) (W5 m ρ c (♯ main_arg3)) 2 = _
  rw [W5_v31, W5_arg3]; rfl
theorem W6_v1 : W6 m ρ c (♯ main_v1) = RR := (W6_of_ne m ρ c main_v1 (by decide)).trans (W5_v1 m ρ c)
theorem W6_v3 : W6 m ρ c (♯ main_v3) = CC := (W6_of_ne m ρ c main_v3 (by decide)).trans (W5_v3 m ρ c)
theorem W6_v30 : W6 m ρ c (♯ main_v30) = NN := (W6_of_ne m ρ c main_v30 (by decide)).trans (W5_v30 m ρ c)
theorem W6_arg4 : W6 m ρ c (♯ main_arg4) = A4 := (W6_of_ne m ρ c main_arg4 (by decide)).trans (W5_arg4 m ρ c)
theorem W6_arg5 : W6 m ρ c (♯ main_arg5) = A5 := (W6_of_ne m ρ c main_arg5 (by decide)).trans (W5_arg5 m ρ c)
theorem W6_arg6 : W6 m ρ c (♯ main_arg6) = A6 := (W6_of_ne m ρ c main_arg6 (by decide)).trans (W5_arg6 m ρ c)
theorem W6_arg7 : W6 m ρ c (♯ main_arg7) = A7 := (W6_of_ne m ρ c main_arg7 (by decide)).trans (W5_arg7 m ρ c)
theorem W6_arg8 : W6 m ρ c (♯ main_arg8) = A8 := (W6_of_ne m ρ c main_arg8 (by decide)).trans (W5_arg8 m ρ c)

/-! ### After the stretch that follows it -/

theorem W7_v46 : W7 m ρ c (♯ main_v46) = prop64 RR CC NN (o1 X0 A3 1) := by
  show after hostOps1 (W6 m ρ c) _ = _
  rw [s1_v46, W6_v1, W6_v3, W6_v30, W6_v32_1]
theorem W7_v75 : W7 m ρ c (♯ main_v75) = prop64 RR CC NN (truncf .bf16 (prop64 RR CC NN (o1 X0 A3 2)) bitsLt_bf16_f32) := by
  show after hostOps1 (W6 m ρ c) _ = _
  rw [s1_v75, W6_v1, W6_v3, W6_v30, W6_v32_2]
theorem W7_v76 : W7 m ρ c (♯ main_v76) = shapeCast S1x64 A4 shapeCasts_S64_S1x64 := by
  show after hostOps1 (W6 m ρ c) _ = _
  rw [s1_v76, W6_arg4]
theorem W7_v32_0 : W7 m ρ c (♯ main_v32_0) = o1 X0 A3 0 := (s1_keep_v32_0 (W6 m ρ c)).trans (W6_v32_0 m ρ c)
theorem W7_v32_2 : W7 m ρ c (♯ main_v32_2) = o1 X0 A3 2 := (s1_keep_v32_2 (W6 m ρ c)).trans (W6_v32_2 m ρ c)
theorem W7_v1 : W7 m ρ c (♯ main_v1) = RR := (s1_keep_v1 (W6 m ρ c)).trans (W6_v1 m ρ c)
theorem W7_v3 : W7 m ρ c (♯ main_v3) = CC := (s1_keep_v3 (W6 m ρ c)).trans (W6_v3 m ρ c)
theorem W7_v30 : W7 m ρ c (♯ main_v30) = NN := (s1_keep_v30 (W6 m ρ c)).trans (W6_v30 m ρ c)
theorem W7_arg5 : W7 m ρ c (♯ main_arg5) = A5 := (s1_keep_arg5 (W6 m ρ c)).trans (W6_arg5 m ρ c)
theorem W7_arg6 : W7 m ρ c (♯ main_arg6) = A6 := (s1_keep_arg6 (W6 m ρ c)).trans (W6_arg6 m ρ c)
theorem W7_arg7 : W7 m ρ c (♯ main_arg7) = A7 := (s1_keep_arg7 (W6 m ρ c)).trans (W6_arg7 m ρ c)
theorem W7_arg8 : W7 m ρ c (♯ main_arg8) = A8 := (s1_keep_arg8 (W6 m ρ c)).trans (W6_arg8 m ρ c)

/-! ### After the second launch -/

theorem W8_v77 : W8 m ρ c (♯ main_v77) = h1 X0 EI EW A3 A4 := by
  refine (W8_arr m ρ c 5).trans ((region1_out5 (V7 m ρ) c).trans ?_)
  show combine64 (W7 m ρ c (♯ main_v32_0)) (W7 m ρ c (♯ main_v32_2)) (W7 m ρ c (♯ main_v46)) (W7 m ρ c (♯ main_v75))
    (W7 m ρ c (♯ main_v76)) = _
  rw [W7_v32_0, W7_v32_2, W7_v46, W7_v75, W7_v76]; rfl
theorem W8_v1 : W8 m ρ c (♯ main_v1) = RR := (W8_of_ne m ρ c main_v1 (by decide)).trans (W7_v1 m ρ c)
theorem W8_v3 : W8 m ρ c (♯ main_v3) = CC := (W8_of_ne m ρ c main_v3 (by decide)).trans (W7_v3 m ρ c)
theorem W8_v30 : W8 m ρ c (♯ main_v30) = NN := (W8_of_ne m ρ c main_v30 (by decide)).trans (W7_v30 m ρ c)
theorem W8_arg5 : W8 m ρ c (♯ main_arg5) = A5 := (W8_of_ne m ρ c main_arg5 (by decide)).trans (W7_arg5 m ρ c)
theorem W8_arg6 : W8 m ρ c (♯ main_arg6) = A6 := (W8_of_ne m ρ c main_arg6 (by decide)).trans (W7_arg6 m ρ c)
theorem W8_arg7 : W8 m ρ c (♯ main_arg7) = A7 := (W8_of_ne m ρ c main_arg7 (by decide)).trans (W7_arg7 m ρ c)
theorem W8_arg8 : W8 m ρ c (♯ main_arg8) = A8 := (W8_of_ne m ρ c main_arg8 (by decide)).trans (W7_arg8 m ρ c)

/-! ### After the stretch that follows it -/

theorem W9_v92 : W9 m ρ c (♯ main_v92) = t1 X0 EI EW A3 A4 := by
  show after hostOps2 (W8 m ρ c) _ = _
  rw [s2_v92, W8_v1, W8_v3, W8_v30, W8_v77]; rfl
theorem W9_v111 : W9 m ρ c (♯ main_v111) = t2 X0 EI EW A3 A4 := by
  show after hostOps2 (W8 m ρ c) _ = _
  rw [s2_v111, W8_v1, W8_v3, W8_v30, W8_v77]; rfl
theorem W9_v112 : W9 m ρ c (♯ main_v112) = shapeCast S1x64 A6 shapeCasts_S64_S1x64 := by
  show after hostOps2 (W8 m ρ c) _ = _
  rw [s2_v112, W8_arg6]
theorem W9_v77 : W9 m ρ c (♯ main_v77) = h1 X0 EI EW A3 A4 := (s2_keep_v77 (W8 m ρ c)).trans (W8_v77 m ρ c)
theorem W9_v1 : W9 m ρ c (♯ main_v1) = RR := (s2_keep_v1 (W8 m ρ c)).trans (W8_v1 m ρ c)
theorem W9_v3 : W9 m ρ c (♯ main_v3) = CC := (s2_keep_v3 (W8 m ρ c)).trans (W8_v3 m ρ c)
theorem W9_v30 : W9 m ρ c (♯ main_v30) = NN := (s2_keep_v30 (W8 m ρ c)).trans (W8_v30 m ρ c)
theorem W9_arg5 : W9 m ρ c (♯ main_arg5) = A5 := (s2_keep_arg5 (W8 m ρ c)).trans (W8_arg5 m ρ c)
theorem W9_arg7 : W9 m ρ c (♯ main_arg7) = A7 := (s2_keep_arg7 (W8 m ρ c)).trans (W8_arg7 m ρ c)
theorem W9_arg8 : W9 m ρ c (♯ main_arg8) = A8 := (s2_keep_arg8 (W8 m ρ c)).trans (W8_arg8 m ρ c)

/-! ### After the third and the fourth launch -/

theorem W10_v113 : W10 m ρ c (♯ main_v113) = h2 X0 EI EW A3 A4 A5 A6 := by
  refine (W10_arr m ρ c 5).trans ((region2_out5 (V9 m ρ) c).trans ?_)
  show cheb64 (W9 m ρ c (♯ main_v77)) (W9 m ρ c (♯ main_v92)) (W9 m ρ c (♯ main_v111)) (W9 m ρ c (♯ main_arg5))
    (W9 m ρ c (♯ main_v112)) = _
  rw [W9_v77, W9_v92, W9_v111, W9_arg5, W9_v112]; rfl
theorem W10_v1 : W10 m ρ c (♯ main_v1) = RR := (W10_of_ne m ρ c main_v1 (by decide)).trans (W9_v1 m ρ c)
theorem W10_v3 : W10 m ρ c (♯ main_v3) = CC := (W10_of_ne m ρ c main_v3 (by decide)).trans (W9_v3 m ρ c)
theorem W10_v30 : W10 m ρ c (♯ main_v30) = NN := (W10_of_ne m ρ c main_v30 (by decide)).trans (W9_v30 m ρ c)
theorem W10_arg7 : W10 m ρ c (♯ main_arg7) = A7 := (W10_of_ne m ρ c main_arg7 (by decide)).trans (W9_arg7 m ρ c)
theorem W10_arg8 : W10 m ρ c (♯ main_arg8) = A8 := (W10_of_ne m ρ c main_arg8 (by decide)).trans (W9_arg8 m ρ c)

theorem W11_v114_0 : W11 m ρ c (♯ main_v114_0) = o3 X0 EI EW A3 A4 A5 A6 A7 0 := by
  refine (W11_arr m ρ c 2).trans ((region3_out2 (V10 m ρ) c).trans ?_)
  show proj64 (W10 m ρ c (♯ main_v113)) (W10 m ρ c (♯ main_arg7)) 0 = _
  rw [W10_v113, W10_arg7]; rfl
theorem W11_v114_1 : W11 m ρ c (♯ main_v114_1) = o3 X0 EI EW A3 A4 A5 A6 A7 1 := by
  refine (W11_arr m ρ c 3).trans ((region3_out3 (V10 m ρ) c).trans ?_)
  show proj64 (W10 m ρ c (♯ main_v113)) (W10 m ρ c (♯ main_arg7)) 1 = _
  rw [W10_v113, W10_arg7]; rfl
theorem W11_v114_2 : W11 m ρ c (♯ main_v114_2) = o3 X0 EI EW A3 A4 A5 A6 A7 2 := by
  refine (W11_arr m ρ c 4).trans ((region3_out4 (V10 m ρ) c).trans ?_)
  show proj64 (W10 m ρ c (♯ main_v113)) (W10 m ρ c (♯ main_arg7)) 2 = _
  rw [W10_v113, W10_arg7]; rfl
theorem W11_v1 : W11 m ρ c (♯ main_v1) = RR := (W11_of_ne m ρ c main_v1 (by decide)).trans (W10_v1 m ρ c)
theorem W11_v3 : W11 m ρ c (♯ main_v3) = CC := (W11_of_ne m ρ c main_v3 (by decide)).trans (W10_v3 m ρ c)
theorem W11_v30 : W11 m ρ c (♯ main_v30) = NN := (W11_of_ne m ρ c main_v30 (by decide)).trans (W10_v30 m ρ c)
theorem W11_arg8 : W11 m ρ c (♯ main_arg8) = A8 := (W11_of_ne m ρ c main_arg8 (by decide)).trans (W10_arg8 m ρ c)

/-! ### After the last stretch and the last launch -/

theorem W12_v128 : W12 m ρ c (♯ main_v128) = prop5 RR CC NN (o3 X0 EI EW A3 A4 A5 A6 A7 1) := by
  show after hostOps4 (W11 m ρ c) _ = _
  rw [s4_v128, W11_v1, W11_v3, W11_v30, W11_v114_1]
theorem W12_v157 : W12 m ρ c (♯ main_v157)
    = prop5 RR CC NN (truncf .bf16 (prop5 RR CC NN (o3 X0 EI EW A3 A4 A5 A6 A7 2)) bitsLt_bf16_f32) := by
  show after hostOps4 (W11 m ρ c) _ = _
  rw [s4_v157, W11_v1, W11_v3, W11_v30, W11_v114_2]
theorem W12_v158 : W12 m ρ c (♯ main_v158) = shapeCast S1x5 A8 shapeCasts_S5_S1x5 := by
  show after hostOps4 (W11 m ρ c) _ = _
  rw [s4_v158, W11_arg8]
theorem W12_v114_0 : W12 m ρ c (♯ main_v114_0) = o3 X0 EI EW A3 A4 A5 A6 A7 0 := (s4_keep_v114_0 (W11 m ρ c)).trans (W11_v114_0 m ρ c)
theorem W12_v114_2 : W12 m ρ c (♯ main_v114_2) = o3 X0 EI EW A3 A4 A5 A6 A7 2 := (s4_keep_v114_2 (W11 m ρ c)).trans (W11_v114_2 m ρ c)

/-- THE KERNEL PROGRAM'S RESULT: the last boundary's contents at the result buffer is `kOut` of the launch
    contents of the nine arguments. -/
theorem result_eq : W13 m ρ c (♯ main_v159) = kOut X0 EI EW A3 A4 A5 A6 A7 A8 := by
  refine (W13_arr m ρ c 5).trans ((region4_out5 (V12 m ρ) c).trans ?_)
  show Cert.LogSoftmax.logSoftmax5 (pre5 (W12 m ρ c (♯ main_v114_0)) (W12 m ρ c (♯ main_v114_2)) (W12 m ρ c (♯ main_v128))
    (W12 m ρ c (♯ main_v157)) (W12 m ρ c (♯ main_v158))) = _
  rw [W12_v114_0, W12_v114_2, W12_v128, W12_v157, W12_v158]; rfl

end Cert.KernelIdeal.KernelValue

end
-- ==== Proof.LibAggregate.lean ====
/-
  Weighted row aggregation over a list of edges, read at an index, and its commutation with a matrix product.

  An edge list gives every edge `e` a source row, a target row and a coefficient.  "Aggregation" of a matrix `X : [N, C]`
  takes for every edge the source row of `X`, scales it by the edge's coefficient, and adds it into the target row of an
  `[N, C]` accumulator: a row gather, a pointwise product with the coefficients laid along the rows, and an
  accumulating row scatter.  Read at `(n, k)` the result is `Z (n, k) + ∑ e, [target e = n] · c e · X (source e, k)`.

  Aggregation is linear in `X`, so it commutes with multiplying on the right by a matrix `W`:
  `(aggregate X) · W = aggregate (X · W)`, PROVIDED the coefficients and the entries of `X` and `W` are real numbers —
  on the extended reals the distributive law behind it fails at the infinities.
-/
import Idealize.ShloMosaic.Lib.ValueIdx
import Idealize.ShloMosaic.Lib.StackMember
import Idealize.ShloMosaic.Lib.KernelVsHost

noncomputable section

open scoped BigOperators

namespace Cert.Aggregate

open Idealize.ShloMosaic Idealize.ShloMosaic.ValueIdx Idealize.ShloMosaic.StackMember

/-! ## Sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for real coefficients `c`, real rows `x e` and a real column `w`, scaling-and-summing the rows over a set
    of edges and then contracting with `w` is contracting every row with `w` first and then scaling-and-summing.
    Both sides are the coercion of the same real double sum. -/
theorem sum_scaled_rows_mul {ι κ : Type*} [Fintype κ] (S : Finset ι) (c : ι → ℝ) (x : ι → κ → ℝ) (w : κ → ℝ) :
    ∑ k, (∑ e ∈ S, (c e : EReal) * (x e k : EReal)) * (w k : EReal)
      = ∑ e ∈ S, (c e : EReal) * ∑ k, (x e k : EReal) * (w k : EReal) := by
  have hl : ∀ k, (∑ e ∈ S, (c e : EReal) * (x e k : EReal)) * (w k : EReal)
      = ((( ∑ e ∈ S, c e * x e k) * w k : ℝ) : EReal) := by
    intro k
    rw [EReal.coe_mul, coe_finset_sum]
    simp only [EReal.coe_mul]
  have hr : ∀ e, (c e : EReal) * ∑ k, (x e k : EReal) * (w k : EReal)
      = ((c e * ∑ k, x e k * w k : ℝ) : EReal) := by
    intro e
    rw [EReal.coe_mul, coe_finset_sum]
    simp only [EReal.coe_mul]
  simp only [hl, hr, ← coe_finset_sum]
  congr 1
  simp only [Finset.sum_mul, Finset.mul_sum]
  rw [Finset.sum_comm]
  refine Finset.sum_congr rfl fun e _ => Finset.sum_congr rfl fun k _ => ?_
  ring

/-! ## Taking rows: a gather of whole rows of a matrix at a column of start indices -/

section Rows

variable {N R C w : Nat}

/-- The dimension numbers of `X[idx]` for `X : [N, C]` and `idx : [R, 1]`: result row `e` is the row of `X` that start
    index `idx (e, 0)` names. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the index read signed and clamped into `[0, N − 1]`. -/
def srcRow (hN : 0 < N) (idx : IVec ⟨2, ![R, 1]⟩ w) (e : Fin R) : Fin N :=
  ⟨min (idx (ix2 e (0 : Fin 1))).toInt.toNat (N - 1), by omega⟩

/-- THE ROW GATHER READ AT `(e, k)`: entry `k` of the row the start index of `e` names. -/
theorem gather_rows_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGather N R C wf) x idx (ix2 e k) = x (ix2 (srcRow hN idx e) k) := by
  unfold Host.gather
  congr 1
  funext a
  refine Fin.ext ?_
  match a with
  | ⟨0, _⟩ =>
    show (rowGather N R C wf).start (ix2 e k) idx 0 + (rowGather N R C wf).batchCoord (ix2 e k) 0
      + (rowGather N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e k) ⟨List.idxOf (0 : Fin 2) (rowGather N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N R C wf).start (ix2 e k) idx 1 + (rowGather N R C wf).batchCoord (ix2 e k) 1
      + (rowGather N R C wf).offCoord (ix2 e k) 1 = k.val
    rw [GatherDims.batchCoord_eq_zero _ _ _ List.not_mem_nil]
    have hs : (rowGather N R C wf).start (ix2 e k) idx 1 = 0 := by
      unfold GatherDims.start
      rw [dif_neg (show ¬ (1 : Fin 2) ∈ (rowGather N R C wf).startIndexMap from
        (by decide : ¬ (1 : Fin 2) ∈ ([0] : List (Fin 2))))]
    have ho : (rowGather N R C wf).offCoord (ix2 e k) 1 = k.val := by
      unfold GatherDims.offCoord
      rw [dif_pos (show (1 : Fin 2) ∈ (rowGather N R C wf).sKept from
        (GatherDims.mem_sKept _ _).mpr ⟨(by decide : ¬ (1 : Fin 2) ∈ ([0] : List (Fin 2))), List.not_mem_nil⟩)]
      rfl
    rw [hs, ho]; simp

end Rows

/-! ## Adding rows: an accumulating scatter of whole rows at a column of target indices -/

section Scatter

variable {N R C w : Nat}

/-- The dimension numbers of `Z.at[idx].add(U)` for `Z : [N, C]`, `idx : [R, 1]`, `U : [R, C]`: update row `e` is added
    into the row of `Z` that `idx (e, 0)` names, and is dropped when that is not a row of `Z`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wf : ScatterDims.WF ⟨2, ![N, C]⟩ ⟨2, ![R, 1]⟩ ⟨2, ![R, C]⟩ [1] [0] [0] 1)

/-- On the row axis an update starts at its target index, read signed and not clamped. -/
theorem scatter_start_row (idx : IVec ⟨2, ![R, 1]⟩ w) (e : Fin R) (k : Fin C) :
    (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis an update starts at column 0 … -/
theorem scatter_start_col (idx : IVec ⟨2, ![R, 1]⟩ w) (e : Fin R) (k : Fin C) :
    (rowScatter N R C wf).start (ix2 e k) idx 1 = 0 := by
  unfold ScatterDims.start
  rw [dif_neg (show ¬ (1 : Fin 2) ∈ (rowScatter N R C wf).scatterDimsToOperandDims from
    (by decide : ¬ (1 : Fin 2) ∈ ([0] : List (Fin 2))))]

/-- … its window has no extent along the rows … -/
theorem scatter_window_row (e : Fin R) (k : Fin C) : (rowScatter N R C wf).window (ix2 e k) 0 = 0 := by
  unfold ScatterDims.window
  rw [dif_neg]
  show ¬ (0 : Fin 2) ∈ (⟨2, ![N, C]⟩ : Shape).kept ([0] : List (Fin 2))
  simp [Shape.kept]

/-- … and along the columns the window coordinate is the update's own column. -/
theorem scatter_window_col (e : Fin R) (k : Fin C) : (rowScatter N R C wf).window (ix2 e k) 1 = k.val := by
  unfold ScatterDims.window
  have h1 : (1 : Fin 2) ∈ (rowScatter N R C wf).sKept := by
    show (1 : Fin 2) ∈ (⟨2, ![N, C]⟩ : Shape).kept ([0] : List (Fin 2))
    simp [Shape.kept]
  rw [dif_pos h1]
  rfl

/-- WHERE AN UPDATE LANDS: update `(e, k)` lands on `(n, k')` exactly when its target index is `n` and `k = k'`. -/
theorem resultIdx_rows_iff (idx : IVec ⟨2, ![R, 1]⟩ w) (e : Fin R) (k : Fin C) (n : Fin N) (k' : Fin C) :
    (rowScatter N R C wf).resultIdx? (ix2 e k) idx = some (ix2 n k')
      ↔ (idx (ix2 e (0 : Fin 1))).toInt = (n.val : Int) ∧ k = k' := by
  have s0 := scatter_start_row wf idx e k
  have s1 := scatter_start_col wf idx e k
  have w0 := scatter_window_row wf e k
  have w1 := scatter_window_col wf e k
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      refine ⟨?_, Fin.ext ?_⟩
      · have : ((idx (ix2 e (0 : Fin 1))).toInt + ((0 : Nat) : Int)).toNat = n.val := e0
        omega
      · have : (((0 : Int)) + ((k.val : Nat) : Int)).toNat = k'.val := e1
        omega
    · rintro ⟨hn, rfl⟩
      funext a
      refine Fin.ext ?_
      match a with
      | ⟨0, _⟩ =>
        show ((rowScatter N R C wf).start (ix2 e k) idx 0 + ((rowScatter N R C wf).window (ix2 e k) 0 : Nat)).toNat = n.val
        rw [s0, w0, hn]; simp
      | ⟨1, _⟩ =>
        show ((rowScatter N R C wf).start (ix2 e k) idx 1 + ((rowScatter N R C wf).window (ix2 e k) 1 : Nat)).toNat = k.val
        rw [s1, w1]; simp
  · rename_i h
    constructor
    · intro hf; cases hf
    · rintro ⟨hn, rfl⟩
      refine absurd (fun a => ?_) h
      match a with
      | ⟨0, _⟩ =>
        show 0 ≤ (rowScatter N R C wf).start (ix2 e k) idx 0 + ((rowScatter N R C wf).window (ix2 e k) 0 : Nat)
          ∧ (rowScatter N R C wf).start (ix2 e k) idx 0 + ((rowScatter N R C wf).window (ix2 e k) 0 : Nat) < (N : Int)
        rw [s0, w0, hn]
        have := n.isLt
        constructor <;> omega
      | ⟨1, _⟩ =>
        show 0 ≤ (rowScatter N R C wf).start (ix2 e k) idx 1 + ((rowScatter N R C wf).window (ix2 e k) 1 : Nat)
          ∧ (rowScatter N R C wf).start (ix2 e k) idx 1 + ((rowScatter N R C wf).window (ix2 e k) 1 : Nat) < (C : Int)
        rw [s1, w1]
        have := k.isLt
        constructor <;> omega

end Scatter

/-! ## The aggregation read at an index, and the law -/

section Law

variable {N R C w : Nat}

/-- THE ROW SCATTER READ AT `(n, k)`: the accumulator's entry plus column `k` of every update row whose target is `n`. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatter N R C wf) x idx upd (ix2 n k)
      = x (ix2 n k) + ∑ e ∈ Finset.univ.filter (fun e : Fin R => (idx (ix2 e (0 : Fin 1))).toInt = (n.val : Int)),
          upd (ix2 e k) := by
  simp only [Host.scatterAdd, Ideal.hostScatterAdd_def, Ideal.hostScatterAdd]
  congr 1
  rw [Finset.sum_filter, sum_idx2, Finset.sum_filter]
  refine Finset.sum_congr rfl fun e _ => ?_
  simp only [resultIdx_rows_iff wf]
  by_cases hP : (idx (ix2 e (0 : Fin 1))).toInt = (n.val : Int)
  · simp [hP]
  · simp [hP]

/-- AGGREGATION COMMUTES WITH A MATRIX PRODUCT.  With a zero accumulator, real coefficients (the same along each
    row), and real matrices `X` and `W`: aggregating the rows of `X` and then multiplying by `W` is aggregating the
    rows of `X · W`.  At `(n, j)` both sides are `∑ e, [target e = n] · c e · ∑ k, X (source e, k) · W (k, j)`. -/
theorem aggregate_dot_comm (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (prec : Option ContractPrecision)
    (Z : FVec Ideal ⟨2, ![N, C]⟩ .f32) (hZ : ∀ i, Z i = 0)
    (tgt src : IVec ⟨2, ![R, 1]⟩ w)
    (c : FVec Ideal ⟨2, ![R, C]⟩ .f32) (c0 : Fin R → ℝ) (hc : ∀ e k, c (ix2 e k) = (c0 e : EReal))
    (X : FVec Ideal ⟨2, ![N, C]⟩ .f32) (X0 : (⟨2, ![N, C]⟩ : Shape).Idx → ℝ) (hX : ∀ i, X i = (X0 i : EReal))
    (W : FVec Ideal ⟨2, ![C, C]⟩ .f32) (W0 : (⟨2, ![C, C]⟩ : Shape).Idx → ℝ) (hW : ∀ i, W i = (W0 i : EReal)) :
    Host.dotGeneral (DotDims.plain N C C) prec
        (Host.scatterAdd (rowScatter N R C wfs) Z tgt (mulf c (Host.gather (rowGather N R C wfg) X src))) W
      = Host.scatterAdd (rowScatter N R C wfs) Z tgt
          (mulf c (Host.gather (rowGather N R C wfg) (Host.dotGeneral (DotDims.plain N C C) prec X W) src)) := by
  funext i
  obtain ⟨n, j, rfl⟩ : ∃ (n : Fin N) (j : Fin C), i = ix2 n j := ⟨i 0, i 1, eq_ix2 i⟩
  rw [dotGeneral_plain_apply]
  simp only [scatterAdd_rows_apply, mulf_apply, gather_rows_apply hN, dotGeneral_plain_apply, hZ, zero_add, hc, hX, hW]
  exact sum_scaled_rows_mul _ c0 (fun e k => X0 (ix2 (srcRow hN src e) k)) (fun k => W0 (ix2 k j))

end Law

end Cert.Aggregate

end
-- ==== Proof.LibChebLaw.lean ====
/-
  The algebra of a Chebyshev graph convolution of order three, over the extended reals.

  A graph is given by its edges: every edge has a target node, a source node and a coefficient.  AGGREGATION of a node
  feature matrix `v` sums, for every node `n`, the coefficient-scaled source rows of the edges whose target is `n`:
  `(agg v) n k = ∑ e into n, coef e · v (src e) k`.  With `L = agg`, one layer computes
      x·W₀ + (L x)·W₁ + (t·L (L x) − x)·W₂ + b                                  (the direct form)
  and, because `L` is linear and commutes with a product on the right, also
      (x·W₀ − x·W₂) + L (x·W₁) + t·L (L (x·W₂)) + b                              (products first).
  The two agree WHEN EVERYTHING IS A REAL NUMBER: the regrouping uses the distributive law, which fails at the
  infinities of the extended reals.  So both forms are shown to be the coercion of one real expression.
-/
import Mathlib

noncomputable section

open scoped BigOperators

namespace Cert.Cheb

variable {N E : ℕ}

/-- The edges of a graph on `N` nodes: for every node the set of edges pointing into it, and for every edge its
    coefficient and its source node. -/
structure Edges (N E : ℕ) where
  into : Fin N → Finset (Fin E)
  coef : Fin E → EReal
  src : Fin E → Fin N

/-- The same with real coefficients. -/
structure RealEdges (N E : ℕ) where
  into : Fin N → Finset (Fin E)
  coef : Fin E → ℝ
  src : Fin E → Fin N

/-- Real edges seen in the extended reals. -/
def RealEdges.toE (G : RealEdges N E) : Edges N E := ⟨G.into, fun e => (G.coef e : EReal), G.src⟩

/-- A real matrix seen in the extended reals. -/
def up {a b : ℕ} (f : Fin a → Fin b → ℝ) : Fin a → Fin b → EReal := fun i j => (f i j : EReal)

/-- A real vector seen in the extended reals. -/
def upv {a : ℕ} (f : Fin a → ℝ) : Fin a → EReal := fun i => (f i : EReal)

/-- Aggregation along the edges. -/
def agg (G : Edges N E) {d : ℕ} (v : Fin N → Fin d → EReal) : Fin N → Fin d → EReal :=
  fun n k => ∑ e ∈ G.into n, G.coef e * v (G.src e) k

def aggR (G : RealEdges N E) {d : ℕ} (v : Fin N → Fin d → ℝ) : Fin N → Fin d → ℝ :=
  fun n k => ∑ e ∈ G.into n, G.coef e * v (G.src e) k

/-- The matrix product. -/
def mm {p q : ℕ} (a : Fin N → Fin p → EReal) (w : Fin p → Fin q → EReal) : Fin N → Fin q → EReal :=
  fun n j => ∑ c, a n c * w c j

def mmR {p q : ℕ} (a : Fin N → Fin p → ℝ) (w : Fin p → Fin q → ℝ) : Fin N → Fin q → ℝ :=
  fun n j => ∑ c, a n c * w c j

/-- The third Chebyshev term from the second aggregation and the input: `t · a − x`. -/
def third {p : ℕ} (t : EReal) (a x : Fin N → Fin p → EReal) : Fin N → Fin p → EReal :=
  fun n c => t * a n c - x n c

def thirdR {p : ℕ} (t : ℝ) (a x : Fin N → Fin p → ℝ) : Fin N → Fin p → ℝ :=
  fun n c => t * a n c - x n c

/-- The rectifier against a threshold `z`. -/
def relu {p : ℕ} (z : EReal) (h : Fin N → Fin p → EReal) : Fin N → Fin p → EReal := fun n j => max (h n j) z

def reluR {p : ℕ} (z : ℝ) (h : Fin N → Fin p → ℝ) : Fin N → Fin p → ℝ := fun n j => max (h n j) z

/-- One layer, direct form. -/
def layerD (G : Edges N E) {p q : ℕ} (t : EReal) (x : Fin N → Fin p → EReal) (w0 w1 w2 : Fin p → Fin q → EReal)
    (b : Fin q → EReal) : Fin N → Fin q → EReal :=
  fun n j => ((mm x w0 n j + mm (agg G x) w1 n j) + mm (third t (agg G (agg G x)) x) w2 n j) + b j

def layerDR (G : RealEdges N E) {p q : ℕ} (t : ℝ) (x : Fin N → Fin p → ℝ) (w0 w1 w2 : Fin p → Fin q → ℝ)
    (b : Fin q → ℝ) : Fin N → Fin q → ℝ :=
  fun n j => ((mmR x w0 n j + mmR (aggR G x) w1 n j) + mmR (thirdR t (aggR G (aggR G x)) x) w2 n j) + b j

/-- One layer, products first. -/
def layerP (G : Edges N E) {p q : ℕ} (t : EReal) (x : Fin N → Fin p → EReal) (w0 w1 w2 : Fin p → Fin q → EReal)
    (b : Fin q → EReal) : Fin N → Fin q → EReal :=
  fun n j => (((mm x w0 n j - mm x w2 n j) + agg G (mm x w1) n j) + t * agg G (agg G (mm x w2)) n j) + b j

def layerPR (G : RealEdges N E) {p q : ℕ} (t : ℝ) (x : Fin N → Fin p → ℝ) (w0 w1 w2 : Fin p → Fin q → ℝ)
    (b : Fin q → ℝ) : Fin N → Fin q → ℝ :=
  fun n j => (((mmR x w0 n j - mmR x w2 n j) + aggR G (mmR x w1) n j) + t * aggR G (aggR G (mmR x w2)) n j) + b j

/-! ## Coercions -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem agg_up (G : RealEdges N E) {d : ℕ} (v : Fin N → Fin d → ℝ) : agg G.toE (up v) = up (aggR G v) := by
  funext n k
  simp only [agg, aggR, up, RealEdges.toE, coe_finset_sum, EReal.coe_mul]

theorem mm_up {p q : ℕ} (a : Fin N → Fin p → ℝ) (w : Fin p → Fin q → ℝ) : mm (up a) (up w) = up (mmR a w) := by
  funext n j
  simp only [mm, mmR, up, coe_finset_sum, EReal.coe_mul]

theorem third_up {p : ℕ} (t : ℝ) (a x : Fin N → Fin p → ℝ) : third (t : EReal) (up a) (up x) = up (thirdR t a x) := by
  funext n c
  simp only [third, thirdR, up, EReal.coe_sub, EReal.coe_mul]

theorem relu_up {p : ℕ} (z : ℝ) (h : Fin N → Fin p → ℝ) : relu (z : EReal) (up h) = up (reluR z h) := by
  funext n j
  simp only [relu, reluR, up]
  exact (EReal.coe_strictMono.monotone.map_max).symm

theorem layerD_up (G : RealEdges N E) {p q : ℕ} (t : ℝ) (x : Fin N → Fin p → ℝ) (w0 w1 w2 : Fin p → Fin q → ℝ)
    (b : Fin q → ℝ) :
    layerD G.toE (t : EReal) (up x) (up w0) (up w1) (up w2) (upv b) = up (layerDR G t x w0 w1 w2 b) := by
  funext n j
  show layerD G.toE (t : EReal) (up x) (up w0) (up w1) (up w2) (upv b) n j = ((layerDR G t x w0 w1 w2 b n j : ℝ) : EReal)
  simp only [layerD, layerDR, agg_up, mm_up, third_up]
  simp only [up, upv, EReal.coe_add]

theorem layerP_up (G : RealEdges N E) {p q : ℕ} (t : ℝ) (x : Fin N → Fin p → ℝ) (w0 w1 w2 : Fin p → Fin q → ℝ)
    (b : Fin q → ℝ) :
    layerP G.toE (t : EReal) (up x) (up w0) (up w1) (up w2) (upv b) = up (layerPR G t x w0 w1 w2 b) := by
  funext n j
  show layerP G.toE (t : EReal) (up x) (up w0) (up w1) (up w2) (upv b) n j = ((layerPR G t x w0 w1 w2 b n j : ℝ) : EReal)
  simp only [layerP, layerPR, agg_up, mm_up]
  simp only [up, upv, EReal.coe_add, EReal.coe_sub, EReal.coe_mul]

/-! ## The law, in the reals -/

/-- Aggregation commutes with a product on the right. -/
theorem aggR_mmR (G : RealEdges N E) {p q : ℕ} (x : Fin N → Fin p → ℝ) (w : Fin p → Fin q → ℝ) :
    aggR G (mmR x w) = mmR (aggR G x) w := by
  funext n j
  simp only [aggR, mmR, Finset.mul_sum, Finset.sum_mul]
  rw [Finset.sum_comm]
  refine Finset.sum_congr rfl fun c _ => Finset.sum_congr rfl fun e _ => ?_
  ring

/-- A product is linear in its left factor. -/
theorem mmR_thirdR {p q : ℕ} (t : ℝ) (a x : Fin N → Fin p → ℝ) (w : Fin p → Fin q → ℝ) (n : Fin N) (j : Fin q) :
    mmR (thirdR t a x) w n j = t * mmR a w n j - mmR x w n j := by
  simp only [mmR, thirdR, Finset.mul_sum, ← Finset.sum_sub_distrib]
  refine Finset.sum_congr rfl fun c _ => ?_
  ring

/-- THE LAW in the reals: products first is the direct form. -/
theorem layerPR_eq (G : RealEdges N E) {p q : ℕ} (t : ℝ) (x : Fin N → Fin p → ℝ) (w0 w1 w2 : Fin p → Fin q → ℝ)
    (b : Fin q → ℝ) : layerPR G t x w0 w1 w2 b = layerDR G t x w0 w1 w2 b := by
  funext n j
  simp only [layerPR, layerDR]
  rw [aggR_mmR, aggR_mmR, aggR_mmR, mmR_thirdR]
  ring

/-- THE LAW over the extended reals, for real data. -/
theorem layerP_eq_layerD (G : RealEdges N E) {p q : ℕ} (t : ℝ) (x : Fin N → Fin p → ℝ) (w0 w1 w2 : Fin p → Fin q → ℝ)
    (b : Fin q → ℝ) :
    layerP G.toE (t : EReal) (up x) (up w0) (up w1) (up w2) (upv b)
      = layerD G.toE (t : EReal) (up x) (up w0) (up w1) (up w2) (upv b) := by
  rw [layerP_up, layerD_up, layerPR_eq]

/-- THREE LAYERS: products first in the first and third layer and the direct form in the second, against the direct
    form throughout, with a rectifier after the first two layers.  For real data the two agree, and the common value is
    real. -/
theorem three_layers (G : RealEdges N E) {p q r : ℕ} (t z : ℝ) (x : Fin N → Fin p → ℝ)
    (u0 u1 u2 : Fin p → Fin q → ℝ) (bu : Fin q → ℝ) (v0 v1 v2 : Fin q → Fin q → ℝ) (bv : Fin q → ℝ)
    (w0 w1 w2 : Fin q → Fin r → ℝ) (bw : Fin r → ℝ) :
    layerP G.toE (t : EReal)
        (relu (z : EReal) (layerD G.toE (t : EReal)
          (relu (z : EReal) (layerP G.toE (t : EReal) (up x) (up u0) (up u1) (up u2) (upv bu)))
          (up v0) (up v1) (up v2) (upv bv)))
        (up w0) (up w1) (up w2) (upv bw)
      = layerD G.toE (t : EReal)
        (relu (z : EReal) (layerD G.toE (t : EReal)
          (relu (z : EReal) (layerD G.toE (t : EReal) (up x) (up u0) (up u1) (up u2) (upv bu)))
          (up v0) (up v1) (up v2) (upv bv)))
        (up w0) (up w1) (up w2) (upv bw) := by
  rw [layerP_eq_layerD, layerD_up, relu_up, layerD_up, relu_up, layerP_eq_layerD]

end Cert.Cheb

end
-- ==== Proof.LibPropagate.lean ====
/-
  A graph propagation written with host array operations, read at an index.

  The pattern: take for every edge the source row of a node feature matrix `X : [N, C]` (a row gather at the column of
  source indices), scale it by the edge's coefficient (a coefficient vector `[R]` laid along the rows of `[R, C]`
  through `[R, 1]`), and add it into the target row of a zero matrix (an accumulating row scatter at the column of
  target indices).  Read at `(n, k)` this is the aggregation `∑ e into n, coef e · X (src e, k)` of the edge data
  the three arrays describe.  Also here: the weight slab `W[k]` of a `[3, C, D]` stack read at an index, a bias
  vector laid along the rows, and a matrix seen as a function of two coordinates.
-/
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import proofs.«135650_j10402410791478_2_alg».proof.Proof.LibAggregate
import proofs.«135650_j10402410791478_2_alg».proof.Proof.LibPlainProduct
import proofs.«135650_j10402410791478_2_alg».proof.Proof.LibChebLaw

noncomputable section

open scoped BigOperators

namespace Cert.Propagate

open Idealize.ShloMosaic Idealize.ShloMosaic.ValueIdx Cert.Aggregate Cert.Cheb

variable {N R C D w : Nat}

/-! ## A matrix, a stack of matrices and a vector as functions of coordinates -/

/-- A `[N, C]` array as a function of row and column. -/
def mat (X : (⟨2, ![N, C]⟩ : Shape).Idx → EReal) : Fin N → Fin C → EReal := fun n k => X (ix2 n k)

/-- Slab `k` of a `[3, C, D]` stack as a function of row and column. -/
def slab (W : (⟨3, ![3, C, D]⟩ : Shape).Idx → EReal) (k : Fin 3) : Fin C → Fin D → EReal := fun c j => W (ix3 k c j)

/-- A `[D]` array as a function of its coordinate. -/
def vec (b : (⟨1, ![D]⟩ : Shape).Idx → EReal) : Fin D → EReal := fun j => b (ix1 j)

/-- A `[1, D]` array as a function of its column. -/
def row (b : (⟨2, ![1, D]⟩ : Shape).Idx → EReal) : Fin D → EReal := fun j => b (ix2 (0 : Fin 1) j)

/-- The edge data that a column of target indices, a column of source indices and a coefficient vector describe:
    an edge points into node `n` when its target index, read signed, is `n`; its source is its source index read signed
    and clamped into the nodes. -/
def edges (hN : 0 < N) (tgt src : IVec ⟨2, ![R, 1]⟩ w) (nrm : (⟨1, ![R]⟩ : Shape).Idx → EReal) : Edges N R where
  into n := Finset.univ.filter (fun e : Fin R => (tgt (ix2 e (0 : Fin 1))).toInt = (n.val : Int))
  coef e := nrm (ix1 e)
  src e := srcRow hN src e

/-- Edge data with real coefficients is the image of real edge data. -/
theorem edges_real (hN : 0 < N) (tgt src : IVec ⟨2, ![R, 1]⟩ w) (nrm : (⟨1, ![R]⟩ : Shape).Idx → EReal)
    (h : ∀ e : Fin R, ∃ r : ℝ, nrm (ix1 e) = (r : EReal)) : ∃ G : RealEdges N R, edges hN tgt src nrm = G.toE := by
  choose c hc using h
  refine ⟨⟨(edges hN tgt src nrm).into, c, (edges hN tgt src nrm).src⟩, ?_⟩
  show (⟨_, _, _⟩ : Edges N R) = ⟨_, _, _⟩
  congr 1
  funext e
  exact hc e

/-- A real matrix is the image of a matrix of reals. -/
theorem mat_real (X : (⟨2, ![N, C]⟩ : Shape).Idx → EReal) (h : ∀ i, ∃ r : ℝ, X i = (r : EReal)) :
    ∃ x : Fin N → Fin C → ℝ, mat X = up x := by
  choose c hc using h
  exact ⟨fun n k => c (ix2 n k), funext fun n => funext fun k => hc (ix2 n k)⟩

theorem slab_real (W : (⟨3, ![3, C, D]⟩ : Shape).Idx → EReal) (h : ∀ i, ∃ r : ℝ, W i = (r : EReal)) (k : Fin 3) :
    ∃ x : Fin C → Fin D → ℝ, slab W k = up x := by
  choose c hc using h
  exact ⟨fun a b => c (ix3 k a b), funext fun a => funext fun b => hc (ix3 k a b)⟩

theorem vec_real (b : (⟨1, ![D]⟩ : Shape).Idx → EReal) (h : ∀ i, ∃ r : ℝ, b i = (r : EReal)) :
    ∃ x : Fin D → ℝ, vec b = upv x := by
  choose c hc using h
  exact ⟨fun j => c (ix1 j), funext fun j => hc (ix1 j)⟩

/-! ## Layout patterns read at an index -/

/-- A vector `[R]` laid as a column `[R, 1]`. -/
theorem column_apply {α : Type} (hb : (⟨1, ![R]⟩ : Shape).BroadcastsInDim ⟨2, ![R, 1]⟩ ![0])
    (c : (⟨1, ![R]⟩ : Shape).Idx → α) (e : Fin R) (z : Fin 1) :
    broadcastInDim ⟨2, ![R, 1]⟩ ![0] hb c (ix2 e z) = c (ix1 e) := by
  refine broadcastInDim_apply ![0] hb c (ix2 e z) (ix1 e) ?_
  intro a
  match a with
  | ⟨0, _⟩ =>
    show e.val = if R = 1 then 0 else e.val
    split_ifs with h
    · have := e.isLt; omega
    · rfl

/-- A column `[R, 1]` repeated across `C` columns. -/
theorem across_apply {α : Type} (hb : (⟨2, ![R, 1]⟩ : Shape).BroadcastsInDim ⟨2, ![R, C]⟩ ![0, 1])
    (c : (⟨2, ![R, 1]⟩ : Shape).Idx → α) (e : Fin R) (k : Fin C) :
    broadcastInDim ⟨2, ![R, C]⟩ ![0, 1] hb c (ix2 e k) = c (ix2 e (0 : Fin 1)) := by
  refine broadcastInDim_apply ![0, 1] hb c (ix2 e k) (ix2 e (0 : Fin 1)) ?_
  intro a
  match a with
  | ⟨0, _⟩ =>
    show e.val = if R = 1 then 0 else e.val
    split_ifs with h
    · have := e.isLt; omega
    · rfl
  | ⟨1, _⟩ =>
    show (0 : ℕ) = if (1 : ℕ) = 1 then 0 else k.val
    simp

/-- A vector `[D]` laid as a row `[1, D]` (by a broadcast along a new leading axis). -/
theorem asRow_apply {α : Type} (hb : (⟨1, ![D]⟩ : Shape).BroadcastsInDim ⟨2, ![1, D]⟩ ![1])
    (b : (⟨1, ![D]⟩ : Shape).Idx → α) (z : Fin 1) (j : Fin D) :
    broadcastInDim ⟨2, ![1, D]⟩ ![1] hb b (ix2 z j) = b (ix1 j) := by
  refine broadcastInDim_apply ![1] hb b (ix2 z j) (ix1 j) ?_
  intro a
  match a with
  | ⟨0, _⟩ =>
    show j.val = if D = 1 then 0 else j.val
    split_ifs with h
    · have := j.isLt; omega
    · rfl

/-- The zero scalar broadcast to any shape is zero everywhere. -/
theorem zeros_apply {T : Shape} (hb : (⟨0, ![]⟩ : Shape).BroadcastsInDim T ![]) (i : T.Idx) :
    broadcastInDim T ![] hb (constant (F := Ideal) (⟨0, ![]⟩ : Shape) .f32 0x00000000#32) i = (0 : EReal) := by
  rw [broadcastInDim_scalar_apply]
  exact Ideal.ofBits_zero_f32

/-- Slab `k` of a `[3, C, D]` stack, cut out as `[1, C, D]` and cast to `[C, D]`, read at `(c, j)`. -/
theorem slab_apply {α : Type} (k : Fin 3) (off : Fin 3 → Nat) (hoff : off = ![k.val, 0, 0])
    (hs : (⟨3, ![3, C, D]⟩ : Shape).Slices off ⟨3, ![1, C, D]⟩)
    (hc : (⟨3, ![1, C, D]⟩ : Shape).ShapeCasts ⟨2, ![C, D]⟩)
    (W : (⟨3, ![3, C, D]⟩ : Shape).Idx → α) (c : Fin C) (j : Fin D) :
    shapeCast ⟨2, ![C, D]⟩ (extractStridedSlice ⟨3, ![1, C, D]⟩ off W hs) hc (ix2 c j) = W (ix3 k c j) := by
  rw [shapeCast_1ab_ab_apply]
  refine extractStridedSlice_apply off W hs _ (ix3 k c j) ?_
  subst hoff
  intro a
  match a with
  | ⟨0, _⟩ => show k.val = k.val + 0; omega
  | ⟨1, _⟩ => show c.val = 0 + c.val; omega
  | ⟨2, _⟩ => show j.val = 0 + j.val; omega

/-! ## The propagation read at an index -/

section Propagation

variable (hN : 0 < N)
  (dg : GatherDims ⟨2, ![N, C]⟩ ⟨2, ![R, 1]⟩ ⟨2, ![R, C]⟩)
  (wfg : GatherDims.WF ⟨2, ![N, C]⟩ ⟨2, ![R, 1]⟩ ⟨2, ![R, C]⟩ [1] [0] [] [0] [] 1 ![1, C])
  (hdg : dg = rowGather N R C wfg)
  (ds : ScatterDims ⟨2, ![N, C]⟩ ⟨2, ![R, 1]⟩ ⟨2, ![R, C]⟩)
  (wfs : ScatterDims.WF ⟨2, ![N, C]⟩ ⟨2, ![R, 1]⟩ ⟨2, ![R, C]⟩ [1] [0] [0] 1)
  (hds : ds = rowScatter N R C wfs)
  (hb0 : (⟨0, ![]⟩ : Shape).BroadcastsInDim ⟨2, ![N, C]⟩ ![])
  (hb1 : (⟨1, ![R]⟩ : Shape).BroadcastsInDim ⟨2, ![R, 1]⟩ ![0])
  (hb2 : (⟨2, ![R, 1]⟩ : Shape).BroadcastsInDim ⟨2, ![R, C]⟩ ![0, 1])
  (tgt src : IVec ⟨2, ![R, 1]⟩ w) (nrm : FVec Ideal ⟨1, ![R]⟩ .f32)

include hdg hds in
/-- The scaled rows `U` accumulated at the targets, read at `(n, k)`, when row `e` of `U` is the source row of `X`. -/
theorem scatter_scaled_apply (X : (⟨2, ![N, C]⟩ : Shape).Idx → EReal) (U : FVec Ideal ⟨2, ![R, C]⟩ .f32)
    (hU : ∀ e k, U (ix2 e k) = X (ix2 (srcRow hN src e) k)) (n : Fin N) (k : Fin C) :
    Host.scatterAdd ds (broadcastInDim ⟨2, ![N, C]⟩ ![] hb0 (constant (F := Ideal) (⟨0, ![]⟩ : Shape) .f32 0x00000000#32)) tgt
        (mulf (broadcastInDim ⟨2, ![R, C]⟩ ![0, 1] hb2 (broadcastInDim ⟨2, ![R, 1]⟩ ![0] hb1 nrm)) U) (ix2 n k)
      = agg (edges hN tgt src nrm) (mat X) n k := by
  subst hds
  rw [scatterAdd_rows_apply, zeros_apply, zero_add]
  show _ = ∑ e ∈ Finset.univ.filter (fun e : Fin R => (tgt (ix2 e (0 : Fin 1))).toInt = (n.val : Int)),
    nrm (ix1 e) * X (ix2 (srcRow hN src e) k)
  refine Finset.sum_congr rfl fun e _ => ?_
  rw [mulf_apply, across_apply, column_apply, hU]

include hdg hds in
/-- THE PROPAGATION of a matrix `X`, read at `(n, k)`, is the aggregation along the edges. -/
theorem propagate_apply (X : FVec Ideal ⟨2, ![N, C]⟩ .f32) (n : Fin N) (k : Fin C) :
    Host.scatterAdd ds (broadcastInDim ⟨2, ![N, C]⟩ ![] hb0 (constant (F := Ideal) (⟨0, ![]⟩ : Shape) .f32 0x00000000#32)) tgt
        (mulf (broadcastInDim ⟨2, ![R, C]⟩ ![0, 1] hb2 (broadcastInDim ⟨2, ![R, 1]⟩ ![0] hb1 nrm)) (Host.gather dg X src)) (ix2 n k)
      = agg (edges hN tgt src nrm) (mat X) n k := by
  refine scatter_scaled_apply hN dg wfg hdg ds wfs hds hb0 hb1 hb2 tgt src nrm X _ (fun e k => ?_) n k
  subst hdg
  exact gather_rows_apply hN wfg X src e k

include hdg hds in
/-- The same for a matrix held in a narrower float format and widened after the gather: at the extended reals the
    widening is the identity. -/
theorem propagate_widened_apply (X : FVec Ideal ⟨2, ![N, C]⟩ .bf16) (hlt : FTy.bits .bf16 < FTy.bits .f32) (n : Fin N) (k : Fin C) :
    Host.scatterAdd ds (broadcastInDim ⟨2, ![N, C]⟩ ![] hb0 (constant (F := Ideal) (⟨0, ![]⟩ : Shape) .f32 0x00000000#32)) tgt
        (mulf (broadcastInDim ⟨2, ![R, C]⟩ ![0, 1] hb2 (broadcastInDim ⟨2, ![R, 1]⟩ ![0] hb1 nrm))
          (extf .f32 (Host.gather dg X src : FVec Ideal ⟨2, ![R, C]⟩ .bf16) hlt)) (ix2 n k)
      = agg (edges hN tgt src nrm) (mat X) n k := by
  refine scatter_scaled_apply hN dg wfg hdg ds wfs hds hb0 hb1 hb2 tgt src nrm X _ (fun e k => ?_) n k
  subst hdg
  rw [extf_apply]
  exact gather_rows_apply hN wfg X src e k

end Propagation

/-! ## A product against a weight slab, and a bias along the rows -/

/-- The host's plain product read at `(n, j)` is the matrix product of the two operands seen as functions. -/
theorem dot_apply {φ₁ φ₂ : FTy} (d : DotDims ⟨2, ![N, C]⟩ ⟨2, ![C, D]⟩ ⟨2, ![N, D]⟩) (hd : d = DotDims.plain N C D)
    (prec : Option ContractPrecision) (A : FVec Ideal ⟨2, ![N, C]⟩ φ₁) (B : FVec Ideal ⟨2, ![C, D]⟩ φ₂) (n : Fin N) (j : Fin D) :
    Host.dotGeneral d prec A B (ix2 n j) = mm (mat A) (fun c j => B (ix2 c j)) n j :=
  Cert.PlainProduct.dotGeneral_plain_apply' d hd prec A B n j

/-- A bias vector laid as a row and repeated down the rows, read at `(n, j)`. -/
theorem bias_apply {α : Type} (hb1 : (⟨1, ![D]⟩ : Shape).BroadcastsInDim ⟨2, ![1, D]⟩ ![1])
    (hb2 : (⟨2, ![1, D]⟩ : Shape).BroadcastsInDim ⟨2, ![N, D]⟩ ![0, 1]) (b : (⟨1, ![D]⟩ : Shape).Idx → α) (n : Fin N) (j : Fin D) :
    broadcastInDim ⟨2, ![N, D]⟩ ![0, 1] hb2 (broadcastInDim ⟨2, ![1, D]⟩ ![1] hb1 b) (ix2 n j) = b (ix1 j) := by
  rw [broadcastInDim_oneRow_apply, asRow_apply]

end Cert.Propagate

end
-- ==== Proof.KernelRead.lean ====
/-
  The kernel program's result, read at an index.

  Each projection is a matrix product with a weight slab; each propagation is the aggregation along the edges (a matrix
  held in the narrower float format is the same matrix over the extended reals); the first and third combine steps are
  a layer with the products taken first, the second is the direct form.  So before the final normalisation the result
  is three layers of the graph convolution: products first, direct, products first.
-/
import proofs.«135650_j10402410791478_2_alg».proof.Proof.KernelValue
import proofs.«135650_j10402410791478_2_alg».proof.Proof.LibPropagate
import proofs.«135650_j10402410791478_2_alg».proof.Proof.LibChebLaw

noncomputable section

namespace Cert.KernelIdeal.KernelRead

open Cert.KernelIdeal Cert.KernelIdeal.Gen Cert.KernelIdeal.HostValue Cert.KernelIdeal.RegionValue Cert.KernelIdeal.KernelValue
open Idealize.ShloMosaic Idealize.ShloMosaic.ValueIdx Cert.Cheb Cert.Propagate

/-- The edge data of the kernel program's edge arrays. -/
abbrev kEdges (row col : IVec S1600000 32) (nrm : FVec Ideal S1600000 .f32) : Edges 100000 1600000 :=
  edges (N := 100000) (by norm_num) (scatterIdx row) (gatherIdx col) nrm

abbrev two : EReal := Ideal.ofBits .f32 0x40000000#32
abbrev zero : EReal := Ideal.ofBits .f32 0x00000000#32

/-! ## The pieces -/

theorem mat_truncf64 (v : FVec Ideal S100000x64 .f32) : mat (truncf .bf16 v bitsLt_bf16_f32 : FVec Ideal S100000x64 .bf16) = mat v := rfl
theorem mat_truncf5 (v : FVec Ideal S100000x5 .f32) : mat (truncf .bf16 v bitsLt_bf16_f32 : FVec Ideal S100000x5 .bf16) = mat v := rfl

theorem mat_proj128 (x : FVec Ideal S100000x128 .f32) (W : FVec Ideal S3x128x64 .f32) (k : Fin 3) :
    mat (proj128 (truncf .bf16 x bitsLt_bf16_f32) W k) = mm (mat x) (slab W k) := by
  funext n j
  exact proj128_apply _ W k n j

theorem mat_proj64 (X : FVec Ideal S100000x64 .bf16) (W : FVec Ideal S3x64x5 .f32) (k : Fin 3) :
    mat (proj64 X W k) = mm (mat X) (slab W k) := by
  funext n j
  exact proj64_apply X W k n j

theorem mat_prop64 (row col : IVec S1600000 32) (nrm : FVec Ideal S1600000 .f32) (v : FVec Ideal S100000x64 .bf16) :
    mat (prop64 row col nrm v) = agg (kEdges row col nrm) (mat v) := by
  funext n k
  exact propagate_widened_apply (by norm_num) gather_S100000x64_S1600000x1_S1600000x64_1_0_n_n_0_1_164
    gather_S100000x64_S1600000x1_S1600000x64_1_0_n_n_0_1_164.wf rfl scatter_S100000x64_S1600000x1_S1600000x64_1_0_0_1
    scatter_S100000x64_S1600000x1_S1600000x64_1_0_0_1.wf rfl _ _ _ (scatterIdx row) (gatherIdx col) nrm v bitsLt_bf16_f32 n k

theorem mat_prop5 (row col : IVec S1600000 32) (nrm : FVec Ideal S1600000 .f32) (v : FVec Ideal S100000x5 .bf16) :
    mat (prop5 row col nrm v) = agg (kEdges row col nrm) (mat v) := by
  funext n k
  exact propagate_widened_apply (by norm_num) gather_S100000x5_S1600000x1_S1600000x5_1_0_n_n_0_1_15
    gather_S100000x5_S1600000x1_S1600000x5_1_0_n_n_0_1_15.wf rfl scatter_S100000x5_S1600000x1_S1600000x5_1_0_0_1
    scatter_S100000x5_S1600000x1_S1600000x5_1_0_0_1.wf rfl _ _ _ (scatterIdx row) (gatherIdx col) nrm v bitsLt_bf16_f32 n k

/-- A bias vector cast to one row is the vector. -/
theorem row_bias64 (b : FVec Ideal S64 .f32) : row (shapeCast S1x64 b shapeCasts_S64_S1x64) = vec b := by
  funext j
  exact shapeCast_a_1a_apply b shapeCasts_S64_S1x64 0 j

theorem row_bias5 (b : FVec Ideal S5 .f32) : row (shapeCast S1x5 b shapeCasts_S5_S1x5) = vec b := by
  funext j
  exact shapeCast_a_1a_apply b shapeCasts_S5_S1x5 0 j

theorem mat_combine64 (A0 A2 : FVec Ideal S100000x64 .bf16) (L1 L2 : FVec Ideal S100000x64 .f32) (b : FVec Ideal S1x64 .f32) :
    mat (combine64 A0 A2 L1 L2 b)
      = relu zero (fun n j => (((mat A0 n j - mat A2 n j) + mat L1 n j) + two * mat L2 n j) + row b j) := rfl

theorem mat_pre5 (A0 A2 : FVec Ideal S100000x5 .bf16) (L1 L2 : FVec Ideal S100000x5 .f32) (b : FVec Ideal S1x5 .f32) :
    mat (pre5 A0 A2 L1 L2 b) = fun n j => (((mat A0 n j - mat A2 n j) + mat L1 n j) + two * mat L2 n j) + row b j := rfl

theorem mat_third64 (t0 : FVec Ideal S100000x64 .bf16) (pt1 : FVec Ideal S100000x64 .f32) :
    mat (third64 t0 pt1) = third two (mat pt1) (mat t0) := by
  funext n c
  show broadcastInDim S100000x64 ![] bcast_S_S100000x64 (constant (F := Ideal) S_ .f32 0x40000000#32) (ix2 n c) * pt1 (ix2 n c)
    - t0 (ix2 n c) = _
  rw [broadcastInDim_scalar_apply]
  rfl

theorem mat_cheb64 (T0 T1 T2 : FVec Ideal S100000x64 .bf16) (W : FVec Ideal S3x64x64 .f32) (b : FVec Ideal S1x64 .f32) :
    mat (cheb64 T0 T1 T2 W b)
      = relu zero (fun n j => ((mm (mat T0) (slab W 0) n j + mm (mat T1) (slab W 1) n j) + mm (mat T2) (slab W 2) n j) + row b j) := rfl

/-! ## The layers -/

section Layers

variable (x : FVec Ideal S100000x128 .f32) (ei : IVec S2x1600000 32) (ew : FVec Ideal S1600000 .f32)
  (W1 : FVec Ideal S3x128x64 .f32) (b1 : FVec Ideal S64 .f32) (W3 : FVec Ideal S3x64x64 .f32) (b3 : FVec Ideal S64 .f32)
  (W4 : FVec Ideal S3x64x5 .f32) (b4 : FVec Ideal S5 .f32)

local notation "GG" => kEdges (rowOf ei) (colOf ei) (nrmRef (rowOf ei) (colOf ei) ew)

/-- The first layer: products first. -/
theorem mat_h1 : mat (h1 x ei ew W1 b1) = relu zero (layerP GG two (mat x) (slab W1 0) (slab W1 1) (slab W1 2) (vec b1)) := by
  unfold h1 o1
  rw [mat_combine64, mat_prop64, mat_prop64, mat_truncf64, mat_prop64, mat_proj128, mat_proj128, mat_proj128, row_bias64]
  rfl

/-- The second layer: the direct form. -/
theorem mat_h2 : mat (h2 x ei ew W1 b1 W3 b3)
    = relu zero (layerD GG two (mat (h1 x ei ew W1 b1)) (slab W3 0) (slab W3 1) (slab W3 2) (vec b3)) := by
  unfold h2 t2 t1
  rw [mat_cheb64, mat_third64, mat_prop64, mat_truncf64, mat_prop64, row_bias64]
  rfl

/-- The third layer before the final normalisation: products first. -/
theorem mat_pre : mat (pre5 (o3 x ei ew W1 b1 W3 b3 W4 0) (o3 x ei ew W1 b1 W3 b3 W4 2)
      (prop5 (rowOf ei) (colOf ei) (nrmRef (rowOf ei) (colOf ei) ew) (o3 x ei ew W1 b1 W3 b3 W4 1))
      (prop5 (rowOf ei) (colOf ei) (nrmRef (rowOf ei) (colOf ei) ew)
        (truncf .bf16 (prop5 (rowOf ei) (colOf ei) (nrmRef (rowOf ei) (colOf ei) ew) (o3 x ei ew W1 b1 W3 b3 W4 2)) bitsLt_bf16_f32))
      (shapeCast S1x5 b4 shapeCasts_S5_S1x5))
    = layerP GG two (mat (h2 x ei ew W1 b1 W3 b3)) (slab W4 0) (slab W4 1) (slab W4 2) (vec b4) := by
  unfold o3
  rw [mat_pre5, mat_prop5, mat_prop5, mat_truncf5, mat_prop5, mat_proj64, mat_proj64, mat_proj64, row_bias5]
  rfl

end Layers

end Cert.KernelIdeal.KernelRead

end
-- ==== Proof.RefDefs.lean ====
/-
  The reference computation as named array-level functions.

  A three-layer Chebyshev graph convolution of order three over an edge list. Every function below is the composition of
  the host operations the reference program runs for that piece, in the program's order and with the program's own
  dimension records, at the ideal instance (a float an extended real, every operation the exact one). Each shared
  intermediate — the edge coefficients, a layer's input, a propagated term — is an ARGUMENT of the function that uses
  it, so it is written once however often it is read.
-/
import proofs.«135650_j10402410791478_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-! ## The edge list -/

/-- Row `k` of the edge index array [2, E] as a vector [E]. -/
def edgeRow (ei : IVec S2x1600000 32) (off : Fin S2x1600000.rank → Nat) (h : S2x1600000.Slices off S1x1600000) :
    IVec S1600000 32 :=
  shapeCast S1600000 (extractStridedSlice S1x1600000 off ei h) shapeCasts_S1x1600000_S1600000

/-- The target node of every edge. -/
def rowOf (ei : IVec S2x1600000 32) : IVec S1600000 32 := edgeRow ei ![0, 0] slices_S2x1600000_S1x1600000_0_0
/-- The source node of every edge. -/
def colOf (ei : IVec S2x1600000 32) : IVec S1600000 32 := edgeRow ei ![1, 0] slices_S2x1600000_S1x1600000_1_0

/-- Node indices as a gather reads them: a negative index is shifted up by the number of nodes; laid out as a column [E, 1]. -/
def gatherIdx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- Node indices as an accumulating scatter reads them: laid out as a column [E, 1], not shifted. -/
def scatterIdx (a : IVec S1600000 32) : IVec S1600000x1 32 :=
  broadcastInDim S1600000x1 ![0] bcast_S1600000_S1600000x1_0 a

/-! ## The symmetric normalisation -/

/-- The weighted degree of every node: the edge weights summed into their target nodes. -/
def degRef (row : IVec S1600000 32) (w : FVec Ideal S1600000 .f32) : FVec Ideal S100000 .f32 :=
  Host.scatterAdd (F := Ideal) scatter_S100000_S1600000x1_S1600000_n_0_0_1
    (broadcastInDim S100000 ![] bcast_S_S100000 (constant (F := Ideal) S_ .f32 0x00000000#32)) (scatterIdx row) w

/-- `deg > 0`, node by node. -/
def degPos (deg : FVec Ideal S100000 .f32) : IVec S100000 1 :=
  cmpf .ogt deg (broadcastInDim S100000 ![] bcast_S_S100000 (constant (F := Ideal) S_ .f32 0x00000000#32))

/-- `deg^(-1/2)` where the degree is positive and 0 elsewhere. -/
def dinvRef (deg : FVec Ideal S100000 .f32) : FVec Ideal S100000 .f32 :=
  select (degPos deg)
    (Host.rsqrt (F := Ideal) (select (degPos deg) deg
      (broadcastInDim S100000 ![] bcast_S_S100000 (id (constant (F := Ideal) S_ .f32 0x3F800000#32)))))
    (broadcastInDim S100000 ![] bcast_S_S100000 (id (constant (F := Ideal) S_ .f32 0x00000000#32)))

/-- The coefficient of every edge: `−dinv[target] · weight · dinv[source]`. -/
def nrmOf (dinv : FVec Ideal S100000 .f32) (row col : IVec S1600000 32) (w : FVec Ideal S1600000 .f32) :
    FVec Ideal S1600000 .f32 :=
  mulf (mulf (Host.negf (F := Ideal) (Host.gather gather_S100000_S1600000x1_S1600000_n_0_n_n_0_1_1 dinv (gatherIdx row))) w)
    (Host.gather gather_S100000_S1600000x1_S1600000_n_0_n_n_0_1_1 dinv (gatherIdx col))

/-- The edge coefficients from the edge list and the weights. -/
def nrmRef (row col : IVec S1600000 32) (w : FVec Ideal S1600000 .f32) : FVec Ideal S1600000 .f32 :=
  nrmOf (dinvRef (degRef row w)) row col w

/-! ## Propagation along the edges -/

/-- One propagation step at width 128: every edge takes its source row of `v`, scales it by the edge's coefficient, and adds
    it into its target row of a zero matrix. -/
def prop128 (row col : IVec S1600000 32) (nrm : FVec Ideal S1600000 .f32) (v : FVec Ideal S100000x128 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (scatterIdx row)
    (mulf (broadcastInDim S1600000x128 ![0, 1] bcast_S1600000x1_S1600000x128_0_1
        (broadcastInDim S1600000x1 ![0] bcast_S1600000_S1600000x1_0 nrm))
      (Host.gather gather_S100000x128_S1600000x1_S1600000x128_1_0_n_n_0_1_1128 v (gatherIdx col)))

/-- The second Chebyshev term at width 128 from the first two: twice the propagated first term minus the zeroth. -/
def cheb2_128 (t0 pt1 : FVec Ideal S100000x128 .f32) : FVec Ideal S100000x128 .f32 :=
  subf (mulf (broadcastInDim S100000x128 ![] bcast_S_S100000x128 (constant (F := Ideal) S_ .f32 0x40000000#32)) pt1) t0

/-- One propagation step at width 64: every edge takes its source row of `v`, scales it by the edge's coefficient, and adds
    it into its target row of a zero matrix. -/
def prop64 (row col : IVec S1600000 32) (nrm : FVec Ideal S1600000 .f32) (v : FVec Ideal S100000x64 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (scatterIdx row)
    (mulf (broadcastInDim S1600000x64 ![0, 1] bcast_S1600000x1_S1600000x64_0_1
        (broadcastInDim S1600000x1 ![0] bcast_S1600000_S1600000x1_0 nrm))
      (Host.gather gather_S100000x64_S1600000x1_S1600000x64_1_0_n_n_0_1_164 v (gatherIdx col)))

/-- The second Chebyshev term at width 64 from the first two: twice the propagated first term minus the zeroth. -/
def cheb2_64 (t0 pt1 : FVec Ideal S100000x64 .f32) : FVec Ideal S100000x64 .f32 :=
  subf (mulf (broadcastInDim S100000x64 ![] bcast_S_S100000x64 (constant (F := Ideal) S_ .f32 0x40000000#32)) pt1) t0

/-! ## One convolution -/

/-- Slice `k` of a weight stack [3, 128, 64] as a matrix [128, 64]. -/
def wslice128x64 (W : FVec Ideal S3x128x64 .f32) (off : Fin S3x128x64.rank → Nat) (h : S3x128x64.Slices off S1x128x64) :
    FVec Ideal S128x64 .f32 :=
  shapeCast S128x64 (extractStridedSlice S1x128x64 off W h) shapeCasts_S1x128x64_S128x64

/-- Slice `k` of a weight stack [3, 64, 64] as a matrix [64, 64]. -/
def wslice64x64 (W : FVec Ideal S3x64x64 .f32) (off : Fin S3x64x64.rank → Nat) (h : S3x64x64.Slices off S1x64x64) :
    FVec Ideal S64x64 .f32 :=
  shapeCast S64x64 (extractStridedSlice S1x64x64 off W h) shapeCasts_S1x64x64_S64x64

/-- Slice `k` of a weight stack [3, 64, 5] as a matrix [64, 5]. -/
def wslice64x5 (W : FVec Ideal S3x64x5 .f32) (off : Fin S3x64x5.rank → Nat) (h : S3x64x5.Slices off S1x64x5) :
    FVec Ideal S64x5 .f32 :=
  shapeCast S64x5 (extractStridedSlice S1x64x5 off W h) shapeCasts_S1x64x5_S64x5

/-- The three Chebyshev terms contracted with the three weight slices, summed, plus the bias along the rows. -/
def chebSum128x64 (t0 t1 t2 : FVec Ideal S100000x128 .f32) (W : FVec Ideal S3x128x64 .f32) (b : FVec Ideal S64 .f32) :
    FVec Ideal S100000x64 .f32 :=
  addf (addf (addf
        (Host.dotGeneral (F := Ideal) dot_S100000x128_S128x64_S100000x64_1_0_0_1_n_n none t0
          (wslice128x64 W ![0, 0, 0] slices_S3x128x64_S1x128x64_0_0_0))
        (Host.dotGeneral (F := Ideal) dot_S100000x128_S128x64_S100000x64_1_0_0_1_n_n none t1
          (wslice128x64 W ![1, 0, 0] slices_S3x128x64_S1x128x64_1_0_0)))
      (Host.dotGeneral (F := Ideal) dot_S100000x128_S128x64_S100000x64_1_0_0_1_n_n none t2
        (wslice128x64 W ![2, 0, 0] slices_S3x128x64_S1x128x64_2_0_0)))
    (broadcastInDim S100000x64 ![0, 1] bcast_S1x64_S100000x64_0_1 (broadcastInDim S1x64 ![1] bcast_S64_S1x64_1 b))

/-- A Chebyshev convolution of order three, 128 features to 64: `T₀ = x`, `T₁ = P x`, `T₂ = 2 P T₁ − T₀`. -/
def cheb128x64 (x : FVec Ideal S100000x128 .f32) (row col : IVec S1600000 32) (nrm : FVec Ideal S1600000 .f32)
    (W : FVec Ideal S3x128x64 .f32) (b : FVec Ideal S64 .f32) : FVec Ideal S100000x64 .f32 :=
  chebSum128x64 x (prop128 row col nrm x) (cheb2_128 x (prop128 row col nrm (prop128 row col nrm x))) W b

/-- The three Chebyshev terms contracted with the three weight slices, summed, plus the bias along the rows. -/
def chebSum64x64 (t0 t1 t2 : FVec Ideal S100000x64 .f32) (W : FVec Ideal S3x64x64 .f32) (b : FVec Ideal S64 .f32) :
    FVec Ideal S100000x64 .f32 :=
  addf (addf (addf
        (Host.dotGeneral (F := Ideal) dot_S100000x64_S64x64_S100000x64_1_0_0_1_n_n none t0
          (wslice64x64 W ![0, 0, 0] slices_S3x64x64_S1x64x64_0_0_0))
        (Host.dotGeneral (F := Ideal) dot_S100000x64_S64x64_S100000x64_1_0_0_1_n_n none t1
          (wslice64x64 W ![1, 0, 0] slices_S3x64x64_S1x64x64_1_0_0)))
      (Host.dotGeneral (F := Ideal) dot_S100000x64_S64x64_S100000x64_1_0_0_1_n_n none t2
        (wslice64x64 W ![2, 0, 0] slices_S3x64x64_S1x64x64_2_0_0)))
    (broadcastInDim S100000x64 ![0, 1] bcast_S1x64_S100000x64_0_1 (broadcastInDim S1x64 ![1] bcast_S64_S1x64_1 b))

/-- A Chebyshev convolution of order three, 64 features to 64: `T₀ = x`, `T₁ = P x`, `T₂ = 2 P T₁ − T₀`. -/
def cheb64x64 (x : FVec Ideal S100000x64 .f32) (row col : IVec S1600000 32) (nrm : FVec Ideal S1600000 .f32)
    (W : FVec Ideal S3x64x64 .f32) (b : FVec Ideal S64 .f32) : FVec Ideal S100000x64 .f32 :=
  chebSum64x64 x (prop64 row col nrm x) (cheb2_64 x (prop64 row col nrm (prop64 row col nrm x))) W b

/-- The three Chebyshev terms contracted with the three weight slices, summed, plus the bias along the rows. -/
def chebSum64x5 (t0 t1 t2 : FVec Ideal S100000x64 .f32) (W : FVec Ideal S3x64x5 .f32) (b : FVec Ideal S5 .f32) :
    FVec Ideal S100000x5 .f32 :=
  addf (addf (addf
        (Host.dotGeneral (F := Ideal) dot_S100000x64_S64x5_S100000x5_1_0_0_1_n_n none t0
          (wslice64x5 W ![0, 0, 0] slices_S3x64x5_S1x64x5_0_0_0))
        (Host.dotGeneral (F := Ideal) dot_S100000x64_S64x5_S100000x5_1_0_0_1_n_n none t1
          (wslice64x5 W ![1, 0, 0] slices_S3x64x5_S1x64x5_1_0_0)))
      (Host.dotGeneral (F := Ideal) dot_S100000x64_S64x5_S100000x5_1_0_0_1_n_n none t2
        (wslice64x5 W ![2, 0, 0] slices_S3x64x5_S1x64x5_2_0_0)))
    (broadcastInDim S100000x5 ![0, 1] bcast_S1x5_S100000x5_0_1 (broadcastInDim S1x5 ![1] bcast_S5_S1x5_1 b))

/-- A Chebyshev convolution of order three, 64 features to 5: `T₀ = x`, `T₁ = P x`, `T₂ = 2 P T₁ − T₀`. -/
def cheb64x5 (x : FVec Ideal S100000x64 .f32) (row col : IVec S1600000 32) (nrm : FVec Ideal S1600000 .f32)
    (W : FVec Ideal S3x64x5 .f32) (b : FVec Ideal S5 .f32) : FVec Ideal S100000x5 .f32 :=
  chebSum64x5 x (prop64 row col nrm x) (cheb2_64 x (prop64 row col nrm (prop64 row col nrm x))) W b

/-- The rectifier on [N, 64]: the maximum with zero. -/
def relu64 (v : FVec Ideal S100000x64 .f32) : FVec Ideal S100000x64 .f32 :=
  maximumf v (broadcastInDim S100000x64 ![] bcast_S_S100000x64 (constant (F := Ideal) S_ .f32 0x00000000#32))

/-! ## The three layers -/

def layerRef128to64 (x : FVec Ideal S100000x128 .f32) (row col : IVec S1600000 32) (nrm : FVec Ideal S1600000 .f32)
    (W : FVec Ideal S3x128x64 .f32) (b : FVec Ideal S64 .f32) : FVec Ideal S100000x64 .f32 :=
  relu64 (cheb128x64 x row col nrm W b)

def layerRef64to64 (x : FVec Ideal S100000x64 .f32) (row col : IVec S1600000 32) (nrm : FVec Ideal S1600000 .f32)
    (W : FVec Ideal S3x64x64 .f32) (b : FVec Ideal S64 .f32) : FVec Ideal S100000x64 .f32 :=
  relu64 (cheb64x64 x row col nrm W b)

def layerRef64to5 (x : FVec Ideal S100000x64 .f32) (row col : IVec S1600000 32) (nrm : FVec Ideal S1600000 .f32)
    (W : FVec Ideal S3x64x5 .f32) (b : FVec Ideal S5 .f32) : FVec Ideal S100000x5 .f32 :=
  cheb64x5 x row col nrm W b

/-! ## The row-wise logarithm of the softmax -/

/-- Every row minus its maximum (the maximum taken from −∞ twice, as the program does). -/
def lsmShift (h : FVec Ideal S100000x5 .f32) : FVec Ideal S100000x5 .f32 :=
  subf h (broadcastInDim S100000x5 ![0, 1] bcast_S100000x1_S100000x5_0_1
    (broadcastInDim S100000x1 ![0] bcast_S100000_S100000x1_0
      (maximumf (broadcastInDim S100000 ![] bcast_S_S100000 (constant (F := Ideal) S_ .f32 0xFF800000#32))
        (Host.reduce FloatOps.maximumf h (constant (F := Ideal) S_ .f32 0xFF800000#32) reducesTo_S100000x5_S100000_d1 h_S_))))

/-- The logarithm of every row's sum of exponentials, along the row. -/
def lsmLogSum (s : FVec Ideal S100000x5 .f32) : FVec Ideal S100000x5 .f32 :=
  broadcastInDim S100000x5 ![0, 1] bcast_S100000x1_S100000x5_0_1
    (Host.log (F := Ideal) (broadcastInDim S100000x1 ![0] bcast_S100000_S100000x1_0
      (Host.reduceAdd (F := Ideal) (Host.exp (F := Ideal) s) (constant (F := Ideal) S_ .f32 0x00000000#32)
        reducesTo_S100000x5_S100000_d1 h_S_)))

def logSoftmaxRef (h : FVec Ideal S100000x5 .f32) : FVec Ideal S100000x5 .f32 :=
  subf (lsmShift h) (lsmLogSum (lsmShift h))

/-! ## The whole reference -/

/-- The three layers and the final normalisation over a GIVEN edge list and coefficients. -/
def refNet (x : FVec Ideal S100000x128 .f32) (row col : IVec S1600000 32) (nrm : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32) : FVec Ideal S100000x5 .f32 :=
  logSoftmaxRef (layerRef64to5 (layerRef64to64 (layerRef128to64 x row col nrm W1 b1) row col nrm W3 b3) row col nrm W4 b4)

/-- The reference's result as a function of its nine arguments. -/
def refOut (x : FVec Ideal S100000x128 .f32) (ei : IVec S2x1600000 32) (w : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32) : FVec Ideal S100000x5 .f32 :=
  refNet x (rowOf ei) (colOf ei) (nrmRef (rowOf ei) (colOf ei) w) W1 b1 W3 b3 W4 b4

end Cert.ReferenceIdeal.RefValue

end
-- ==== Proof.RefRead.lean ====
/-
  The reference's named functions read at an index.

  Each layer of the reference, seen as a function of a node and a feature coordinate, is the direct form of a Chebyshev
  convolution of order three over the edges that the two index columns and the coefficient vector describe: a propagation
  is the aggregation along those edges, a contraction with a weight slice is a matrix product, the bias is added along the
  rows, and the rectifier is the maximum with zero. The final normalisation is the row-wise logarithm of the softmax.
  Nothing here needs the data to be real: these are readings, not laws.
-/
import proofs.«135650_j10402410791478_2_alg».proof.Proof.RefDefs
import proofs.«135650_j10402410791478_2_alg».proof.Proof.LibChebLaw
import proofs.«135650_j10402410791478_2_alg».proof.Proof.LibPropagate
import proofs.«135650_j10402410791478_2_alg».proof.Proof.LibLogSoftmax

noncomputable section

open scoped BigOperators

namespace Cert.ReferenceIdeal.RefRead

open Cert.ReferenceIdeal Cert.ReferenceIdeal.Gen Cert.ReferenceIdeal.RefValue Idealize.ShloMosaic Idealize.ShloMosaic.ValueIdx
open Cert.Cheb Cert.Propagate

/-- The edges the reference propagates along: the targets as the scatter reads them, the sources as the gather reads them. -/
abbrev refEdges (row col : IVec S1600000 32) (nrm : FVec Ideal S1600000 .f32) : Edges 100000 1600000 :=
  edges (N := 100000) (by norm_num) (scatterIdx row) (gatherIdx col) nrm

/-- The factor two of the recurrence, as its single-precision word. -/
abbrev two : EReal := Ideal.ofBits .f32 0x40000000#32
/-- The rectifier's threshold, as its single-precision word. -/
abbrev zero : EReal := Ideal.ofBits .f32 0x00000000#32

/-! ## The pieces of a layer -/

/-- The propagation at width 128 is the aggregation along the edges. -/
theorem mat_prop128 (row col : IVec S1600000 32) (nrm : FVec Ideal S1600000 .f32) (v : FVec Ideal S100000x128 .f32) :
    mat (prop128 row col nrm v) = agg (refEdges row col nrm) (mat v) := by
  funext n k
  show prop128 row col nrm v (ix2 n k) = _
  unfold prop128
  exact propagate_apply (N := 100000) (R := 1600000) (C := 128) (by norm_num)
    gather_S100000x128_S1600000x1_S1600000x128_1_0_n_n_0_1_1128 gather_S100000x128_S1600000x1_S1600000x128_1_0_n_n_0_1_1128_wf rfl
    scatter_S100000x128_S1600000x1_S1600000x128_1_0_0_1 scatter_S100000x128_S1600000x1_S1600000x128_1_0_0_1_wf rfl
    bcast_S_S100000x128 bcast_S1600000_S1600000x1_0 bcast_S1600000x1_S1600000x128_0_1
    (scatterIdx row) (gatherIdx col) nrm v n k

/-- The second Chebyshev term at width 128. -/
theorem mat_cheb2_128 (t0 pt1 : FVec Ideal S100000x128 .f32) : mat (cheb2_128 t0 pt1) = third two (mat pt1) (mat t0) := by
  funext n c
  show cheb2_128 t0 pt1 (ix2 n c) = two * pt1 (ix2 n c) - t0 (ix2 n c)
  unfold cheb2_128
  rw [subf_apply, mulf_apply, broadcastInDim_scalar_apply, constant_apply]

/-- The propagation at width 64 is the aggregation along the edges. -/
theorem mat_prop64 (row col : IVec S1600000 32) (nrm : FVec Ideal S1600000 .f32) (v : FVec Ideal S100000x64 .f32) :
    mat (prop64 row col nrm v) = agg (refEdges row col nrm) (mat v) := by
  funext n k
  show prop64 row col nrm v (ix2 n k) = _
  unfold prop64
  exact propagate_apply (N := 100000) (R := 1600000) (C := 64) (by norm_num)
    gather_S100000x64_S1600000x1_S1600000x64_1_0_n_n_0_1_164 gather_S100000x64_S1600000x1_S1600000x64_1_0_n_n_0_1_164_wf rfl
    scatter_S100000x64_S1600000x1_S1600000x64_1_0_0_1 scatter_S100000x64_S1600000x1_S1600000x64_1_0_0_1_wf rfl
    bcast_S_S100000x64 bcast_S1600000_S1600000x1_0 bcast_S1600000x1_S1600000x64_0_1
    (scatterIdx row) (gatherIdx col) nrm v n k

/-- The second Chebyshev term at width 64. -/
theorem mat_cheb2_64 (t0 pt1 : FVec Ideal S100000x64 .f32) : mat (cheb2_64 t0 pt1) = third two (mat pt1) (mat t0) := by
  funext n c
  show cheb2_64 t0 pt1 (ix2 n c) = two * pt1 (ix2 n c) - t0 (ix2 n c)
  unfold cheb2_64
  rw [subf_apply, mulf_apply, broadcastInDim_scalar_apply, constant_apply]

/-- The rectifier on [N, 64]. -/
theorem mat_relu64 (v : FVec Ideal S100000x64 .f32) : mat (relu64 v) = relu zero (mat v) := by
  funext n j
  show relu64 v (ix2 n j) = max (v (ix2 n j)) zero
  unfold relu64
  rw [maximumf_apply, broadcastInDim_scalar_apply, constant_apply]

/-! ## The three layers -/

/-- The three contractions and the bias at width 128 → 64, as functions of the coordinates. -/
theorem mat_chebSum128x64 (t0 t1 t2 : FVec Ideal S100000x128 .f32) (W : FVec Ideal S3x128x64 .f32) (b : FVec Ideal S64 .f32) :
    mat (chebSum128x64 t0 t1 t2 W b)
      = fun n j => ((mm (mat t0) (slab W 0) n j + mm (mat t1) (slab W 1) n j) + mm (mat t2) (slab W 2) n j) + vec b j := by
  funext n j
  show chebSum128x64 t0 t1 t2 W b (ix2 n j) = _
  unfold chebSum128x64
  simp only [addf_apply, dot_apply dot_S100000x128_S128x64_S100000x64_1_0_0_1_n_n rfl]
  rw [bias_apply]
  have e0 : (fun c j => wslice128x64 W ![0, 0, 0] slices_S3x128x64_S1x128x64_0_0_0 (ix2 c j)) = slab W 0 :=
    funext fun c => funext fun j => slab_apply 0 _ rfl _ _ W c j
  have e1 : (fun c j => wslice128x64 W ![1, 0, 0] slices_S3x128x64_S1x128x64_1_0_0 (ix2 c j)) = slab W 1 :=
    funext fun c => funext fun j => slab_apply 1 _ rfl _ _ W c j
  have e2 : (fun c j => wslice128x64 W ![2, 0, 0] slices_S3x128x64_S1x128x64_2_0_0 (ix2 c j)) = slab W 2 :=
    funext fun c => funext fun j => slab_apply 2 _ rfl _ _ W c j
  rw [e0, e1, e2]
  rfl

/-- The layer 128 → 64 read as the direct form of the convolution over the edges the index columns and the
    coefficients describe, under the rectifier. -/
theorem layerRef128to64_mat (x : FVec Ideal S100000x128 .f32) (row col : IVec S1600000 32) (nrm : FVec Ideal S1600000 .f32)
    (W : FVec Ideal S3x128x64 .f32) (b : FVec Ideal S64 .f32) :
    mat (layerRef128to64 x row col nrm W b)
      = relu zero (layerD (refEdges row col nrm) two (mat x) (slab W 0) (slab W 1) (slab W 2) (vec b)) := by
  unfold layerRef128to64 cheb128x64
  simp only [mat_relu64, mat_chebSum128x64, mat_cheb2_128, mat_prop128]
  rfl

/-- The three contractions and the bias at width 64 → 64, as functions of the coordinates. -/
theorem mat_chebSum64x64 (t0 t1 t2 : FVec Ideal S100000x64 .f32) (W : FVec Ideal S3x64x64 .f32) (b : FVec Ideal S64 .f32) :
    mat (chebSum64x64 t0 t1 t2 W b)
      = fun n j => ((mm (mat t0) (slab W 0) n j + mm (mat t1) (slab W 1) n j) + mm (mat t2) (slab W 2) n j) + vec b j := by
  funext n j
  show chebSum64x64 t0 t1 t2 W b (ix2 n j) = _
  unfold chebSum64x64
  simp only [addf_apply, dot_apply dot_S100000x64_S64x64_S100000x64_1_0_0_1_n_n rfl]
  rw [bias_apply]
  have e0 : (fun c j => wslice64x64 W ![0, 0, 0] slices_S3x64x64_S1x64x64_0_0_0 (ix2 c j)) = slab W 0 :=
    funext fun c => funext fun j => slab_apply 0 _ rfl _ _ W c j
  have e1 : (fun c j => wslice64x64 W ![1, 0, 0] slices_S3x64x64_S1x64x64_1_0_0 (ix2 c j)) = slab W 1 :=
    funext fun c => funext fun j => slab_apply 1 _ rfl _ _ W c j
  have e2 : (fun c j => wslice64x64 W ![2, 0, 0] slices_S3x64x64_S1x64x64_2_0_0 (ix2 c j)) = slab W 2 :=
    funext fun c => funext fun j => slab_apply 2 _ rfl _ _ W c j
  rw [e0, e1, e2]
  rfl

/-- The layer 64 → 64 read as the direct form of the convolution over the edges the index columns and the
    coefficients describe, under the rectifier. -/
theorem layerRef64to64_mat (x : FVec Ideal S100000x64 .f32) (row col : IVec S1600000 32) (nrm : FVec Ideal S1600000 .f32)
    (W : FVec Ideal S3x64x64 .f32) (b : FVec Ideal S64 .f32) :
    mat (layerRef64to64 x row col nrm W b)
      = relu zero (layerD (refEdges row col nrm) two (mat x) (slab W 0) (slab W 1) (slab W 2) (vec b)) := by
  unfold layerRef64to64 cheb64x64
  simp only [mat_relu64, mat_chebSum64x64, mat_cheb2_64, mat_prop64]
  rfl

/-- The three contractions and the bias at width 64 → 5, as functions of the coordinates. -/
theorem mat_chebSum64x5 (t0 t1 t2 : FVec Ideal S100000x64 .f32) (W : FVec Ideal S3x64x5 .f32) (b : FVec Ideal S5 .f32) :
    mat (chebSum64x5 t0 t1 t2 W b)
      = fun n j => ((mm (mat t0) (slab W 0) n j + mm (mat t1) (slab W 1) n j) + mm (mat t2) (slab W 2) n j) + vec b j := by
  funext n j
  show chebSum64x5 t0 t1 t2 W b (ix2 n j) = _
  unfold chebSum64x5
  simp only [addf_apply, dot_apply dot_S100000x64_S64x5_S100000x5_1_0_0_1_n_n rfl]
  rw [bias_apply]
  have e0 : (fun c j => wslice64x5 W ![0, 0, 0] slices_S3x64x5_S1x64x5_0_0_0 (ix2 c j)) = slab W 0 :=
    funext fun c => funext fun j => slab_apply 0 _ rfl _ _ W c j
  have e1 : (fun c j => wslice64x5 W ![1, 0, 0] slices_S3x64x5_S1x64x5_1_0_0 (ix2 c j)) = slab W 1 :=
    funext fun c => funext fun j => slab_apply 1 _ rfl _ _ W c j
  have e2 : (fun c j => wslice64x5 W ![2, 0, 0] slices_S3x64x5_S1x64x5_2_0_0 (ix2 c j)) = slab W 2 :=
    funext fun c => funext fun j => slab_apply 2 _ rfl _ _ W c j
  rw [e0, e1, e2]
  rfl

/-- The last layer 64 → 5 read as the direct form of the convolution over the edges the index columns and the
    coefficients describe. -/
theorem layerRef64to5_mat (x : FVec Ideal S100000x64 .f32) (row col : IVec S1600000 32) (nrm : FVec Ideal S1600000 .f32)
    (W : FVec Ideal S3x64x5 .f32) (b : FVec Ideal S5 .f32) :
    mat (layerRef64to5 x row col nrm W b)
      = layerD (refEdges row col nrm) two (mat x) (slab W 0) (slab W 1) (slab W 2) (vec b) := by
  unfold layerRef64to5 cheb64x5
  simp only [mat_chebSum64x5, mat_cheb2_64, mat_prop64]
  rfl

/-! ## The final normalisation -/

/-- Along the reduced axis the index inserted at row `r` is `(r, k)`. -/
theorem lift_row (h : S100000x5.Reduces [1] S100000) (r : Fin 100000) (k : Fin 5) : h.lift (ix1 r) k = ix2 r k := by
  funext a
  refine Fin.ext ?_
  match a with
  | ⟨0, _⟩ => rfl
  | ⟨1, _⟩ => rfl

/-- A row minus its maximum. -/
theorem lsmShift_apply (h : FVec Ideal S100000x5 .f32) (r : Fin 100000) (j : Fin 5) :
    lsmShift h (ix2 r j) = h (ix2 r j) - Cert.LogSoftmax.rowMax5 h r := by
  have hred : S100000x5.Reduces [1] S100000 := by decide
  have hfold : Host.reduce (max : EReal → EReal → EReal) h (constant (F := Ideal) S_ .f32 0xFF800000#32)
      reducesTo_S100000x5_S100000_d1 h_S_ (ix1 r) = Cert.LogSoftmax.rowMax5 h r := by
    rw [Host.reduce_eq_fold_single max h _ reducesTo_S100000x5_S100000_d1 hred h_S_ (ix1 r), constant_apply]
    unfold Cert.LogSoftmax.rowMax5
    exact congrArg (fun f => Finset.fold max (Ideal.ofBits .f32 0xFF800000#32) f Finset.univ)
      (funext fun k => congrArg h (lift_row hred r k))
  unfold lsmShift
  rw [subf_apply, across_apply, column_apply, maximumf_apply, broadcastInDim_scalar_apply, constant_apply]
  show h (ix2 r j) - max (Ideal.ofBits .f32 0xFF800000#32)
      (Host.reduce (max : EReal → EReal → EReal) h (constant (F := Ideal) S_ .f32 0xFF800000#32)
        reducesTo_S100000x5_S100000_d1 h_S_ (ix1 r)) = _
  rw [hfold, max_eq_right]
  unfold Cert.LogSoftmax.rowMax5
  exact (Finset.le_fold_max _).mpr (Or.inl le_rfl)

/-- The host's logarithm and exponential are pointwise the exact ones. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The logarithm of a row's sum of exponentials. -/
theorem lsmLogSum_apply (s : FVec Ideal S100000x5 .f32) (r : Fin 100000) (j : Fin 5) :
    lsmLogSum s (ix2 r j) = Ideal.log (∑ k : Fin 5, Ideal.exp (s (ix2 r k))) := by
  have hred : S100000x5.Reduces [1] S100000 := by decide
  unfold lsmLogSum
  rw [across_apply, hostLog_apply, column_apply, hostReduceAdd_apply,
    Ideal.hostReduceAdd_single reducesTo_S100000x5_S100000_d1 hred, constant_apply, Ideal.ofBits_zero_f32, zero_add]
  refine congrArg Ideal.log (Finset.sum_congr rfl fun k _ => ?_)
  rw [lift_row hred r k, hostExp_apply]

/-- THE FINAL NORMALISATION is the row-wise logarithm of the softmax. -/
theorem logSoftmaxRef_eq (h : FVec Ideal S100000x5 .f32) : logSoftmaxRef h = Cert.LogSoftmax.logSoftmax5 h := by
  funext i
  obtain ⟨r, j, rfl⟩ : ∃ (r : Fin 100000) (j : Fin 5), i = ix2 r j := ⟨i 0, i 1, eq_ix2 i⟩
  unfold logSoftmaxRef
  rw [subf_apply, lsmLogSum_apply, lsmShift_apply]
  unfold Cert.LogSoftmax.logSoftmax5
  refine congrArg (fun t => (h (ix2 r j) - Cert.LogSoftmax.rowMax5 h r) - Ideal.log t) (Finset.sum_congr rfl fun k _ => ?_)
  rw [lsmShift_apply]

end Cert.ReferenceIdeal.RefRead

end
-- ==== Proof.RefNetRead.lean ====
/-
  The whole reference network read at once.

  The three layer readings chained: as a function of a node and a class, the input of the final normalisation is the
  direct form of the third convolution applied to the rectified direct form of the second applied to the rectified direct
  form of the first, all over the same edges; and the network's result is the row-wise logarithm of the softmax of it.
-/
import proofs.«135650_j10402410791478_2_alg».proof.Proof.RefRead

noncomputable section

namespace Cert.ReferenceIdeal.RefRead

open Cert.ReferenceIdeal Cert.ReferenceIdeal.Gen Cert.ReferenceIdeal.RefValue Idealize.ShloMosaic Idealize.ShloMosaic.ValueIdx
open Cert.Cheb Cert.Propagate

/-- The three layers before the final normalisation, as an array. -/
def refLogits (x : FVec Ideal S100000x128 .f32) (row col : IVec S1600000 32) (nrm : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32) : FVec Ideal S100000x5 .f32 :=
  layerRef64to5 (layerRef64to64 (layerRef128to64 x row col nrm W1 b1) row col nrm W3 b3) row col nrm W4 b4

/-- The three layers in the direct form, layer on layer. -/
theorem refLogits_mat (x : FVec Ideal S100000x128 .f32) (row col : IVec S1600000 32) (nrm : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32) :
    mat (refLogits x row col nrm W1 b1 W3 b3 W4 b4)
      = layerD (refEdges row col nrm) two
          (relu zero (layerD (refEdges row col nrm) two
            (relu zero (layerD (refEdges row col nrm) two (mat x) (slab W1 0) (slab W1 1) (slab W1 2) (vec b1)))
            (slab W3 0) (slab W3 1) (slab W3 2) (vec b3)))
          (slab W4 0) (slab W4 1) (slab W4 2) (vec b4) := by
  unfold refLogits
  rw [layerRef64to5_mat, layerRef64to64_mat, layerRef128to64_mat]

/-- The network is the row-wise logarithm of the softmax of the three layers. -/
theorem refNet_eq (x : FVec Ideal S100000x128 .f32) (row col : IVec S1600000 32) (nrm : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32) :
    refNet x row col nrm W1 b1 W3 b3 W4 b4 = Cert.LogSoftmax.logSoftmax5 (refLogits x row col nrm W1 b1 W3 b3 W4 b4) := by
  unfold refNet refLogits
  exact logSoftmaxRef_eq _

end Cert.ReferenceIdeal.RefRead

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.NrmReal.lean ====
/-
  The edge coefficients are real numbers when the edge weights are.

  The weighted degree of a node is a finite sum of edge weights; its inverse square root is taken only where the degree
  is positive (a positive real has a real inverse square root) and replaced by zero elsewhere; an edge's coefficient is
  a product of two such values, gathered at the edge's end nodes, with the edge's weight.
-/
import proofs.«135650_j10402410791478_2_alg».proof.Proof.RefDefs
import proofs.«135650_j10402410791478_2_alg».proof.Proof.LibFinite
import proofs.«135650_j10402410791478_2_alg».proof.Proof.LibPropagate

noncomputable section

namespace Cert.ReferenceIdeal.RefReal

open Cert.ReferenceIdeal Cert.ReferenceIdeal.Gen Cert.ReferenceIdeal.RefValue Idealize.ShloMosaic Idealize.ShloMosaic.ValueIdx
open Cert.Finite

/-- The weighted degrees are real. -/
theorem deg_isReal (row : IVec S1600000 32) (w : FVec Ideal S1600000 .f32) (hw : ∀ i, IsReal (w i)) (i : S100000.Idx) :
    IsReal (degRef row w i) := by
  unfold degRef
  exact scatterAdd_isReal _ _ _ _ (fun i => by rw [Cert.Propagate.zeros_apply]; exact isReal_zero) hw i

/-- The inverse square roots of the positive degrees, zero elsewhere, are real. -/
theorem dinv_isReal (deg : FVec Ideal S100000 .f32) (hd : ∀ i, IsReal (deg i)) (i : S100000.Idx) :
    IsReal (dinvRef deg i) := by
  unfold dinvRef
  rw [select_apply]
  by_cases hb : degPos deg i = 1#1
  · rw [hb, select_one]
    show IsReal (Ideal.rsqrt (select (degPos deg) deg _ i))
    rw [select_apply, hb, select_one]
    have hpos : (0 : EReal) < deg i := by
      have h1 := hb
      unfold degPos at h1
      rw [cmpf_apply, broadcastInDim_scalar_apply, constant_apply, Ideal.ofBits_zero_f32] at h1
      change Ideal.cmp .ogt (deg i) 0 = 1#1 at h1
      simp only [Ideal.cmp] at h1
      by_contra hcon
      rw [decide_eq_false hcon] at h1
      exact absurd h1 (by decide)
    obtain ⟨r, hr⟩ := hd i
    rw [hr] at hpos ⊢
    have hr0 : 0 < r := by exact_mod_cast hpos
    rw [Ideal.rsqrt_coe, if_neg (not_lt.mpr hr0.le), if_neg hr0.ne']
    exact isReal_coe _
  · rw [eq_zero_of_ne_one hb, select_zero, broadcastInDim_scalar_apply]
    exact isReal_ofBits_zero_f32

/-- A negated array, read at an index. -/
theorem hostNegf_apply {s : Shape} (v : FVec Ideal s .f32) (e : s.Idx) : Host.negf v e = -(v e) := rfl

-- the gather and the accumulating scatter stay closed below: opened at the graph's sizes they are sums over all edges
attribute [local irreducible] Host.gather Host.scatterAdd in
/-- The edge coefficients are real. -/
theorem nrm_isReal (row col : IVec S1600000 32) (w : FVec Ideal S1600000 .f32) (hw : ∀ i, IsReal (w i)) (e : S1600000.Idx) :
    IsReal (nrmRef row col w e) := by
  have hd : ∀ i, IsReal (dinvRef (degRef row w) i) := fun i => dinv_isReal _ (deg_isReal row w hw) i
  have hg : ∀ (idx : IVec S1600000x1 32) (j : S1600000.Idx),
      IsReal (Host.gather gather_S100000_S1600000x1_S1600000_n_0_n_n_0_1_1 (dinvRef (degRef row w)) idx j) :=
    fun idx j => gather_isReal _ _ idx hd j
  unfold nrmRef nrmOf
  rw [mulf_apply, mulf_apply, hostNegf_apply]
  exact (((hg _ e).neg).mul (hw e)).mul (hg _ e)

end Cert.ReferenceIdeal.RefReal

end
-- ==== Proof.Join.lean ====
/-
  The join of the two sides.

  The kernel program computes its first and third layers with the products taken first and its second layer in the direct
  form, over the edges and coefficients ITS host operations prepare; the reference computes all three in the direct form over
  the edges and coefficients it prepares. The two preparations are the same operations on the same arguments, so the two edge
  data are equal; and for real node features, edge weights and parameters the products-first form of a layer equals the
  direct form (the regrouping is the distributive law, which holds among real numbers). Hence an array whose three layers are
  the kernel's has the reference's three layers, and the row-wise logarithm of its softmax is the reference's result.
-/
import proofs.«135650_j10402410791478_2_alg».proof.Proof.RefRead
import proofs.«135650_j10402410791478_2_alg».proof.Proof.RefNetRead
import proofs.«135650_j10402410791478_2_alg».proof.Proof.KernelHostDefs
import proofs.«135650_j10402410791478_2_alg».proof.Proof.LibChebLaw
import proofs.«135650_j10402410791478_2_alg».proof.Proof.LibPropagate
import proofs.«135650_j10402410791478_2_alg».proof.Proof.LibLogSoftmax
import proofs.«135650_j10402410791478_2_alg».proof.Proof.LibFinite
import proofs.«135650_j10402410791478_2_alg».proof.Proof.NrmReal

noncomputable section

namespace Cert.Join

open Cert.ReferenceIdeal Cert.ReferenceIdeal.RefValue Cert.ReferenceIdeal.RefRead Cert.ReferenceIdeal.RefReal
open Idealize.ShloMosaic Idealize.ShloMosaic.ValueIdx Cert.Cheb Cert.Propagate Cert.Finite

/-! ## The two programs prepare the same edge list and coefficients

The kernel program's functions are the reference's, written over its own copies of the shape facts and dimension records;
the copies differ in their proof fields only. The gather and the accumulating scatter stay closed: opened at the graph's
sizes they are searches and sums over all edges. -/

theorem rowOf_eq (ei : IVec S2x1600000 32) : Cert.KernelIdeal.HostValue.rowOf ei = rowOf ei := rfl
theorem colOf_eq (ei : IVec S2x1600000 32) : Cert.KernelIdeal.HostValue.colOf ei = colOf ei := rfl
theorem gatherIdx_eq (a : IVec S1600000 32) : Cert.KernelIdeal.HostValue.gatherIdx a = gatherIdx a := rfl
theorem scatterIdx_eq (a : IVec S1600000 32) : Cert.KernelIdeal.HostValue.scatterIdx a = scatterIdx a := rfl

attribute [local irreducible] Host.gather Host.scatterAdd in
theorem degRef_eq (row : IVec S1600000 32) (w : FVec Ideal S1600000 .f32) : Cert.KernelIdeal.HostValue.degRef row w = degRef row w := rfl

theorem degPos_eq (deg : FVec Ideal S100000 .f32) : Cert.KernelIdeal.HostValue.degPos deg = degPos deg := rfl

theorem dinvRef_eq (deg : FVec Ideal S100000 .f32) : Cert.KernelIdeal.HostValue.dinvRef deg = dinvRef deg := by
  unfold Cert.KernelIdeal.HostValue.dinvRef dinvRef
  rw [degPos_eq]

attribute [local irreducible] Host.gather Host.scatterAdd in
theorem nrmOf_eq (dinv : FVec Ideal S100000 .f32) (row col : IVec S1600000 32) (w : FVec Ideal S1600000 .f32) :
    Cert.KernelIdeal.HostValue.nrmOf dinv row col w = nrmOf dinv row col w := by
  unfold Cert.KernelIdeal.HostValue.nrmOf nrmOf
  rw [gatherIdx_eq, gatherIdx_eq]
  rfl

theorem nrmRef_eq (row col : IVec S1600000 32) (w : FVec Ideal S1600000 .f32) : Cert.KernelIdeal.HostValue.nrmRef row col w = nrmRef row col w := by
  unfold Cert.KernelIdeal.HostValue.nrmRef nrmRef
  rw [degRef_eq, dinvRef_eq, nrmOf_eq]

/-- The edges the kernel program propagates along. -/
abbrev kernelEdges (ei : IVec S2x1600000 32) (ew : FVec Ideal S1600000 .f32) : Edges 100000 1600000 :=
  edges (N := 100000) (by norm_num) (Cert.KernelIdeal.HostValue.scatterIdx (Cert.KernelIdeal.HostValue.rowOf ei)) (Cert.KernelIdeal.HostValue.gatherIdx (Cert.KernelIdeal.HostValue.colOf ei))
    (Cert.KernelIdeal.HostValue.nrmRef (Cert.KernelIdeal.HostValue.rowOf ei) (Cert.KernelIdeal.HostValue.colOf ei) ew)

/-- They are the reference's. -/
theorem kernelEdges_eq (ei : IVec S2x1600000 32) (ew : FVec Ideal S1600000 .f32) :
    kernelEdges ei ew = refEdges (rowOf ei) (colOf ei) (nrmRef (rowOf ei) (colOf ei) ew) := by
  unfold kernelEdges refEdges
  rw [rowOf_eq, colOf_eq, scatterIdx_eq, gatherIdx_eq, nrmRef_eq]

/-! ## The two constants are real numbers -/

theorem two_eq : two = ((2 : ℝ) : EReal) := by
  show Ideal.ofBits .f32 0x40000000#32 = ((2 : ℝ) : EReal)
  simp [Ideal.ofBits, Ideal.ieee, -EReal.coe_mul]; norm_num

theorem zero_eq : zero = ((0 : ℝ) : EReal) := by
  show Ideal.ofBits .f32 0x00000000#32 = ((0 : ℝ) : EReal)
  rw [Ideal.ofBits_zero_f32, EReal.coe_zero]

/-! ## The join -/

/-- THE JOIN. For real node features, edge weights and parameters: an array `PK` whose rows are the kernel program's third
    layer (products first) of its rectified second layer (direct) of its rectified first layer (products first), over the
    kernel program's edges, has as the row-wise logarithm of its softmax the reference's result. -/
theorem join (x : FVec Ideal S100000x128 .f32) (ei : IVec S2x1600000 32) (ew : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32)
    (hx : ∀ i, IsReal (x i)) (hew : ∀ i, IsReal (ew i))
    (hW1 : ∀ i, IsReal (W1 i)) (hb1 : ∀ i, IsReal (b1 i)) (hW3 : ∀ i, IsReal (W3 i)) (hb3 : ∀ i, IsReal (b3 i))
    (hW4 : ∀ i, IsReal (W4 i)) (hb4 : ∀ i, IsReal (b4 i))
    (PK : FVec Ideal S100000x5 .f32) (H1 H2 : Fin 100000 → Fin 64 → EReal)
    (e1 : H1 = relu zero (layerP (kernelEdges ei ew) two (mat x) (slab W1 0) (slab W1 1) (slab W1 2) (vec b1)))
    (e2 : H2 = relu zero (layerD (kernelEdges ei ew) two H1 (slab W3 0) (slab W3 1) (slab W3 2) (vec b3)))
    (e3 : mat PK = layerP (kernelEdges ei ew) two H2 (slab W4 0) (slab W4 1) (slab W4 2) (vec b4)) :
    Cert.LogSoftmax.logSoftmax5 PK = refOut x ei ew W1 b1 W3 b3 W4 b4 := by
  subst e1 e2
  -- the edges, the features and the parameters as images of real data
  obtain ⟨G, hG⟩ := edges_real (N := 100000) (by norm_num) (scatterIdx (rowOf ei)) (gatherIdx (colOf ei))
    (nrmRef (rowOf ei) (colOf ei) ew) (fun e => nrm_isReal (rowOf ei) (colOf ei) ew hew (ix1 e))
  obtain ⟨x0, hx0⟩ := mat_real x hx
  obtain ⟨u0, hu0⟩ := slab_real W1 hW1 0
  obtain ⟨u1, hu1⟩ := slab_real W1 hW1 1
  obtain ⟨u2, hu2⟩ := slab_real W1 hW1 2
  obtain ⟨bu, hbu⟩ := vec_real b1 hb1
  obtain ⟨v0, hv0⟩ := slab_real W3 hW3 0
  obtain ⟨v1, hv1⟩ := slab_real W3 hW3 1
  obtain ⟨v2, hv2⟩ := slab_real W3 hW3 2
  obtain ⟨bv, hbv⟩ := vec_real b3 hb3
  obtain ⟨w0, hw0⟩ := slab_real W4 hW4 0
  obtain ⟨w1, hw1⟩ := slab_real W4 hW4 1
  obtain ⟨w2, hw2⟩ := slab_real W4 hW4 2
  obtain ⟨bw, hbw⟩ := vec_real b4 hb4
  have hGr : refEdges (rowOf ei) (colOf ei) (nrmRef (rowOf ei) (colOf ei) ew) = G.toE := hG
  -- the two arrays have the same entries
  have hmat : mat PK = mat (refLogits x (rowOf ei) (colOf ei) (nrmRef (rowOf ei) (colOf ei) ew) W1 b1 W3 b3 W4 b4) := by
    rw [e3, refLogits_mat, kernelEdges_eq, hGr, hx0, hu0, hu1, hu2, hbu, hv0, hv1, hv2, hbv, hw0, hw1, hw2, hbw, two_eq, zero_eq]
    exact three_layers G 2 0 x0 u0 u1 u2 bu v0 v1 v2 bv w0 w1 w2 bw
  have hPK : PK = refLogits x (rowOf ei) (colOf ei) (nrmRef (rowOf ei) (colOf ei) ew) W1 b1 W3 b3 W4 b4 := by
    funext i
    obtain ⟨n, j, rfl⟩ : ∃ (n : Fin 100000) (j : Fin 5), i = ix2 n j := ⟨i 0, i 1, eq_ix2 i⟩
    exact congrFun (congrFun hmat n) j
  unfold refOut
  rw [refNet_eq, hPK]

end Cert.Join

end
-- ==== Proof.KernelFinal.lean ====
/-
  The kernel program's result is the reference's function of the same arguments, when every float argument is real.

  Before the final normalisation the kernel program's result is three layers of the graph convolution — products first,
  direct, products first — and the reference's is the direct form three times; for real data the two agree, and both
  programs then apply the same row-wise logarithm of the softmax.
-/
import proofs.«135650_j10402410791478_2_alg».proof.Proof.KernelRead
import proofs.«135650_j10402410791478_2_alg».proof.Proof.Join

noncomputable section

namespace Cert.KernelIdeal.KernelFinal

open Cert.KernelIdeal Cert.KernelIdeal.KernelValue Cert.KernelIdeal.KernelRead
open Idealize.ShloMosaic Cert.Propagate Cert.Cheb Cert.Finite

theorem kOut_eq_refOut (x : FVec Ideal S100000x128 .f32) (ei : IVec S2x1600000 32) (ew : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32)
    (hx : ∀ i, IsReal (x i)) (hew : ∀ i, IsReal (ew i)) (hW1 : ∀ i, IsReal (W1 i)) (hb1 : ∀ i, IsReal (b1 i))
    (hW3 : ∀ i, IsReal (W3 i)) (hb3 : ∀ i, IsReal (b3 i)) (hW4 : ∀ i, IsReal (W4 i)) (hb4 : ∀ i, IsReal (b4 i)) :
    kOut x ei ew W1 b1 W3 b3 W4 b4 = Cert.ReferenceIdeal.RefValue.refOut x ei ew W1 b1 W3 b3 W4 b4 := by
  unfold kOut
  exact Cert.Join.join x ei ew W1 b1 W3 b3 W4 b4 hx hew hW1 hb1 hW3 hb3 hW4 hb4 _
    (mat (h1 x ei ew W1 b1)) (mat (h2 x ei ew W1 b1 W3 b3))
    (mat_h1 x ei ew W1 b1) (mat_h2 x ei ew W1 b1 W3 b3) (mat_pre x ei ew W1 b1 W3 b3 W4 b4)

end Cert.KernelIdeal.KernelFinal

end
-- ==== Proof.RefSeg1.lean ====
/-
  The first stretch of the reference program: the two rows of the edge index array, the weighted degrees, their inverse
  square roots where positive, and the coefficient of every edge. It is read in four shorter stretches, each over an ARBITRARY
  valuation of the buffers and each with its shared input (the degrees, the inverse square roots) met once; chained, they
  give what the whole stretch leaves in the three buffers later stretches read, as the named functions of the arguments,
  and that it leaves the other arguments alone.
-/
import proofs.«135650_j10402410791478_2_alg».proof.Proof.RefDefs
import Idealize.ShloMosaic.Lib.StableHlo.Run
import proofs.«135650_j10402410791478_2_alg».proof.Proof.LibFoldRead

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The two rows of the edge index array (`main_v1`, `main_v3`). -/
def seg1a : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

set_option maxRecDepth 8192 in
/-- The weighted degrees (`main_v6`). -/
def seg1b : List (HloOp τ sig (Elt F)) :=
  [ nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    unary main_v1 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_arg2 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

set_option maxRecDepth 8192 in
/-- The inverse square roots of the positive degrees (`main_v13`). -/
def seg1c : List (HloOp τ sig (Elt F)) :=
  [ nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    binary main_v6 main_v7 main_v8 (cmpf .ogt : (⟨S100000, .f32⟩ : BufTy).Contents (Elt F) → (⟨S100000, .f32⟩ : BufTy).Contents (Elt F) → (⟨S100000, .i1⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    binary main_v6 main_v9 main_v10 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v10) (TRef.of (T := ⟨S100000, .f32⟩) main_v6) (TRef.of (T := ⟨S100000, .f32⟩) main_call0_v1) (TRef.of (T := ⟨S100000, .f32⟩) main_v11) select,
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v8) (TRef.of (T := ⟨S100000, .f32⟩) main_v12) (TRef.of (T := ⟨S100000, .f32⟩) main_call1_v1) (TRef.of (T := ⟨S100000, .f32⟩) main_v13) select ]

set_option maxRecDepth 8192 in
/-- The coefficient of every edge (`main_v30`). -/
def seg1d : List (HloOp τ sig (Elt F)) :=
  [ nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v20 main_v21 (Host.negf : (⟨S1600000, .f32⟩ : BufTy).Contents (Elt F) → (⟨S1600000, .f32⟩ : BufTy).Contents (Elt F)),
    binary main_v21 main_arg2 main_v22 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v13 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)) ]

/-- The operations up to the edge coefficients, in program order. -/
def seg1 : List (HloOp τ sig (Elt F)) := seg1a ++ seg1b ++ seg1c ++ seg1d

/-! ## The four short stretches, each over an arbitrary valuation -/

attribute [local irreducible] Host.reduce Host.reduceAdd Host.gather Host.scatterAdd in
set_option maxRecDepth 8192 in
theorem seg1a_main_v1 (V : Valuation τ sig (Elt Ideal)) :
    after (seg1a (F := Ideal)) V (Proc.devRef .tc main_v1) = rowOf (V (Proc.devRef .tc main_arg1)) := by
  unfold seg1a
  after_results_simp
  unfold rowOf edgeRow
  rfl

attribute [local irreducible] Host.reduce Host.reduceAdd Host.gather Host.scatterAdd in
set_option maxRecDepth 8192 in
theorem seg1a_main_v3 (V : Valuation τ sig (Elt Ideal)) :
    after (seg1a (F := Ideal)) V (Proc.devRef .tc main_v3) = colOf (V (Proc.devRef .tc main_arg1)) := by
  unfold seg1a
  after_results_simp
  unfold colOf edgeRow
  rfl

set_option maxRecDepth 8192 in
theorem seg1a_keeps_main_arg0 (V : Valuation τ sig (Elt Ideal)) :
    after (seg1a (F := Ideal)) V (Proc.devRef .tc main_arg0) = V (Proc.devRef .tc main_arg0) := by
  unfold seg1a
  after_results_simp

set_option maxRecDepth 8192 in
theorem seg1a_keeps_main_arg2 (V : Valuation τ sig (Elt Ideal)) :
    after (seg1a (F := Ideal)) V (Proc.devRef .tc main_arg2) = V (Proc.devRef .tc main_arg2) := by
  unfold seg1a
  after_results_simp

set_option maxRecDepth 8192 in
theorem seg1a_keeps_main_arg3 (V : Valuation τ sig (Elt Ideal)) :
    after (seg1a (F := Ideal)) V (Proc.devRef .tc main_arg3) = V (Proc.devRef .tc main_arg3) := by
  unfold seg1a
  after_results_simp

set_option maxRecDepth 8192 in
theorem seg1a_keeps_main_arg4 (V : Valuation τ sig (Elt Ideal)) :
    after (seg1a (F := Ideal)) V (Proc.devRef .tc main_arg4) = V (Proc.devRef .tc main_arg4) := by
  unfold seg1a
  after_results_simp

set_option maxRecDepth 8192 in
theorem seg1a_keeps_main_arg5 (V : Valuation τ sig (Elt Ideal)) :
    after (seg1a (F := Ideal)) V (Proc.devRef .tc main_arg5) = V (Proc.devRef .tc main_arg5) := by
  unfold seg1a
  after_results_simp

set_option maxRecDepth 8192 in
theorem seg1a_keeps_main_arg6 (V : Valuation τ sig (Elt Ideal)) :
    after (seg1a (F := Ideal)) V (Proc.devRef .tc main_arg6) = V (Proc.devRef .tc main_arg6) := by
  unfold seg1a
  after_results_simp

set_option maxRecDepth 8192 in
theorem seg1a_keeps_main_arg7 (V : Valuation τ sig (Elt Ideal)) :
    after (seg1a (F := Ideal)) V (Proc.devRef .tc main_arg7) = V (Proc.devRef .tc main_arg7) := by
  unfold seg1a
  after_results_simp

set_option maxRecDepth 8192 in
theorem seg1a_keeps_main_arg8 (V : Valuation τ sig (Elt Ideal)) :
    after (seg1a (F := Ideal)) V (Proc.devRef .tc main_arg8) = V (Proc.devRef .tc main_arg8) := by
  unfold seg1a
  after_results_simp

attribute [local irreducible] Host.reduce Host.reduceAdd Host.gather Host.scatterAdd in
set_option maxRecDepth 8192 in
theorem seg1b_main_v6 (V : Valuation τ sig (Elt Ideal)) :
    after (seg1b (F := Ideal)) V (Proc.devRef .tc main_v6) = degRef (V (Proc.devRef .tc main_v1)) (V (Proc.devRef .tc main_arg2)) := by
  unfold seg1b
  after_results_simp
  unfold degRef scatterIdx
  rfl

set_option maxRecDepth 8192 in
theorem seg1b_keeps_main_v1 (V : Valuation τ sig (Elt Ideal)) :
    after (seg1b (F := Ideal)) V (Proc.devRef .tc main_v1) = V (Proc.devRef .tc main_v1) := by
  unfold seg1b
  after_results_simp

set_option maxRecDepth 8192 in
theorem seg1b_keeps_main_v3 (V : Valuation τ sig (Elt Ideal)) :
    after (seg1b (F := Ideal)) V (Proc.devRef .tc main_v3) = V (Proc.devRef .tc main_v3) := by
  unfold seg1b
  after_results_simp

set_option maxRecDepth 8192 in
theorem seg1b_keeps_main_arg0 (V : Valuation τ sig (Elt Ideal)) :
    after (seg1b (F := Ideal)) V (Proc.devRef .tc main_arg0) = V (Proc.devRef .tc main_arg0) := by
  unfold seg1b
  after_results_simp

set_option maxRecDepth 8192 in
theorem seg1b_keeps_main_arg2 (V : Valuation τ sig (Elt Ideal)) :
    after (seg1b (F := Ideal)) V (Proc.devRef .tc main_arg2) = V (Proc.devRef .tc main_arg2) := by
  unfold seg1b
  after_results_simp

set_option maxRecDepth 8192 in
theorem seg1b_keeps_main_arg3 (V : Valuation τ sig (Elt Ideal)) :
    after (seg1b (F := Ideal)) V (Proc.devRef .tc main_arg3) = V (Proc.devRef .tc main_arg3) := by
  unfold seg1b
  after_results_simp

set_option maxRecDepth 8192 in
theorem seg1b_keeps_main_arg4 (V : Valuation τ sig (Elt Ideal)) :
    after (seg1b (F := Ideal)) V (Proc.devRef .tc main_arg4) = V (Proc.devRef .tc main_arg4) := by
  unfold seg1b
  after_results_simp

set_option maxRecDepth 8192 in
theorem seg1b_keeps_main_arg5 (V : Valuation τ sig (Elt Ideal)) :
    after (seg1b (F := Ideal)) V (Proc.devRef .tc main_arg5) = V (Proc.devRef .tc main_arg5) := by
  unfold seg1b
  after_results_simp

set_option maxRecDepth 8192 in
theorem seg1b_keeps_main_arg6 (V : Valuation τ sig (Elt Ideal)) :
    after (seg1b (F := Ideal)) V (Proc.devRef .tc main_arg6) = V (Proc.devRef .tc main_arg6) := by
  unfold seg1b
  after_results_simp

set_option maxRecDepth 8192 in
theorem seg1b_keeps_main_arg7 (V : Valuation τ sig (Elt Ideal)) :
    after (seg1b (F := Ideal)) V (Proc.devRef .tc main_arg7) = V (Proc.devRef .tc main_arg7) := by
  unfold seg1b
  after_results_simp

set_option maxRecDepth 8192 in
theorem seg1b_keeps_main_arg8 (V : Valuation τ sig (Elt Ideal)) :
    after (seg1b (F := Ideal)) V (Proc.devRef .tc main_arg8) = V (Proc.devRef .tc main_arg8) := by
  unfold seg1b
  after_results_simp

attribute [local irreducible] Host.reduce Host.reduceAdd Host.gather Host.scatterAdd in
set_option maxRecDepth 8192 in
theorem seg1c_main_v13 (V : Valuation τ sig (Elt Ideal)) :
    after (seg1c (F := Ideal)) V (Proc.devRef .tc main_v13) = dinvRef (V (Proc.devRef .tc main_v6)) := by
  unfold seg1c
  after_results_simp
  unfold dinvRef degPos
  rfl

set_option maxRecDepth 8192 in
theorem seg1c_keeps_main_v1 (V : Valuation τ sig (Elt Ideal)) :
    after (seg1c (F := Ideal)) V (Proc.devRef .tc main_v1) = V (Proc.devRef .tc main_v1) := by
  unfold seg1c
  after_results_simp

set_option maxRecDepth 8192 in
theorem seg1c_keeps_main_v3 (V : Valuation τ sig (Elt Ideal)) :
    after (seg1c (F := Ideal)) V (Proc.devRef .tc main_v3) = V (Proc.devRef .tc main_v3) := by
  unfold seg1c
  after_results_simp

set_option maxRecDepth 8192 in
theorem seg1c_keeps_main_arg0 (V : Valuation τ sig (Elt Ideal)) :
    after (seg1c (F := Ideal)) V (Proc.devRef .tc main_arg0) = V (Proc.devRef .tc main_arg0) := by
  unfold seg1c
  after_results_simp

set_option maxRecDepth 8192 in
theorem seg1c_keeps_main_arg2 (V : Valuation τ sig (Elt Ideal)) :
    after (seg1c (F := Ideal)) V (Proc.devRef .tc main_arg2) = V (Proc.devRef .tc main_arg2) := by
  unfold seg1c
  after_results_simp

set_option maxRecDepth 8192 in
theorem seg1c_keeps_main_arg3 (V : Valuation τ sig (Elt Ideal)) :
    after (seg1c (F := Ideal)) V (Proc.devRef .tc main_arg3) = V (Proc.devRef .tc main_arg3) := by
  unfold seg1c
  after_results_simp

set_option maxRecDepth 8192 in
theorem seg1c_keeps_main_arg4 (V : Valuation τ sig (Elt Ideal)) :
    after (seg1c (F := Ideal)) V (Proc.devRef .tc main_arg4) = V (Proc.devRef .tc main_arg4) := by
  unfold seg1c
  after_results_simp

set_option maxRecDepth 8192 in
theorem seg1c_keeps_main_arg5 (V : Valuation τ sig (Elt Ideal)) :
    after (seg1c (F := Ideal)) V (Proc.devRef .tc main_arg5) = V (Proc.devRef .tc main_arg5) := by
  unfold seg1c
  after_results_simp

set_option maxRecDepth 8192 in
theorem seg1c_keeps_main_arg6 (V : Valuation τ sig (Elt Ideal)) :
    after (seg1c (F := Ideal)) V (Proc.devRef .tc main_arg6) = V (Proc.devRef .tc main_arg6) := by
  unfold seg1c
  after_results_simp

set_option maxRecDepth 8192 in
theorem seg1c_keeps_main_arg7 (V : Valuation τ sig (Elt Ideal)) :
    after (seg1c (F := Ideal)) V (Proc.devRef .tc main_arg7) = V (Proc.devRef .tc main_arg7) := by
  unfold seg1c
  after_results_simp

set_option maxRecDepth 8192 in
theorem seg1c_keeps_main_arg8 (V : Valuation τ sig (Elt Ideal)) :
    after (seg1c (F := Ideal)) V (Proc.devRef .tc main_arg8) = V (Proc.devRef .tc main_arg8) := by
  unfold seg1c
  after_results_simp

attribute [local irreducible] Host.reduce Host.reduceAdd Host.gather Host.scatterAdd in
set_option maxRecDepth 8192 in
theorem seg1d_main_v30 (V : Valuation τ sig (Elt Ideal)) :
    after (seg1d (F := Ideal)) V (Proc.devRef .tc main_v30) = nrmOf (V (Proc.devRef .tc main_v13)) (V (Proc.devRef .tc main_v1)) (V (Proc.devRef .tc main_v3)) (V (Proc.devRef .tc main_arg2)) := by
  unfold seg1d
  after_results_simp
  unfold nrmOf gatherIdx
  rfl

set_option maxRecDepth 8192 in
theorem seg1d_keeps_main_v1 (V : Valuation τ sig (Elt Ideal)) :
    after (seg1d (F := Ideal)) V (Proc.devRef .tc main_v1) = V (Proc.devRef .tc main_v1) := by
  unfold seg1d
  after_results_simp

set_option maxRecDepth 8192 in
theorem seg1d_keeps_main_v3 (V : Valuation τ sig (Elt Ideal)) :
    after (seg1d (F := Ideal)) V (Proc.devRef .tc main_v3) = V (Proc.devRef .tc main_v3) := by
  unfold seg1d
  after_results_simp

set_option maxRecDepth 8192 in
theorem seg1d_keeps_main_arg0 (V : Valuation τ sig (Elt Ideal)) :
    after (seg1d (F := Ideal)) V (Proc.devRef .tc main_arg0) = V (Proc.devRef .tc main_arg0) := by
  unfold seg1d
  after_results_simp

set_option maxRecDepth 8192 in
theorem seg1d_keeps_main_arg3 (V : Valuation τ sig (Elt Ideal)) :
    after (seg1d (F := Ideal)) V (Proc.devRef .tc main_arg3) = V (Proc.devRef .tc main_arg3) := by
  unfold seg1d
  after_results_simp

set_option maxRecDepth 8192 in
theorem seg1d_keeps_main_arg4 (V : Valuation τ sig (Elt Ideal)) :
    after (seg1d (F := Ideal)) V (Proc.devRef .tc main_arg4) = V (Proc.devRef .tc main_arg4) := by
  unfold seg1d
  after_results_simp

set_option maxRecDepth 8192 in
theorem seg1d_keeps_main_arg5 (V : Valuation τ sig (Elt Ideal)) :
    after (seg1d (F := Ideal)) V (Proc.devRef .tc main_arg5) = V (Proc.devRef .tc main_arg5) := by
  unfold seg1d
  after_results_simp

set_option maxRecDepth 8192 in
theorem seg1d_keeps_main_arg6 (V : Valuation τ sig (Elt Ideal)) :
    after (seg1d (F := Ideal)) V (Proc.devRef .tc main_arg6) = V (Proc.devRef .tc main_arg6) := by
  unfold seg1d
  after_results_simp

set_option maxRecDepth 8192 in
theorem seg1d_keeps_main_arg7 (V : Valuation τ sig (Elt Ideal)) :
    after (seg1d (F := Ideal)) V (Proc.devRef .tc main_arg7) = V (Proc.devRef .tc main_arg7) := by
  unfold seg1d
  after_results_simp

set_option maxRecDepth 8192 in
theorem seg1d_keeps_main_arg8 (V : Valuation τ sig (Elt Ideal)) :
    after (seg1d (F := Ideal)) V (Proc.devRef .tc main_arg8) = V (Proc.devRef .tc main_arg8) := by
  unfold seg1d
  after_results_simp

/-! ## The whole stretch -/

theorem after_seg1 (V : Valuation τ sig (Elt Ideal)) :
    after (seg1 (F := Ideal)) V = after seg1d (after seg1c (after seg1b (after seg1a V))) := by
  unfold seg1
  simp only [after_append]

theorem seg1_main_v1 (V : Valuation τ sig (Elt Ideal)) :
    after (seg1 (F := Ideal)) V (Proc.devRef .tc main_v1) = rowOf (V (Proc.devRef .tc main_arg1)) := by
  rw [after_seg1, seg1d_keeps_main_v1, seg1c_keeps_main_v1, seg1b_keeps_main_v1, seg1a_main_v1]

theorem seg1_main_v3 (V : Valuation τ sig (Elt Ideal)) :
    after (seg1 (F := Ideal)) V (Proc.devRef .tc main_v3) = colOf (V (Proc.devRef .tc main_arg1)) := by
  rw [after_seg1, seg1d_keeps_main_v3, seg1c_keeps_main_v3, seg1b_keeps_main_v3, seg1a_main_v3]

theorem seg1_main_v30 (V : Valuation τ sig (Elt Ideal)) :
    after (seg1 (F := Ideal)) V (Proc.devRef .tc main_v30)
      = nrmRef (rowOf (V (Proc.devRef .tc main_arg1))) (colOf (V (Proc.devRef .tc main_arg1))) (V (Proc.devRef .tc main_arg2)) := by
  rw [after_seg1, seg1d_main_v30, seg1c_main_v13, seg1b_main_v6,
    seg1c_keeps_main_v1, seg1c_keeps_main_v3, seg1c_keeps_main_arg2,
    seg1b_keeps_main_v1, seg1b_keeps_main_v3, seg1b_keeps_main_arg2,
    seg1a_main_v1, seg1a_main_v3, seg1a_keeps_main_arg2]
  rfl

theorem seg1_keeps_main_arg0 (V : Valuation τ sig (Elt Ideal)) :
    after (seg1 (F := Ideal)) V (Proc.devRef .tc main_arg0) = V (Proc.devRef .tc main_arg0) := by
  rw [after_seg1, seg1d_keeps_main_arg0, seg1c_keeps_main_arg0, seg1b_keeps_main_arg0, seg1a_keeps_main_arg0]

theorem seg1_keeps_main_arg3 (V : Valuation τ sig (Elt Ideal)) :
    after (seg1 (F := Ideal)) V (Proc.devRef .tc main_arg3) = V (Proc.devRef .tc main_arg3) := by
  rw [after_seg1, seg1d_keeps_main_arg3, seg1c_keeps_main_arg3, seg1b_keeps_main_arg3, seg1a_keeps_main_arg3]

theorem seg1_keeps_main_arg4 (V : Valuation τ sig (Elt Ideal)) :
    after (seg1 (F := Ideal)) V (Proc.devRef .tc main_arg4) = V (Proc.devRef .tc main_arg4) := by
  rw [after_seg1, seg1d_keeps_main_arg4, seg1c_keeps_main_arg4, seg1b_keeps_main_arg4, seg1a_keeps_main_arg4]

theorem seg1_keeps_main_arg5 (V : Valuation τ sig (Elt Ideal)) :
    after (seg1 (F := Ideal)) V (Proc.devRef .tc main_arg5) = V (Proc.devRef .tc main_arg5) := by
  rw [after_seg1, seg1d_keeps_main_arg5, seg1c_keeps_main_arg5, seg1b_keeps_main_arg5, seg1a_keeps_main_arg5]

theorem seg1_keeps_main_arg6 (V : Valuation τ sig (Elt Ideal)) :
    after (seg1 (F := Ideal)) V (Proc.devRef .tc main_arg6) = V (Proc.devRef .tc main_arg6) := by
  rw [after_seg1, seg1d_keeps_main_arg6, seg1c_keeps_main_arg6, seg1b_keeps_main_arg6, seg1a_keeps_main_arg6]

theorem seg1_keeps_main_arg7 (V : Valuation τ sig (Elt Ideal)) :
    after (seg1 (F := Ideal)) V (Proc.devRef .tc main_arg7) = V (Proc.devRef .tc main_arg7) := by
  rw [after_seg1, seg1d_keeps_main_arg7, seg1c_keeps_main_arg7, seg1b_keeps_main_arg7, seg1a_keeps_main_arg7]

theorem seg1_keeps_main_arg8 (V : Valuation τ sig (Elt Ideal)) :
    after (seg1 (F := Ideal)) V (Proc.devRef .tc main_arg8) = V (Proc.devRef .tc main_arg8) := by
  rw [after_seg1, seg1d_keeps_main_arg8, seg1c_keeps_main_arg8, seg1b_keeps_main_arg8, seg1a_keeps_main_arg8]

end Cert.ReferenceIdeal.RefValue

end
-- ==== Proof.RefSeg2.lean ====
/-
  The first layer of the reference program, read over an arbitrary valuation of the buffers: its result buffer holds the
  first layer's named function of the node features, the edge list, the edge coefficients and the layer's parameters as the
  valuation has them; the edge list, the coefficients and the later layers' parameters are left alone.
-/
import proofs.«135650_j10402410791478_2_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The first layer's operations (up to `main_v74`), in program order. -/
def seg2 : List (HloOp τ sig (Elt F)) :=
  [ unary main_arg3 main_v31 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v31 main_v32 rfl shapeCasts_S1x128x64_S128x64,
    binary main_arg0 main_v32 main_v33 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v30 main_v34 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v35 (broadcastInDim S1600000 ![] bcast_S_S1600000 : (⟨S_, .i32⟩ : BufTy).Contents (Elt F) → (⟨S1600000, .i32⟩ : BufTy).Contents (Elt F)),
    binary main_v3 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v37 (broadcastInDim S1600000 ![] bcast_S_S1600000 : (⟨S_, .i32⟩ : BufTy).Contents (Elt F) → (⟨S1600000, .i32⟩ : BufTy).Contents (Elt F)),
    binary main_v3 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v3 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_arg0 main_v40 main_v41 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v34 main_v42 (broadcastInDim S1600000x128 ![0, 1] bcast_S1600000x1_S1600000x128_0_1 : (⟨S1600000x1, .f32⟩ : BufTy).Contents (Elt F) → (⟨S1600000x128, .f32⟩ : BufTy).Contents (Elt F)),
    binary main_v42 main_v41 main_v43 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v44 (broadcastInDim S100000x128 ![] bcast_S_S100000x128 : (⟨S_, .f32⟩ : BufTy).Contents (Elt F) → (⟨S100000x128, .f32⟩ : BufTy).Contents (Elt F)),
    unary main_v1 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v47 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v47 main_v48 rfl shapeCasts_S1x128x64_S128x64,
    binary main_v46 main_v48 main_v49 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v33 main_v49 main_v50 (addf : (⟨S100000x64, .f32⟩ : BufTy).Contents (Elt F) → (⟨S100000x64, .f32⟩ : BufTy).Contents (Elt F) → (⟨S100000x64, .f32⟩ : BufTy).Contents (Elt F)),
    unary main_v30 main_v51 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v52 (broadcastInDim S1600000 ![] bcast_S_S1600000 : (⟨S_, .i32⟩ : BufTy).Contents (Elt F) → (⟨S1600000, .i32⟩ : BufTy).Contents (Elt F)),
    binary main_v3 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v54 (broadcastInDim S1600000 ![] bcast_S_S1600000 : (⟨S_, .i32⟩ : BufTy).Contents (Elt F) → (⟨S1600000, .i32⟩ : BufTy).Contents (Elt F)),
    binary main_v3 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_v3 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v56 main_v57 (broadcastInDim S1600000x1 ![0] bcast_S1600000_S1600000x1_0 : (⟨S1600000, .i32⟩ : BufTy).Contents (Elt F) → (⟨S1600000x1, .i32⟩ : BufTy).Contents (Elt F)),
    binary main_v46 main_v57 main_v58 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v51 main_v59 (broadcastInDim S1600000x128 ![0, 1] bcast_S1600000x1_S1600000x128_0_1 : (⟨S1600000x1, .f32⟩ : BufTy).Contents (Elt F) → (⟨S1600000x128, .f32⟩ : BufTy).Contents (Elt F)),
    binary main_v59 main_v58 main_v60 (mulf : (⟨S1600000x128, .f32⟩ : BufTy).Contents (Elt F) → (⟨S1600000x128, .f32⟩ : BufTy).Contents (Elt F) → (⟨S1600000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v1 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_13 (constant S_ .f32 0x40000000#32),
    unary main_cst_13 main_v64 (broadcastInDim S100000x128 ![] bcast_S_S100000x128 : (⟨S_, .f32⟩ : BufTy).Contents (Elt F) → (⟨S100000x128, .f32⟩ : BufTy).Contents (Elt F)),
    binary main_v64 main_v63 main_v65 (mulf : (⟨S100000x128, .f32⟩ : BufTy).Contents (Elt F) → (⟨S100000x128, .f32⟩ : BufTy).Contents (Elt F) → (⟨S100000x128, .f32⟩ : BufTy).Contents (Elt F)),
    binary main_v65 main_arg0 main_v66 (subf : (⟨S100000x128, .f32⟩ : BufTy).Contents (Elt F) → (⟨S100000x128, .f32⟩ : BufTy).Contents (Elt F) → (⟨S100000x128, .f32⟩ : BufTy).Contents (Elt F)),
    unary main_arg3 main_v67 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v67 main_v68 rfl shapeCasts_S1x128x64_S128x64,
    binary main_v66 main_v68 main_v69 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v50 main_v69 main_v70 (addf : (⟨S100000x64, .f32⟩ : BufTy).Contents (Elt F) → (⟨S100000x64, .f32⟩ : BufTy).Contents (Elt F) → (⟨S100000x64, .f32⟩ : BufTy).Contents (Elt F)),
    unary main_arg4 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v73) (TRef.of (T := ⟨S100000x64, .f32⟩) main_call2_v0) (TRef.of (T := ⟨S100000x64, .f32⟩) main_v74) maximumf ]

attribute [local irreducible] Host.reduce Host.reduceAdd Host.gather Host.scatterAdd in
set_option maxRecDepth 8192 in
theorem seg2_main_v74 (V : Valuation τ sig (Elt Ideal)) :
    after (seg2 (F := Ideal)) V (Proc.devRef .tc main_v74)
      = layerRef128to64 (V (Proc.devRef .tc main_arg0)) (V (Proc.devRef .tc main_v1)) (V (Proc.devRef .tc main_v3)) (V (Proc.devRef .tc main_v30))
          (V (Proc.devRef .tc main_arg3)) (V (Proc.devRef .tc main_arg4)) := by
  unfold seg2
  after_results_simp
  unfold layerRef128to64 relu64 cheb128x64 chebSum128x64 cheb2_128 prop128 wslice128x64 gatherIdx scatterIdx
  rfl

set_option maxRecDepth 8192 in
theorem seg2_keeps_main_v1 (V : Valuation τ sig (Elt Ideal)) :
    after (seg2 (F := Ideal)) V (Proc.devRef .tc main_v1) = V (Proc.devRef .tc main_v1) := by
  unfold seg2
  after_results_simp

set_option maxRecDepth 8192 in
theorem seg2_keeps_main_v3 (V : Valuation τ sig (Elt Ideal)) :
    after (seg2 (F := Ideal)) V (Proc.devRef .tc main_v3) = V (Proc.devRef .tc main_v3) := by
  unfold seg2
  after_results_simp

set_option maxRecDepth 8192 in
theorem seg2_keeps_main_v30 (V : Valuation τ sig (Elt Ideal)) :
    after (seg2 (F := Ideal)) V (Proc.devRef .tc main_v30) = V (Proc.devRef .tc main_v30) := by
  unfold seg2
  after_results_simp

set_option maxRecDepth 8192 in
theorem seg2_keeps_main_arg5 (V : Valuation τ sig (Elt Ideal)) :
    after (seg2 (F := Ideal)) V (Proc.devRef .tc main_arg5) = V (Proc.devRef .tc main_arg5) := by
  unfold seg2
  after_results_simp

set_option maxRecDepth 8192 in
theorem seg2_keeps_main_arg6 (V : Valuation τ sig (Elt Ideal)) :
    after (seg2 (F := Ideal)) V (Proc.devRef .tc main_arg6) = V (Proc.devRef .tc main_arg6) := by
  unfold seg2
  after_results_simp

set_option maxRecDepth 8192 in
theorem seg2_keeps_main_arg7 (V : Valuation τ sig (Elt Ideal)) :
    after (seg2 (F := Ideal)) V (Proc.devRef .tc main_arg7) = V (Proc.devRef .tc main_arg7) := by
  unfold seg2
  after_results_simp

set_option maxRecDepth 8192 in
theorem seg2_keeps_main_arg8 (V : Valuation τ sig (Elt Ideal)) :
    after (seg2 (F := Ideal)) V (Proc.devRef .tc main_arg8) = V (Proc.devRef .tc main_arg8) := by
  unfold seg2
  after_results_simp

end Cert.ReferenceIdeal.RefValue

end
-- ==== Proof.RefSeg3.lean ====
/-
  The second layer of the reference program, read over an arbitrary valuation of the buffers.
-/
import proofs.«135650_j10402410791478_2_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The second layer's operations (up to `main_v118`), in program order. -/
def seg3 : List (HloOp τ sig (Elt F)) :=
  [ unary main_arg5 main_v75 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v75 main_v76 rfl shapeCasts_S1x64x64_S64x64,
    binary main_v74 main_v76 main_v77 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v30 main_v78 (broadcastInDim S1600000x1 ![0] bcast_S1600000_S1600000x1_0 : (⟨S1600000, .f32⟩ : BufTy).Contents (Elt F) → (⟨S1600000x1, .f32⟩ : BufTy).Contents (Elt F)),
    nullary main_c_14 (constantI S_ 32 0#32),
    unary main_c_14 main_v79 (broadcastInDim S1600000 ![] bcast_S_S1600000 : (⟨S_, .i32⟩ : BufTy).Contents (Elt F) → (⟨S1600000, .i32⟩ : BufTy).Contents (Elt F)),
    binary main_v3 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v81 (broadcastInDim S1600000 ![] bcast_S_S1600000 : (⟨S_, .i32⟩ : BufTy).Contents (Elt F) → (⟨S1600000, .i32⟩ : BufTy).Contents (Elt F)),
    binary main_v3 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_v3 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v74 main_v84 main_v85 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v78 main_v86 (broadcastInDim S1600000x64 ![0, 1] bcast_S1600000x1_S1600000x64_0_1 : (⟨S1600000x1, .f32⟩ : BufTy).Contents (Elt F) → (⟨S1600000x64, .f32⟩ : BufTy).Contents (Elt F)),
    binary main_v86 main_v85 main_v87 (mulf : (⟨S1600000x64, .f32⟩ : BufTy).Contents (Elt F) → (⟨S1600000x64, .f32⟩ : BufTy).Contents (Elt F) → (⟨S1600000x64, .f32⟩ : BufTy).Contents (Elt F)),
    nullary main_cst_16 (constant S_ .f32 0x00000000#32),
    unary main_cst_16 main_v88 (broadcastInDim S100000x64 ![] bcast_S_S100000x64 : (⟨S_, .f32⟩ : BufTy).Contents (Elt F) → (⟨S100000x64, .f32⟩ : BufTy).Contents (Elt F)),
    unary main_v1 main_v89 (broadcastInDim S1600000x1 ![0] bcast_S1600000_S1600000x1_0 : (⟨S1600000, .i32⟩ : BufTy).Contents (Elt F) → (⟨S1600000x1, .i32⟩ : BufTy).Contents (Elt F)),
    ternary main_v88 main_v89 main_v87 main_v90 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg5 main_v91 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v91 main_v92 rfl shapeCasts_S1x64x64_S64x64,
    binary main_v90 main_v92 main_v93 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v77 main_v93 main_v94 (addf : (⟨S100000x64, .f32⟩ : BufTy).Contents (Elt F) → (⟨S100000x64, .f32⟩ : BufTy).Contents (Elt F) → (⟨S100000x64, .f32⟩ : BufTy).Contents (Elt F)),
    unary main_v30 main_v95 (broadcastInDim S1600000x1 ![0] bcast_S1600000_S1600000x1_0 : (⟨S1600000, .f32⟩ : BufTy).Contents (Elt F) → (⟨S1600000x1, .f32⟩ : BufTy).Contents (Elt F)),
    nullary main_c_17 (constantI S_ 32 0#32),
    unary main_c_17 main_v96 (broadcastInDim S1600000 ![] bcast_S_S1600000 : (⟨S_, .i32⟩ : BufTy).Contents (Elt F) → (⟨S1600000, .i32⟩ : BufTy).Contents (Elt F)),
    binary main_v3 main_v96 main_v97 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v98 (broadcastInDim S1600000 ![] bcast_S_S1600000 : (⟨S_, .i32⟩ : BufTy).Contents (Elt F) → (⟨S1600000, .i32⟩ : BufTy).Contents (Elt F)),
    binary main_v3 main_v98 main_v99 (addi : (⟨S1600000, .i32⟩ : BufTy).Contents (Elt F) → (⟨S1600000, .i32⟩ : BufTy).Contents (Elt F) → (⟨S1600000, .i32⟩ : BufTy).Contents (Elt F)),
    ternary main_v97 main_v99 main_v3 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v100 main_v101 (broadcastInDim S1600000x1 ![0] bcast_S1600000_S1600000x1_0 : (⟨S1600000, .i32⟩ : BufTy).Contents (Elt F) → (⟨S1600000x1, .i32⟩ : BufTy).Contents (Elt F)),
    binary main_v90 main_v101 main_v102 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v95 main_v103 (broadcastInDim S1600000x64 ![0, 1] bcast_S1600000x1_S1600000x64_0_1 : (⟨S1600000x1, .f32⟩ : BufTy).Contents (Elt F) → (⟨S1600000x64, .f32⟩ : BufTy).Contents (Elt F)),
    binary main_v103 main_v102 main_v104 (mulf : (⟨S1600000x64, .f32⟩ : BufTy).Contents (Elt F) → (⟨S1600000x64, .f32⟩ : BufTy).Contents (Elt F) → (⟨S1600000x64, .f32⟩ : BufTy).Contents (Elt F)),
    nullary main_cst_19 (constant S_ .f32 0x00000000#32),
    unary main_cst_19 main_v105 (broadcastInDim S100000x64 ![] bcast_S_S100000x64 : (⟨S_, .f32⟩ : BufTy).Contents (Elt F) → (⟨S100000x64, .f32⟩ : BufTy).Contents (Elt F)),
    unary main_v1 main_v106 (broadcastInDim S1600000x1 ![0] bcast_S1600000_S1600000x1_0 : (⟨S1600000, .i32⟩ : BufTy).Contents (Elt F) → (⟨S1600000x1, .i32⟩ : BufTy).Contents (Elt F)),
    ternary main_v105 main_v106 main_v104 main_v107 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_20 (constant S_ .f32 0x40000000#32),
    unary main_cst_20 main_v108 (broadcastInDim S100000x64 ![] bcast_S_S100000x64 : (⟨S_, .f32⟩ : BufTy).Contents (Elt F) → (⟨S100000x64, .f32⟩ : BufTy).Contents (Elt F)),
    binary main_v108 main_v107 main_v109 (mulf : (⟨S100000x64, .f32⟩ : BufTy).Contents (Elt F) → (⟨S100000x64, .f32⟩ : BufTy).Contents (Elt F) → (⟨S100000x64, .f32⟩ : BufTy).Contents (Elt F)),
    binary main_v109 main_v74 main_v110 (subf : (⟨S100000x64, .f32⟩ : BufTy).Contents (Elt F) → (⟨S100000x64, .f32⟩ : BufTy).Contents (Elt F) → (⟨S100000x64, .f32⟩ : BufTy).Contents (Elt F)),
    unary main_arg5 main_v111 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v111 main_v112 rfl shapeCasts_S1x64x64_S64x64,
    binary main_v110 main_v112 main_v113 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v94 main_v113 main_v114 (addf : (⟨S100000x64, .f32⟩ : BufTy).Contents (Elt F) → (⟨S100000x64, .f32⟩ : BufTy).Contents (Elt F) → (⟨S100000x64, .f32⟩ : BufTy).Contents (Elt F)),
    unary main_arg6 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v117) (TRef.of (T := ⟨S100000x64, .f32⟩) main_call3_v0) (TRef.of (T := ⟨S100000x64, .f32⟩) main_v118) maximumf ]

attribute [local irreducible] Host.reduce Host.reduceAdd Host.gather Host.scatterAdd in
set_option maxRecDepth 8192 in
theorem seg3_main_v118 (V : Valuation τ sig (Elt Ideal)) :
    after (seg3 (F := Ideal)) V (Proc.devRef .tc main_v118)
      = layerRef64to64 (V (Proc.devRef .tc main_v74)) (V (Proc.devRef .tc main_v1)) (V (Proc.devRef .tc main_v3)) (V (Proc.devRef .tc main_v30))
          (V (Proc.devRef .tc main_arg5)) (V (Proc.devRef .tc main_arg6)) := by
  unfold seg3
  after_results_simp
  unfold layerRef64to64 relu64 cheb64x64 chebSum64x64 cheb2_64 prop64 wslice64x64 gatherIdx scatterIdx
  rfl

set_option maxRecDepth 8192 in
theorem seg3_keeps_main_v1 (V : Valuation τ sig (Elt Ideal)) :
    after (seg3 (F := Ideal)) V (Proc.devRef .tc main_v1) = V (Proc.devRef .tc main_v1) := by
  unfold seg3
  after_results_simp

set_option maxRecDepth 8192 in
theorem seg3_keeps_main_v3 (V : Valuation τ sig (Elt Ideal)) :
    after (seg3 (F := Ideal)) V (Proc.devRef .tc main_v3) = V (Proc.devRef .tc main_v3) := by
  unfold seg3
  after_results_simp

set_option maxRecDepth 8192 in
theorem seg3_keeps_main_v30 (V : Valuation τ sig (Elt Ideal)) :
    after (seg3 (F := Ideal)) V (Proc.devRef .tc main_v30) = V (Proc.devRef .tc main_v30) := by
  unfold seg3
  after_results_simp

set_option maxRecDepth 8192 in
theorem seg3_keeps_main_arg7 (V : Valuation τ sig (Elt Ideal)) :
    after (seg3 (F := Ideal)) V (Proc.devRef .tc main_arg7) = V (Proc.devRef .tc main_arg7) := by
  unfold seg3
  after_results_simp

set_option maxRecDepth 8192 in
theorem seg3_keeps_main_arg8 (V : Valuation τ sig (Elt Ideal)) :
    after (seg3 (F := Ideal)) V (Proc.devRef .tc main_arg8) = V (Proc.devRef .tc main_arg8) := by
  unfold seg3
  after_results_simp

end Cert.ReferenceIdeal.RefValue

end
-- ==== Proof.RefSeg4.lean ====
/-
  The third layer of the reference program (no rectifier), read over an arbitrary valuation of the buffers.
-/
import proofs.«135650_j10402410791478_2_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The third layer's operations (up to `main_v161`), in program order. -/
def seg4 : List (HloOp τ sig (Elt F)) :=
  [ unary main_arg7 main_v119 ((extractStridedSlice S1x64x5 ![0, 0, 0] · slices_S3x64x5_S1x64x5_0_0_0) : (⟨S3x64x5, .f32⟩ : BufTy).Contents (Elt F) → (⟨S1x64x5, .f32⟩ : BufTy).Contents (Elt F)),
    reshape main_v119 main_v120 rfl shapeCasts_S1x64x5_S64x5,
    binary main_v118 main_v120 main_v121 ((fun l r => Host.dotGeneral dot_S100000x64_S64x5_S100000x5_1_0_0_1_n_n none l r) : (⟨S100000x64, .f32⟩ : BufTy).Contents (Elt F) → (⟨S64x5, .f32⟩ : BufTy).Contents (Elt F) → (⟨S100000x5, .f32⟩ : BufTy).Contents (Elt F)),
    unary main_v30 main_v122 (broadcastInDim S1600000x1 ![0] bcast_S1600000_S1600000x1_0 : (⟨S1600000, .f32⟩ : BufTy).Contents (Elt F) → (⟨S1600000x1, .f32⟩ : BufTy).Contents (Elt F)),
    nullary main_c_21 (constantI S_ 32 0#32),
    unary main_c_21 main_v123 (broadcastInDim S1600000 ![] bcast_S_S1600000 : (⟨S_, .i32⟩ : BufTy).Contents (Elt F) → (⟨S1600000, .i32⟩ : BufTy).Contents (Elt F)),
    binary main_v3 main_v123 main_v124 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v125 (broadcastInDim S1600000 ![] bcast_S_S1600000 : (⟨S_, .i32⟩ : BufTy).Contents (Elt F) → (⟨S1600000, .i32⟩ : BufTy).Contents (Elt F)),
    binary main_v3 main_v125 main_v126 (addi : (⟨S1600000, .i32⟩ : BufTy).Contents (Elt F) → (⟨S1600000, .i32⟩ : BufTy).Contents (Elt F) → (⟨S1600000, .i32⟩ : BufTy).Contents (Elt F)),
    ternary main_v124 main_v126 main_v3 main_v127 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v127 main_v128 (broadcastInDim S1600000x1 ![0] bcast_S1600000_S1600000x1_0 : (⟨S1600000, .i32⟩ : BufTy).Contents (Elt F) → (⟨S1600000x1, .i32⟩ : BufTy).Contents (Elt F)),
    binary main_v118 main_v128 main_v129 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v122 main_v130 (broadcastInDim S1600000x64 ![0, 1] bcast_S1600000x1_S1600000x64_0_1 : (⟨S1600000x1, .f32⟩ : BufTy).Contents (Elt F) → (⟨S1600000x64, .f32⟩ : BufTy).Contents (Elt F)),
    binary main_v130 main_v129 main_v131 (mulf : (⟨S1600000x64, .f32⟩ : BufTy).Contents (Elt F) → (⟨S1600000x64, .f32⟩ : BufTy).Contents (Elt F) → (⟨S1600000x64, .f32⟩ : BufTy).Contents (Elt F)),
    nullary main_cst_23 (constant S_ .f32 0x00000000#32),
    unary main_cst_23 main_v132 (broadcastInDim S100000x64 ![] bcast_S_S100000x64 : (⟨S_, .f32⟩ : BufTy).Contents (Elt F) → (⟨S100000x64, .f32⟩ : BufTy).Contents (Elt F)),
    unary main_v1 main_v133 (broadcastInDim S1600000x1 ![0] bcast_S1600000_S1600000x1_0 : (⟨S1600000, .i32⟩ : BufTy).Contents (Elt F) → (⟨S1600000x1, .i32⟩ : BufTy).Contents (Elt F)),
    ternary main_v132 main_v133 main_v131 main_v134 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg7 main_v135 ((extractStridedSlice S1x64x5 ![1, 0, 0] · slices_S3x64x5_S1x64x5_1_0_0) : (⟨S3x64x5, .f32⟩ : BufTy).Contents (Elt F) → (⟨S1x64x5, .f32⟩ : BufTy).Contents (Elt F)),
    reshape main_v135 main_v136 rfl shapeCasts_S1x64x5_S64x5,
    binary main_v134 main_v136 main_v137 ((fun l r => Host.dotGeneral dot_S100000x64_S64x5_S100000x5_1_0_0_1_n_n none l r) : (⟨S100000x64, .f32⟩ : BufTy).Contents (Elt F) → (⟨S64x5, .f32⟩ : BufTy).Contents (Elt F) → (⟨S100000x5, .f32⟩ : BufTy).Contents (Elt F)),
    binary main_v121 main_v137 main_v138 (addf : (⟨S100000x5, .f32⟩ : BufTy).Contents (Elt F) → (⟨S100000x5, .f32⟩ : BufTy).Contents (Elt F) → (⟨S100000x5, .f32⟩ : BufTy).Contents (Elt F)),
    unary main_v30 main_v139 (broadcastInDim S1600000x1 ![0] bcast_S1600000_S1600000x1_0 : (⟨S1600000, .f32⟩ : BufTy).Contents (Elt F) → (⟨S1600000x1, .f32⟩ : BufTy).Contents (Elt F)),
    nullary main_c_24 (constantI S_ 32 0#32),
    unary main_c_24 main_v140 (broadcastInDim S1600000 ![] bcast_S_S1600000 : (⟨S_, .i32⟩ : BufTy).Contents (Elt F) → (⟨S1600000, .i32⟩ : BufTy).Contents (Elt F)),
    binary main_v3 main_v140 main_v141 (cmpi .slt : (⟨S1600000, .i32⟩ : BufTy).Contents (Elt F) → (⟨S1600000, .i32⟩ : BufTy).Contents (Elt F) → (⟨S1600000, .i1⟩ : BufTy).Contents (Elt F)),
    nullary main_c_25 (constantI S_ 32 100000#32),
    unary main_c_25 main_v142 (broadcastInDim S1600000 ![] bcast_S_S1600000 : (⟨S_, .i32⟩ : BufTy).Contents (Elt F) → (⟨S1600000, .i32⟩ : BufTy).Contents (Elt F)),
    binary main_v3 main_v142 main_v143 (addi : (⟨S1600000, .i32⟩ : BufTy).Contents (Elt F) → (⟨S1600000, .i32⟩ : BufTy).Contents (Elt F) → (⟨S1600000, .i32⟩ : BufTy).Contents (Elt F)),
    ternary main_v141 main_v143 main_v3 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v144 main_v145 (broadcastInDim S1600000x1 ![0] bcast_S1600000_S1600000x1_0 : (⟨S1600000, .i32⟩ : BufTy).Contents (Elt F) → (⟨S1600000x1, .i32⟩ : BufTy).Contents (Elt F)),
    binary main_v134 main_v145 main_v146 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v139 main_v147 (broadcastInDim S1600000x64 ![0, 1] bcast_S1600000x1_S1600000x64_0_1 : (⟨S1600000x1, .f32⟩ : BufTy).Contents (Elt F) → (⟨S1600000x64, .f32⟩ : BufTy).Contents (Elt F)),
    binary main_v147 main_v146 main_v148 (mulf : (⟨S1600000x64, .f32⟩ : BufTy).Contents (Elt F) → (⟨S1600000x64, .f32⟩ : BufTy).Contents (Elt F) → (⟨S1600000x64, .f32⟩ : BufTy).Contents (Elt F)),
    nullary main_cst_26 (constant S_ .f32 0x00000000#32),
    unary main_cst_26 main_v149 (broadcastInDim S100000x64 ![] bcast_S_S100000x64 : (⟨S_, .f32⟩ : BufTy).Contents (Elt F) → (⟨S100000x64, .f32⟩ : BufTy).Contents (Elt F)),
    unary main_v1 main_v150 (broadcastInDim S1600000x1 ![0] bcast_S1600000_S1600000x1_0 : (⟨S1600000, .i32⟩ : BufTy).Contents (Elt F) → (⟨S1600000x1, .i32⟩ : BufTy).Contents (Elt F)),
    ternary main_v149 main_v150 main_v148 main_v151 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_27 (constant S_ .f32 0x40000000#32),
    unary main_cst_27 main_v152 (broadcastInDim S100000x64 ![] bcast_S_S100000x64 : (⟨S_, .f32⟩ : BufTy).Contents (Elt F) → (⟨S100000x64, .f32⟩ : BufTy).Contents (Elt F)),
    binary main_v152 main_v151 main_v153 (mulf : (⟨S100000x64, .f32⟩ : BufTy).Contents (Elt F) → (⟨S100000x64, .f32⟩ : BufTy).Contents (Elt F) → (⟨S100000x64, .f32⟩ : BufTy).Contents (Elt F)),
    binary main_v153 main_v118 main_v154 (subf : (⟨S100000x64, .f32⟩ : BufTy).Contents (Elt F) → (⟨S100000x64, .f32⟩ : BufTy).Contents (Elt F) → (⟨S100000x64, .f32⟩ : BufTy).Contents (Elt F)),
    unary main_arg7 main_v155 ((extractStridedSlice S1x64x5 ![2, 0, 0] · slices_S3x64x5_S1x64x5_2_0_0) : (⟨S3x64x5, .f32⟩ : BufTy).Contents (Elt F) → (⟨S1x64x5, .f32⟩ : BufTy).Contents (Elt F)),
    reshape main_v155 main_v156 rfl shapeCasts_S1x64x5_S64x5,
    binary main_v154 main_v156 main_v157 ((fun l r => Host.dotGeneral dot_S100000x64_S64x5_S100000x5_1_0_0_1_n_n none l r) : (⟨S100000x64, .f32⟩ : BufTy).Contents (Elt F) → (⟨S64x5, .f32⟩ : BufTy).Contents (Elt F) → (⟨S100000x5, .f32⟩ : BufTy).Contents (Elt F)),
    binary main_v138 main_v157 main_v158 (addf : (⟨S100000x5, .f32⟩ : BufTy).Contents (Elt F) → (⟨S100000x5, .f32⟩ : BufTy).Contents (Elt F) → (⟨S100000x5, .f32⟩ : BufTy).Contents (Elt F)),
    unary main_arg8 main_v159 (broadcastInDim S1x5 ![1] bcast_S5_S1x5_1 : (⟨S5, .f32⟩ : BufTy).Contents (Elt F) → (⟨S1x5, .f32⟩ : BufTy).Contents (Elt F)),
    unary main_v159 main_v160 (broadcastInDim S100000x5 ![0, 1] bcast_S1x5_S100000x5_0_1 : (⟨S1x5, .f32⟩ : BufTy).Contents (Elt F) → (⟨S100000x5, .f32⟩ : BufTy).Contents (Elt F)),
    binary main_v158 main_v160 main_v161 (addf : (⟨S100000x5, .f32⟩ : BufTy).Contents (Elt F) → (⟨S100000x5, .f32⟩ : BufTy).Contents (Elt F) → (⟨S100000x5, .f32⟩ : BufTy).Contents (Elt F)) ]

attribute [local irreducible] Host.reduce Host.reduceAdd Host.gather Host.scatterAdd in
set_option maxRecDepth 8192 in
theorem seg4_main_v161 (V : Valuation τ sig (Elt Ideal)) :
    after (seg4 (F := Ideal)) V (Proc.devRef .tc main_v161)
      = layerRef64to5 (V (Proc.devRef .tc main_v118)) (V (Proc.devRef .tc main_v1)) (V (Proc.devRef .tc main_v3)) (V (Proc.devRef .tc main_v30))
          (V (Proc.devRef .tc main_arg7)) (V (Proc.devRef .tc main_arg8)) := by
  unfold seg4
  after_results_simp
  unfold layerRef64to5 cheb64x5 chebSum64x5 cheb2_64 prop64 wslice64x5 gatherIdx scatterIdx
  rfl

end Cert.ReferenceIdeal.RefValue

end
-- ==== Proof.RefSeg5.lean ====
/-
  The last stretch of the reference program: the row-wise logarithm of the softmax, read over an arbitrary valuation.
-/
import proofs.«135650_j10402410791478_2_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The final normalisation's operations (up to `main_v162`), in program order. -/
def seg5 : List (HloOp τ sig (Elt F)) :=
  [ TRef.nullary (TRef.of (T := ⟨S_, .f32⟩) main_call4_cst) (constant S_ .f32 0xFF800000#32),
    TRef.binary (TRef.of (T := ⟨S100000x5, .f32⟩) main_v161) (TRef.of (T := ⟨S_, .f32⟩) main_call4_cst) (TRef.of (T := ⟨S100000, .f32⟩) main_call4_v0) (fun x v => Host.reduce FloatOps.maximumf x v reducesTo_S100000x5_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x5, .f32⟩) main_call4_v4) (broadcastInDim S100000x5 ![0, 1] bcast_S100000x1_S100000x5_0_1),
    TRef.binary (TRef.of (T := ⟨S100000x5, .f32⟩) main_v161) (TRef.of (T := ⟨S100000x5, .f32⟩) main_call4_v4) (TRef.of (T := ⟨S100000x5, .f32⟩) main_call4_v5) subf,
    TRef.unary (TRef.of (T := ⟨S100000x5, .f32⟩) main_call4_v5) (TRef.of (T := ⟨S100000x5, .f32⟩) main_call4_v6) Host.exp,
    TRef.nullary (TRef.of (T := ⟨S_, .f32⟩) main_call4_cst_1) (constant S_ .f32 0x00000000#32),
    TRef.binary (TRef.of (T := ⟨S100000x5, .f32⟩) main_call4_v6) (TRef.of (T := ⟨S_, .f32⟩) main_call4_cst_1) (TRef.of (T := ⟨S100000, .f32⟩) main_call4_v7) (fun x v => Host.reduceAdd x v reducesTo_S100000x5_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x5, .f32⟩) main_call4_v10) (broadcastInDim S100000x5 ![0, 1] bcast_S100000x1_S100000x5_0_1),
    TRef.binary (TRef.of (T := ⟨S100000x5, .f32⟩) main_call4_v5) (TRef.of (T := ⟨S100000x5, .f32⟩) main_call4_v10) (TRef.of (T := ⟨S100000x5, .f32⟩) main_v162) subf ]

attribute [local irreducible] Host.reduce Host.reduceAdd Host.gather Host.scatterAdd in
set_option maxRecDepth 8192 in
theorem seg5_main_v162 (V : Valuation τ sig (Elt Ideal)) :
    after (seg5 (F := Ideal)) V (Proc.devRef .tc main_v162) = logSoftmaxRef (V (Proc.devRef .tc main_v161)) := by
  unfold seg5
  after_results_simp
  unfold logSoftmaxRef lsmLogSum lsmShift
  rfl

end Cert.ReferenceIdeal.RefValue

end
-- ==== Proof.RefValue.lean ====
/-
  The reference program's result as the named function of its nine arguments.

  The program's 215 operations are five stretches run one after the other: the edge list and its coefficients, the three
  layers, the final normalisation. The contents after all of them are the fifth stretch's over the fourth's over … over
  the launch contents, and each stretch, read over whatever valuation it starts from, writes its named function of the few
  buffers it reads and leaves alone the buffers later stretches still need. Chaining the five readings gives the result
  buffer as `refOut` of the arguments: every shared intermediate is met once.
-/
import proofs.«135650_j10402410791478_2_alg».proof.Proof.RefRun
import proofs.«135650_j10402410791478_2_alg».proof.Proof.RefSeg1
import proofs.«135650_j10402410791478_2_alg».proof.Proof.RefSeg2
import proofs.«135650_j10402410791478_2_alg».proof.Proof.RefSeg3
import proofs.«135650_j10402410791478_2_alg».proof.Proof.RefSeg4
import proofs.«135650_j10402410791478_2_alg».proof.Proof.RefSeg5
import proofs.«135650_j10402410791478_2_alg».proof.Proof.LibFoldRead

noncomputable section

namespace Cert.ReferenceIdeal.RefRun

open Cert.ReferenceIdeal Cert.ReferenceIdeal.Gen Cert.ReferenceIdeal.RefValue Idealize.ShloMosaic Idealize.ShloMosaic.TcCoe Idealize.SL.Sem Idealize.ShloMosaic.StableHlo

set_option maxRecDepth 16384 in
/-- The program's operations are the five stretches in order. -/
theorem ops_cut : (ops (F := Ideal)) = seg1 ++ seg2 ++ seg3 ++ seg4 ++ seg5 := rfl

/-- The contents after the whole program are the stretches' contents nested. -/
theorem after_ops (V : Valuation τ sig (Elt Ideal)) :
    after (ops (F := Ideal)) V = after seg5 (after seg4 (after seg3 (after seg2 (after seg1 V)))) := by
  rw [ops_cut]
  simp only [after_append]

/-- THE VALUE: from any valuation, the result buffer after the program holds `refOut` of the nine arguments. -/
theorem value (V : Valuation τ sig (Elt Ideal)) :
    after (ops (F := Ideal)) V (Proc.devRef .tc main_v162)
      = refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  rw [after_ops, seg5_main_v162, seg4_main_v161, seg3_main_v118,
    seg3_keeps_main_v1, seg3_keeps_main_v3, seg3_keeps_main_v30, seg3_keeps_main_arg7, seg3_keeps_main_arg8,
    seg2_main_v74,
    seg2_keeps_main_v1, seg2_keeps_main_v3, seg2_keeps_main_v30, seg2_keeps_main_arg5, seg2_keeps_main_arg6,
    seg2_keeps_main_arg7, seg2_keeps_main_arg8,
    seg1_main_v1, seg1_main_v3, seg1_main_v30,
    seg1_keeps_main_arg0, seg1_keeps_main_arg3, seg1_keeps_main_arg4, seg1_keeps_main_arg5, seg1_keeps_main_arg6,
    seg1_keeps_main_arg7, seg1_keeps_main_arg8]
  rfl

/-- The run with the value read: every weakly fair execution of the reference terminates with the result buffer at
    `refOut` of the arguments' launch contents and the arguments unchanged. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v162)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (value (launchContents m c)), (h c).2⟩) (run (F := Ideal) m ρ)

end Cert.ReferenceIdeal.RefRun

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«135650_j10402410791478_2_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.FiniteInputs.lean ====
/-
  The finite-inputs precondition, opened: when the test "every float argument has only entries of finite absolute
  value" comes out true, every entry of every float argument is a real number.  The test is a conjunction of eight
  all-entries tests, one per float argument, nested to the left.
-/
import proofs.«135650_j10402410791478_2_alg».proof.Proof.Gen.Pre_finite_inputs
import proofs.«135650_j10402410791478_2_alg».proof.Proof.LibFiniteInputs

noncomputable section

namespace Cert.Pre_finite_inputs.Real

open Cert.Pre_finite_inputs Idealize.ShloMosaic Idealize.ShloMosaic.ValueIdx Cert.Finite Cert.Lib.FiniteInputs

/-- Under the precondition every entry of the eight float arguments is a real number. -/
theorem inputs_real (x : FVec Ideal S100000x128 .f32) (ei : IVec S2x1600000 32) (ew : FVec Ideal S1600000 .f32)
    (W1 : FVec Ideal S3x128x64 .f32) (b1 : FVec Ideal S64 .f32) (W3 : FVec Ideal S3x64x64 .f32) (b3 : FVec Ideal S64 .f32)
    (W4 : FVec Ideal S3x64x5 .f32) (b4 : FVec Ideal S5 .f32)
    (h : fn (F := Ideal) x ei ew W1 b1 W3 b3 W4 b4 = fun _ => 1#1) :
    (∀ i, IsReal (x i)) ∧ (∀ i, IsReal (ew i)) ∧ (∀ i, IsReal (W1 i)) ∧ (∀ i, IsReal (b1 i)) ∧ (∀ i, IsReal (W3 i))
      ∧ (∀ i, IsReal (b3 i)) ∧ (∀ i, IsReal (W4 i)) ∧ (∀ i, IsReal (b4 i)) := by
  have h0 : fn (F := Ideal) x ei ew W1 b1 W3 b3 W4 b4 ix0 = 1#1 := congrFun h ix0
  unfold fn fn_part1 fn_part2 at h0
  dsimp only at h0
  obtain ⟨h1, hb4⟩ := and_scalar _ _ h0
  obtain ⟨h2, hW4⟩ := and_scalar _ _ h1
  obtain ⟨h3, hb3⟩ := and_scalar _ _ h2
  obtain ⟨h4, hW3⟩ := and_scalar _ _ h3
  obtain ⟨h5, hb1⟩ := and_scalar _ _ h4
  obtain ⟨h6, hW1⟩ := and_scalar _ _ h5
  obtain ⟨hx, hew⟩ := and_scalar _ _ h6
  exact ⟨all_real x _ _ _ hx, all_real ew _ _ _ hew, all_real W1 _ _ _ hW1, all_real b1 _ _ _ hb1,
    all_real W3 _ _ _ hW3, all_real b3 _ _ _ hb3, all_real W4 _ _ _ hW4, all_real b4 _ _ _ hb4⟩

end Cert.Pre_finite_inputs.Real

end
-- ==== Proof.lean ====
/-
  The certificate of a three-layer Chebyshev graph convolution (order three, 128 → 64 → 64 → 5 features, a rectifier after
  the first two layers, a row-wise logarithm of the softmax at the end) computed by five kernel launches among host
  operations, against its plain reference.

  Over the extended reals a change of float format is the identity, a kernel's product into a zero accumulator is the
  plain product and a lane sum is the plain sum; so the kernel program computes, for its first and third layer,
  `(x·W₀ − x·W₂) + L (x·W₁) + 2·L (L (x·W₂)) + b` — the three products first, then the propagation `L` along the edges of
  the narrow products — where the reference computes `x·W₀ + (L x)·W₁ + (2·L (L x) − x)·W₂ + b`; the second layer is the
  direct form on both sides.  `L` is linear and commutes with a product on the right, so the two agree WHEN ALL VALUES
  ARE REAL NUMBERS, which is what the precondition gives: every float input is finite, the weighted degrees are finite
  sums of them, an inverse square root is taken only of a positive degree, and so the edge coefficients are real too.
  The regrouping uses the distributive law, which fails at the infinities: this is where the precondition is used.

  The frames of the two kernel programs are the generated ones; the reference's frame is its run with the result
  dropped; no operation was rewritten by the idealization, so there is nothing to preserve.
-/
import proofs.«135650_j10402410791478_2_alg».proof.Defs
import proofs.«135650_j10402410791478_2_alg».proof.Proof.Gen.Kernel
import proofs.«135650_j10402410791478_2_alg».proof.Proof.Gen.Kernel.Skeleton
import proofs.«135650_j10402410791478_2_alg».proof.Proof.Gen.Kernel.Launch
import proofs.«135650_j10402410791478_2_alg».proof.Proof.Gen.Kernel.Points
import proofs.«135650_j10402410791478_2_alg».proof.Proof.Gen.Kernel.Frame
import proofs.«135650_j10402410791478_2_alg».proof.Proof.Gen.KernelIdeal
import proofs.«135650_j10402410791478_2_alg».proof.Proof.Gen.KernelIdeal.Skeleton
import proofs.«135650_j10402410791478_2_alg».proof.Proof.Gen.KernelIdeal.Launch
import proofs.«135650_j10402410791478_2_alg».proof.Proof.Gen.KernelIdeal.Points
import proofs.«135650_j10402410791478_2_alg».proof.Proof.Gen.KernelIdeal.Frame
import proofs.«135650_j10402410791478_2_alg».proof.Proof.Gen.ReferenceIdeal
import proofs.«135650_j10402410791478_2_alg».proof.Proof.Gen.Pre_finite_inputs
import proofs.«135650_j10402410791478_2_alg».proof.Proof.KernelFrameValue
import proofs.«135650_j10402410791478_2_alg».proof.Proof.KernelFinal
import proofs.«135650_j10402410791478_2_alg».proof.Proof.RefValue
import proofs.«135650_j10402410791478_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run_refOut m ρ)

theorem preserves : Cert.preserves_Kernel_KernelIdeal := trivial

/-- Both programs end with the same result array: the kernel program's composition of its launches and host stretches,
    which for real inputs is the reference's function of the same arguments. -/
theorem algebraic : Cert.algebraic_KernelIdeal_ReferenceIdeal := by
  intro m ρ m' ρ' hpre hagree
  refine ⟨fun c => Cert.KernelIdeal.KernelValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KernelValue.result_eq m ρ c), (h c).2⟩)
      (Cert.KernelIdeal.GenP.frame_value (F := Ideal) m ρ)
  · refine (θ_run Cert.ReferenceIdeal.defs _ _).mono (fun _ h c => ⟨(h c).1.trans ?_, (h c).2⟩)
      (Cert.ReferenceIdeal.RefRun.run_refOut m' ρ')
    obtain ⟨a0, a1, a2, a3, a4, a5, a6, a7, a8⟩ := hagree c
    rw [a0, a1, a2, a3, a4, a5, a6, a7, a8]
    obtain ⟨hx, hew, hW1, hb1, hW3, hb3, hW4, hb4⟩ := Cert.Pre_finite_inputs.Real.inputs_real _ _ _ _ _ _ _ _ _ (hpre c)
    exact (Cert.KernelIdeal.KernelFinal.kOut_eq_refOut _ _ _ _ _ _ _ _ _ hx hew hW1 hb1 hW3 hb3 hW4 hb4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
